-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x52 : Shape := ⟨2, ![16384, 52]⟩
abbrev S13x64 : Shape := ⟨2, ![13, 64]⟩
abbrev S4x64 : Shape := ⟨2, ![4, 64]⟩
abbrev S_ : Shape := ⟨0, ![]⟩

class Facts : Prop where
  bcast_S_S16384x52 : S_.BroadcastsInDim S16384x52 (![] : Fin 0 → Fin S16384x52.rank)
  reducesTo_S16384x52_S_d0_1 : S16384x52.ReducesTo [0, 1] S_
  h_S_ : 0 < S_.numel
  bcast_S_S13x64 : S_.BroadcastsInDim S13x64 (![] : Fin 0 → Fin S13x64.rank)
  reducesTo_S13x64_S_d0_1 : S13x64.ReducesTo [0, 1] S_
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S16384x52 .f32) (main_arg1 : FVec F S13x64 .f32) (main_arg2 : FVec F S4x64 .f32) : IVec S_ 1 :=
  let main_v0 : FVec F S16384x52 .f32 := Host.absf main_arg0
  let main_cst : FVec F S_ .f32 := constant S_ .f32 0x7F800000#32
  let main_v1 : FVec F S16384x52 .f32 := broadcastInDim S16384x52 ![] bcast_S_S16384x52 main_cst
  let main_v2 : IVec S16384x52 1 := cmpf .olt main_v0 main_v1
  let main_c : IVec S_ 1 := constantI S_ 1 1#1
  let main_v3 : IVec S_ 1 := (fun x v => Host.reduce IntOp.andi x v reducesTo_S16384x52_S_d0_1 h_S_) main_v2 main_c
  let main_v4 : FVec F S13x64 .f32 := Host.absf main_arg1
  let main_cst_0 : FVec F S_ .f32 := constant S_ .f32 0x7F800000#32
  let main_v5 : FVec F S13x64 .f32 := broadcastInDim S13x64 ![] bcast_S_S13x64 main_cst_0
  let main_v6 : IVec S13x64 1 := cmpf .olt main_v4 main_v5
  let main_c_1 : IVec S_ 1 := constantI S_ 1 1#1
  let main_v7 : IVec S_ 1 := (fun x v => Host.reduce IntOp.andi x v reducesTo_S13x64_S_d0_1 h_S_) main_v6 main_c_1
  let main_v8 : IVec S_ 1 := andi main_v3 main_v7
  let main_v9 : FVec F S4x64 .f32 := Host.absf main_arg2
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  main_v13
-- ==== Kernel.lean ====
abbrev S16384x52 : Shape := ⟨2, ![16384, 52]⟩
abbrev S13x64 : Shape := ⟨2, ![13, 64]⟩
abbrev S4x64 : Shape := ⟨2, ![4, 64]⟩
abbrev S52x128 : Shape := ⟨2, ![52, 128]⟩
abbrev S64 : Shape := ⟨1, ![64]⟩
abbrev S4x128 : Shape := ⟨2, ![4, 128]⟩
abbrev S_ : Shape := ⟨0, ![]⟩
abbrev S1x64 : Shape := ⟨2, ![1, 64]⟩
abbrev S16 : Shape := ⟨1, ![16]⟩
abbrev S1x16 : Shape := ⟨2, ![1, 16]⟩
abbrev S16384x128 : Shape := ⟨2, ![16384, 128]⟩
abbrev S8192x52 : Shape := ⟨2, ![8192, 52]⟩
abbrev S8192x128 : Shape := ⟨2, ![8192, 128]⟩
abbrev S8192 : Shape := ⟨1, ![8192]⟩
abbrev S8192x1 : Shape := ⟨2, ![8192, 1]⟩

abbrev nBuf : Table → Nat
  | .hbm => 5
  | .local .tc .vmem => 5
  | .local .scVector .vmem => 3
  | _ => 0

abbrev bufTy : (tb : Table) → Fin (nBuf tb) → BufTy
  | .hbm, ⟨0, _⟩ => ⟨S16384x52, .f32⟩
  | .hbm, ⟨1, _⟩ => ⟨S13x64, .f32⟩
  | .hbm, ⟨2, _⟩ => ⟨S4x64, .f32⟩
  | .hbm, ⟨3, _⟩ => ⟨S52x128, .f32⟩
  | .hbm, ⟨4, _⟩ => ⟨S16384x128, .f32⟩
  | .local .tc .vmem, ⟨0, _⟩ => ⟨S8192x52, .f32⟩
  | .local .tc .vmem, ⟨1, _⟩ => ⟨S8192x52, .f32⟩
  | .local .tc .vmem, ⟨2, _⟩ => ⟨S52x128, .f32⟩
  | .local .tc .vmem, ⟨3, _⟩ => ⟨S8192x128, .f32⟩
  | .local .tc .vmem, ⟨4, _⟩ => ⟨S8192x128, .f32⟩
  | .local .scVector .vmem, ⟨0, _⟩ => ⟨S64, .f32⟩
  | .local .scVector .vmem, ⟨1, _⟩ => ⟨S4x64, .f32⟩
  | .local .scVector .vmem, ⟨2, _⟩ => ⟨S4x128, .f32⟩
  | _, _ => ⟨S16384x52, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_arg1_scv : Ref sig .scVector := ⟨.hbm, 1, rfl⟩
abbrev main_arg2_scv : Ref sig .scVector := ⟨.hbm, 2, rfl⟩
abbrev main_v0_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c13_i32 : BitVec 32 := 13#32
  let v2 : BitVec 1 := Scalar.cmpi .slt v1 c13_i32
  let v3 : BitVec 32 := Scalar.extui v2
  let c0_i32 : BitVec 32 := 0#32
  let v4 : BitVec 1 := Scalar.cmpi .ne v3 c0_i32
  v4

def k0_off1 (i : grid0.Coords) : Fin 2 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c0_i32_0 : BitVec 32 := 0#32
  ![v1.toNat, 0]
def k0_off2 (i : grid0.Coords) : Fin 2 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c4_i32 : BitVec 32 := 4#32
  let v221 : BitVec 32 := Scalar.muli v1 c4_i32
  let c0_i32_106_r0 : BitVec 32 := 0#32
  ![v221.toNat, 0]
abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x52 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S52x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8192x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  squeezes_S1x64_S64 : S1x64.Squeezes S64
  inb_S64_S16_0 : ∀ a, (![0] : Fin 1 → Nat) a + S16.size a ≤ S64.size a
  h_S16 : 0 < S16.numel
  shapeCasts_S16_S16 : S16.ShapeCasts S16
  inb_S4x128_S1x16_0_0 : ∀ a, (![0, 0] : Fin 2 → Nat) a + S1x16.size a ≤ S4x128.size a
  h_S1x16 : 0 < S1x16.numel
  shapeCasts_S1x16_S16 : S1x16.ShapeCasts S16
  shapeCasts_S16_S1x16 : S16.ShapeCasts S1x16
  inb_S64_S16_16 : ∀ a, (![16] : Fin 1 → Nat) a + S16.size a ≤ S64.size a
  inb_S4x128_S1x16_0_16 : ∀ a, (![0, 16] : Fin 2 → Nat) a + S1x16.size a ≤ S4x128.size a
  inb_S64_S16_32 : ∀ a, (![32] : Fin 1 → Nat) a + S16.size a ≤ S64.size a
  inb_S4x128_S1x16_0_32 : ∀ a, (![0, 32] : Fin 2 → Nat) a + S1x16.size a ≤ S4x128.size a
  inb_S64_S16_48 : ∀ a, (![48] : Fin 1 → Nat) a + S16.size a ≤ S64.size a
  inb_S4x128_S1x16_0_48 : ∀ a, (![0, 48] : Fin 2 → Nat) a + S1x16.size a ≤ S4x128.size a
  inb_S4x64_S1x16_0_0 : ∀ a, (![0, 0] : Fin 2 → Nat) a + S1x16.size a ≤ S4x64.size a
  inb_S4x128_S1x16_0_64 : ∀ a, (![0, 64] : Fin 2 → Nat) a + S1x16.size a ≤ S4x128.size a
  inb_S4x64_S1x16_0_16 : ∀ a, (![0, 16] : Fin 2 → Nat) a + S1x16.size a ≤ S4x64.size a
  inb_S4x128_S1x16_0_80 : ∀ a, (![0, 80] : Fin 2 → Nat) a + S1x16.size a ≤ S4x128.size a
  inb_S4x64_S1x16_0_32 : ∀ a, (![0, 32] : Fin 2 → Nat) a + S1x16.size a ≤ S4x64.size a
  inb_S4x128_S1x16_0_96 : ∀ a, (![0, 96] : Fin 2 → Nat) a + S1x16.size a ≤ S4x128.size a
  inb_S4x64_S1x16_0_48 : ∀ a, (![0, 48] : Fin 2 → Nat) a + S1x16.size a ≤ S4x64.size a
  inb_S4x128_S1x16_0_112 : ∀ a, (![0, 112] : Fin 2 → Nat) a + S1x16.size a ≤ S4x128.size a
  inb_S4x128_S1x16_1_0 : ∀ a, (![1, 0] : Fin 2 → Nat) a + S1x16.size a ≤ S4x128.size a
  inb_S4x128_S1x16_1_16 : ∀ a, (![1, 16] : Fin 2 → Nat) a + S1x16.size a ≤ S4x128.size a
  inb_S4x128_S1x16_1_32 : ∀ a, (![1, 32] : Fin 2 → Nat) a + S1x16.size a ≤ S4x128.size a
  inb_S4x128_S1x16_1_48 : ∀ a, (![1, 48] : Fin 2 → Nat) a + S1x16.size a ≤ S4x128.size a
  inb_S4x64_S1x16_1_0 : ∀ a, (![1, 0] : Fin 2 → Nat) a + S1x16.size a ≤ S4x64.size a
  inb_S4x128_S1x16_1_64 : ∀ a, (![1, 64] : Fin 2 → Nat) a + S1x16.size a ≤ S4x128.size a
  inb_S4x64_S1x16_1_16 : ∀ a, (![1, 16] : Fin 2 → Nat) a + S1x16.size a ≤ S4x64.size a
  inb_S4x128_S1x16_1_80 : ∀ a, (![1, 80] : Fin 2 → Nat) a + S1x16.size a ≤ S4x128.size a
  inb_S4x64_S1x16_1_32 : ∀ a, (![1, 32] : Fin 2 → Nat) a + S1x16.size a ≤ S4x64.size a
  inb_S4x128_S1x16_1_96 : ∀ a, (![1, 96] : Fin 2 → Nat) a + S1x16.size a ≤ S4x128.size a
  inb_S4x64_S1x16_1_48 : ∀ a, (![1, 48] : Fin 2 → Nat) a + S1x16.size a ≤ S4x64.size a
  inb_S4x128_S1x16_1_112 : ∀ a, (![1, 112] : Fin 2 → Nat) a + S1x16.size a ≤ S4x128.size a
  inb_S4x128_S1x16_2_0 : ∀ a, (![2, 0] : Fin 2 → Nat) a + S1x16.size a ≤ S4x128.size a
  inb_S4x128_S1x16_2_16 : ∀ a, (![2, 16] : Fin 2 → Nat) a + S1x16.size a ≤ S4x128.size a
  inb_S4x128_S1x16_2_32 : ∀ a, (![2, 32] : Fin 2 → Nat) a + S1x16.size a ≤ S4x128.size a
  inb_S4x128_S1x16_2_48 : ∀ a, (![2, 48] : Fin 2 → Nat) a + S1x16.size a ≤ S4x128.size a
  inb_S4x64_S1x16_2_0 : ∀ a, (![2, 0] : Fin 2 → Nat) a + S1x16.size a ≤ S4x64.size a
  inb_S4x128_S1x16_2_64 : ∀ a, (![2, 64] : Fin 2 → Nat) a + S1x16.size a ≤ S4x128.size a
  inb_S4x64_S1x16_2_16 : ∀ a, (![2, 16] : Fin 2 → Nat) a + S1x16.size a ≤ S4x64.size a
  inb_S4x128_S1x16_2_80 : ∀ a, (![2, 80] : Fin 2 → Nat) a + S1x16.size a ≤ S4x128.size a
  inb_S4x64_S1x16_2_32 : ∀ a, (![2, 32] : Fin 2 → Nat) a + S1x16.size a ≤ S4x64.size a
  inb_S4x128_S1x16_2_96 : ∀ a, (![2, 96] : Fin 2 → Nat) a + S1x16.size a ≤ S4x128.size a
  inb_S4x64_S1x16_2_48 : ∀ a, (![2, 48] : Fin 2 → Nat) a + S1x16.size a ≤ S4x64.size a
  inb_S4x128_S1x16_2_112 : ∀ a, (![2, 112] : Fin 2 → Nat) a + S1x16.size a ≤ S4x128.size a
  inb_S4x128_S1x16_3_0 : ∀ a, (![3, 0] : Fin 2 → Nat) a + S1x16.size a ≤ S4x128.size a
  inb_S4x128_S1x16_3_16 : ∀ a, (![3, 16] : Fin 2 → Nat) a + S1x16.size a ≤ S4x128.size a
  inb_S4x128_S1x16_3_32 : ∀ a, (![3, 32] : Fin 2 → Nat) a + S1x16.size a ≤ S4x128.size a
  inb_S4x128_S1x16_3_48 : ∀ a, (![3, 48] : Fin 2 → Nat) a + S1x16.size a ≤ S4x128.size a
  inb_S4x64_S1x16_3_0 : ∀ a, (![3, 0] : Fin 2 → Nat) a + S1x16.size a ≤ S4x64.size a
  inb_S4x128_S1x16_3_64 : ∀ a, (![3, 64] : Fin 2 → Nat) a + S1x16.size a ≤ S4x128.size a
  inb_S4x64_S1x16_3_16 : ∀ a, (![3, 16] : Fin 2 → Nat) a + S1x16.size a ≤ S4x64.size a
  inb_S4x128_S1x16_3_80 : ∀ a, (![3, 80] : Fin 2 → Nat) a + S1x16.size a ≤ S4x128.size a
  inb_S4x64_S1x16_3_32 : ∀ a, (![3, 32] : Fin 2 → Nat) a + S1x16.size a ≤ S4x64.size a
  inb_S4x128_S1x16_3_96 : ∀ a, (![3, 96] : Fin 2 → Nat) a + S1x16.size a ≤ S4x128.size a
  inb_S4x64_S1x16_3_48 : ∀ a, (![3, 48] : Fin 2 → Nat) a + S1x16.size a ≤ S4x64.size a
  inb_S4x128_S1x16_3_112 : ∀ a, (![3, 112] : Fin 2 → Nat) a + S1x16.size a ≤ S4x128.size a
  inb_S8192x52_S8192x52_0_0 : ∀ a, (![0, 0] : Fin 2 → Nat) a + S8192x52.size a ≤ S8192x52.size a
  h_S8192x52 : 0 < S8192x52.numel
  inb_S52x128_S52x128_0_0 : ∀ a, (![0, 0] : Fin 2 → Nat) a + S52x128.size a ≤ S52x128.size a
  h_S52x128 : 0 < S52x128.numel
  shapeCasts_S52x128_S52x128 : S52x128.ShapeCasts S52x128
  reduces_S8192x52_S8192 : S8192x52.Reduces [1] S8192
  shapeCasts_S8192_S8192x1 : S8192.ShapeCasts S8192x1
  broadcasts_S8192x1_S8192x128 : S8192x1.Broadcasts S8192x128
  inb_S8192x128_S8192x128_0_0 : ∀ a, (![0, 0] : Fin 2 → Nat) a + S8192x128.size a ≤ S8192x128.size a
  h_S8192x128 : 0 < S8192x128.numel
  dot_S8192x52_S52x128_S8192x128_1_0_0_1_n_n_wf : DotDims.WF S8192x52 S52x128 S8192x128 [1] [0] [0] [1] [] []
  hcc0_scratch3 : 0 + S_.numel ≤ 8
  hcc0_scratch4 : 1 + S_.numel ≤ 8
  hcc0_scoped0 : 2 + S_.numel ≤ 8
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (k0_h1 : k0_cond1 i = 1#1), ∀ a, (k0_off1 i) a + S1x64.size a ≤ S13x64.size a
  k0_off2_inb : ∀ i : grid0.Coords, ∀ (k0_h1 : k0_cond1 i = 1#1), ∀ a, (k0_off2 i) a + S4x128.size a ≤ S52x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x52.size a ≤ S16384x52.size a
  hwx1_0 : ∀ i : grid1.Coords, EltTy.bits .f32 = 32 ∨ (Rect.block (s := S16384x52) S8192x52.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S52x128.size a ≤ S52x128.size a
  hwx1_1 : ∀ i : grid1.Coords, EltTy.bits .f32 = 32 ∨ (Rect.block (s := S52x128) S52x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x128.size a ≤ S16384x128.size a
  hwx1_2 : ∀ i : grid1.Coords, EltTy.bits .f32 = 32 ∨ (Rect.block (s := S16384x128) S8192x128.size (cc1_transform_2 i) (hinb1_2 i)).WholeWords (EltTy.packing .f32)

variable [Facts₀]

abbrev cc0_scratch3 : DmaSems sig S_ := SemArray.consecutive 0 S_ hcc0_scratch3
abbrev cc0_scratch4 : DmaSems sig S_ := SemArray.consecutive 1 S_ hcc0_scratch4
abbrev cc0_scoped0 : DmaSems sig S_ := SemArray.consecutive 2 S_ hcc0_scoped0
def dot_S8192x52_S52x128_S8192x128_1_0_0_1_n_n : DotDims S8192x52 S52x128 S8192x128 where
  lhsContracting := [1]
  rhsContracting := [0]
  lhsNonContracting := [0]
  rhsNonContracting := [1]
  lhsBatch := []
  rhsBatch := []
  wf := dot_S8192x52_S52x128_S8192x128_1_0_0_1_n_n_wf

abbrev win1_0 : Pipeline.Window sig grid1 :=
  Pipeline.Window.ofSpec (Memref.whole main_arg0) S8192x52.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S52x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S8192x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16384x52 : Shape := ⟨2, ![16384, 52]⟩
abbrev S13x64 : Shape := ⟨2, ![13, 64]⟩
abbrev S4x64 : Shape := ⟨2, ![4, 64]⟩
abbrev S52 : Shape := ⟨1, ![52]⟩
abbrev S_ : Shape := ⟨0, ![]⟩
abbrev S52x1 : Shape := ⟨2, ![52, 1]⟩
abbrev S1 : Shape := ⟨1, ![1]⟩
abbrev S1x1 : Shape := ⟨2, ![1, 1]⟩
abbrev S52x64 : Shape := ⟨2, ![52, 64]⟩
abbrev S52x128 : Shape := ⟨2, ![52, 128]⟩
abbrev S1x52x128 : Shape := ⟨3, ![1, 52, 128]⟩
abbrev S16384x52x1 : Shape := ⟨3, ![16384, 52, 1]⟩
abbrev S16384x52x128 : Shape := ⟨3, ![16384, 52, 128]⟩
abbrev S16384 : Shape := ⟨1, ![16384]⟩
abbrev S16384x1 : Shape := ⟨2, ![16384, 1]⟩
abbrev S16384x128 : Shape := ⟨2, ![16384, 128]⟩

abbrev nBuf : Space → Nat
  | .hbm => 107
  | .vmem => 0
  | .smem => 0
  | _ => 0

abbrev bufTy : (tb : Table) → Fin (tcTables nBuf tb) → BufTy
  | .hbm, ⟨0, _⟩ => ⟨S16384x52, .f32⟩
  | .hbm, ⟨1, _⟩ => ⟨S13x64, .f32⟩
  | .hbm, ⟨2, _⟩ => ⟨S4x64, .f32⟩
  | .hbm, ⟨3, _⟩ => ⟨S52, .i32⟩
  | .hbm, ⟨4, _⟩ => ⟨S_, .i32⟩
  | .hbm, ⟨5, _⟩ => ⟨S_, .i32⟩
  | .hbm, ⟨6, _⟩ => ⟨S52, .i32⟩
  | .hbm, ⟨7, _⟩ => ⟨S52, .i32⟩
  | .hbm, ⟨8, _⟩ => ⟨S52, .i32⟩
  | .hbm, ⟨9, _⟩ => ⟨S_, .i32⟩
  | .hbm, ⟨10, _⟩ => ⟨S52, .i32⟩
  | .hbm, ⟨11, _⟩ => ⟨S52, .i1⟩
  | .hbm, ⟨12, _⟩ => ⟨S52, .i32⟩
  | .hbm, ⟨13, _⟩ => ⟨S52, .i32⟩
  | .hbm, ⟨14, _⟩ => ⟨S_, .i32⟩
  | .hbm, ⟨15, _⟩ => ⟨S52, .i32⟩
  | .hbm, ⟨16, _⟩ => ⟨S52, .i1⟩
  | .hbm, ⟨17, _⟩ => ⟨S52, .i1⟩
  | .hbm, ⟨18, _⟩ => ⟨S_, .i32⟩
  | .hbm, ⟨19, _⟩ => ⟨S52, .i32⟩
  | .hbm, ⟨20, _⟩ => ⟨S52, .i32⟩
  | .hbm, ⟨21, _⟩ => ⟨S52, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S52, .i32⟩
  | .hbm, ⟨29, _⟩ => ⟨S52, .i32⟩
  | .hbm, ⟨30, _⟩ => ⟨S_, .i32⟩
  | .hbm, ⟨31, _⟩ => ⟨S52, .i32⟩
  | .hbm, ⟨32, _⟩ => ⟨S52, .i1⟩
  | .hbm, ⟨33, _⟩ => ⟨S_, .i32⟩
  | .hbm, ⟨34, _⟩ => ⟨S52, .i32⟩
  | .hbm, ⟨35, _⟩ => ⟨S52, .i1⟩
  | .hbm, ⟨36, _⟩ => ⟨S_, .i32⟩
  | .hbm, ⟨37, _⟩ => ⟨S_, .i1⟩
  | .hbm, ⟨38, _⟩ => ⟨S52, .i1⟩
  | .hbm, ⟨39, _⟩ => ⟨S52, .i1⟩
  | .hbm, ⟨40, _⟩ => ⟨S52, .i1⟩
  | .hbm, ⟨41, _⟩ => ⟨S52, .i32⟩
  | .hbm, ⟨42, _⟩ => ⟨S52, .i32⟩
  | .hbm, ⟨43, _⟩ => ⟨S52, .i32⟩
  | .hbm, ⟨44, _⟩ => ⟨S_, .i32⟩
  | .hbm, ⟨45, _⟩ => ⟨S52, .i32⟩
  | .hbm, ⟨46, _⟩ => ⟨S52, .i1⟩
  | .hbm, ⟨47, _⟩ => ⟨S_, .i32⟩
  | .hbm, ⟨48, _⟩ => ⟨S52, .i32⟩
  | .hbm, ⟨49, _⟩ => ⟨S52, .i32⟩
  | .hbm, ⟨50, _⟩ => ⟨S52, .i32⟩
  | .hbm, ⟨51, _⟩ => ⟨S52x1, .i32⟩
  | .hbm, ⟨52, _⟩ => ⟨S1, .i32⟩
  | .hbm, ⟨53, _⟩ => ⟨S_, .i32⟩
  | .hbm, ⟨54, _⟩ => ⟨S52x1, .i32⟩
  | .hbm, ⟨55, _⟩ => ⟨S52x1, .i1⟩
  | .hbm, ⟨56, _⟩ => ⟨S1x1, .i32⟩
  | .hbm, ⟨57, _⟩ => ⟨S52x1, .i32⟩
  | .hbm, ⟨58, _⟩ => ⟨S52x1, .i1⟩
  | .hbm, ⟨59, _⟩ => ⟨S52x1, .i1⟩
  | .hbm, ⟨60, _⟩ => ⟨S_, .i1⟩
  | .hbm, ⟨61, _⟩ => ⟨S52, .i1⟩
  | .hbm, ⟨62, _⟩ => ⟨S52x64, .f32⟩
  | .hbm, ⟨63, _⟩ => ⟨S52x64, .i1⟩
  | .hbm, ⟨64, _⟩ => ⟨S_, .f32⟩
  | .hbm, ⟨65, _⟩ => ⟨S52x64, .f32⟩
  | .hbm, ⟨66, _⟩ => ⟨S52x64, .f32⟩
  | .hbm, ⟨67, _⟩ => ⟨S_, .i32⟩
  | .hbm, ⟨68, _⟩ => ⟨S52, .i32⟩
  | .hbm, ⟨69, _⟩ => ⟨S52, .i1⟩
  | .hbm, ⟨70, _⟩ => ⟨S_, .i32⟩
  | .hbm, ⟨71, _⟩ => ⟨S52, .i32⟩
  | .hbm, ⟨72, _⟩ => ⟨S52, .i32⟩
  | .hbm, ⟨73, _⟩ => ⟨S52, .i32⟩
  | .hbm, ⟨74, _⟩ => ⟨S52x1, .i32⟩
  | .hbm, ⟨75, _⟩ => ⟨S1, .i32⟩
  | .hbm, ⟨76, _⟩ => ⟨S_, .i32⟩
  | .hbm, ⟨77, _⟩ => ⟨S52x1, .i32⟩
  | .hbm, ⟨78, _⟩ => ⟨S52x1, .i1⟩
  | .hbm, ⟨79, _⟩ => ⟨S1x1, .i32⟩
  | .hbm, ⟨80, _⟩ => ⟨S52x1, .i32⟩
  | .hbm, ⟨81, _⟩ => ⟨S52x1, .i1⟩
  | .hbm, ⟨82, _⟩ => ⟨S52x1, .i1⟩
  | .hbm, ⟨83, _⟩ => ⟨S_, .i1⟩
  | .hbm, ⟨84, _⟩ => ⟨S52, .i1⟩
  | .hbm, ⟨85, _⟩ => ⟨S52x64, .f32⟩
  | .hbm, ⟨86, _⟩ => ⟨S52x64, .i1⟩
  | .hbm, ⟨87, _⟩ => ⟨S_, .f32⟩
  | .hbm, ⟨88, _⟩ => ⟨S52x64, .f32⟩
  | .hbm, ⟨89, _⟩ => ⟨S52x64, .f32⟩
  | .hbm, ⟨90, _⟩ => ⟨S52x128, .f32⟩
  | .hbm, ⟨91, _⟩ => ⟨S1x52x128, .f32⟩
  | .hbm, ⟨92, _⟩ => ⟨S16384x52x1, .f32⟩
  | .hbm, ⟨93, _⟩ => ⟨S16384x52x128, .f32⟩
  | .hbm, ⟨94, _⟩ => ⟨S16384x52x128, .f32⟩
  | .hbm, ⟨95, _⟩ => ⟨S16384x52x128, .f32⟩
  | .hbm, ⟨96, _⟩ => ⟨S_, .f32⟩
  | .hbm, ⟨97, _⟩ => ⟨S16384, .f32⟩
  | .hbm, ⟨98, _⟩ => ⟨S16384x1, .f32⟩
  | .hbm, ⟨99, _⟩ => ⟨S_, .f32⟩
  | .hbm, ⟨100, _⟩ => ⟨S_, .f32⟩
  | .hbm, ⟨101, _⟩ => ⟨S16384x1, .f32⟩
  | .hbm, ⟨102, _⟩ => ⟨S16384x1, .f32⟩
  | .hbm, ⟨103, _⟩ => ⟨S_, .f32⟩
  | .hbm, ⟨104, _⟩ => ⟨S16384x128, .f32⟩
  | .hbm, ⟨105, _⟩ => ⟨S16384x128, .f32⟩
  | .hbm, ⟨106, _⟩ => ⟨S16384x128, .f32⟩
  | _, _ => ⟨S16384x52, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_c_0 : Ref sig .tc := ⟨.hbm, 22, rfl⟩
abbrev main_call1_v0 : Ref sig .tc := ⟨.hbm, 23, rfl⟩
abbrev main_call1_c : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_c_1 : Ref sig .tc := ⟨.hbm, 30, rfl⟩
abbrev main_call1_v5 : Ref sig .tc := ⟨.hbm, 31, rfl⟩
abbrev main_call1_v6 : Ref sig .tc := ⟨.hbm, 32, rfl⟩
abbrev main_call1_c_2 : Ref sig .tc := ⟨.hbm, 33, rfl⟩
abbrev main_call1_v7 : Ref sig .tc := ⟨.hbm, 34, rfl⟩
abbrev main_call1_v8 : Ref sig .tc := ⟨.hbm, 35, rfl⟩
abbrev main_call1_c_3 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_v2 : Ref sig .tc := ⟨.hbm, 43, rfl⟩
abbrev main_call2_c : Ref sig .tc := ⟨.hbm, 44, rfl⟩
abbrev main_call2_v0 : Ref sig .tc := ⟨.hbm, 45, rfl⟩
abbrev main_call2_v1 : Ref sig .tc := ⟨.hbm, 46, rfl⟩
abbrev main_call2_c_0 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_c_1 : Ref sig .tc := ⟨.hbm, 52, rfl⟩
abbrev main_call2_c_2 : Ref sig .tc := ⟨.hbm, 53, rfl⟩
abbrev main_call2_v6 : Ref sig .tc := ⟨.hbm, 54, rfl⟩
abbrev main_call2_v7 : Ref sig .tc := ⟨.hbm, 55, rfl⟩
abbrev main_call2_v8 : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_c_3 : Ref sig .tc := ⟨.hbm, 60, rfl⟩
abbrev main_call2_v12 : Ref sig .tc := ⟨.hbm, 61, rfl⟩
abbrev main_call2_v13 : Ref sig .tc := ⟨.hbm, 62, rfl⟩
abbrev main_call2_v14 : Ref sig .tc := ⟨.hbm, 63, rfl⟩
abbrev main_call2_cst : Ref sig .tc := ⟨.hbm, 64, rfl⟩
abbrev main_call2_v15 : Ref sig .tc := ⟨.hbm, 65, rfl⟩
abbrev main_v3 : Ref sig .tc := ⟨.hbm, 66, rfl⟩
abbrev main_call3_c : Ref sig .tc := ⟨.hbm, 67, rfl⟩
abbrev main_call3_v0 : Ref sig .tc := ⟨.hbm, 68, rfl⟩
abbrev main_call3_v1 : Ref sig .tc := ⟨.hbm, 69, rfl⟩
abbrev main_call3_c_0 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_call3_v5 : Ref sig .tc := ⟨.hbm, 74, rfl⟩
abbrev main_call3_c_1 : Ref sig .tc := ⟨.hbm, 75, rfl⟩
abbrev main_call3_c_2 : Ref sig .tc := ⟨.hbm, 76, rfl⟩
abbrev main_call3_v6 : Ref sig .tc := ⟨.hbm, 77, rfl⟩
abbrev main_call3_v7 : Ref sig .tc := ⟨.hbm, 78, rfl⟩
abbrev main_call3_v8 : Ref sig .tc := ⟨.hbm, 79, rfl⟩
abbrev main_call3_v9 : Ref sig .tc := ⟨.hbm, 80, rfl⟩
abbrev main_call3_v10 : Ref sig .tc := ⟨.hbm, 81, rfl⟩
abbrev main_call3_v11 : Ref sig .tc := ⟨.hbm, 82, rfl⟩
abbrev main_call3_c_3 : Ref sig .tc := ⟨.hbm, 83, rfl⟩
abbrev main_call3_v12 : Ref sig .tc := ⟨.hbm, 84, rfl⟩
abbrev main_call3_v13 : Ref sig .tc := ⟨.hbm, 85, rfl⟩
abbrev main_call3_v14 : Ref sig .tc := ⟨.hbm, 86, rfl⟩
abbrev main_call3_cst : Ref sig .tc := ⟨.hbm, 87, rfl⟩
abbrev main_call3_v15 : Ref sig .tc := ⟨.hbm, 88, rfl⟩
abbrev main_v4 : Ref sig .tc := ⟨.hbm, 89, rfl⟩
abbrev main_v5 : Ref sig .tc := ⟨.hbm, 90, rfl⟩
abbrev main_v6 : Ref sig .tc := ⟨.hbm, 91, rfl⟩
abbrev main_v7 : Ref sig .tc := ⟨.hbm, 92, rfl⟩
abbrev main_v8 : Ref sig .tc := ⟨.hbm, 93, rfl⟩
abbrev main_v9 : Ref sig .tc := ⟨.hbm, 94, rfl⟩
abbrev main_v10 : Ref sig .tc := ⟨.hbm, 95, rfl⟩
abbrev main_cst : Ref sig .tc := ⟨.hbm, 96, rfl⟩
abbrev main_v11 : Ref sig .tc := ⟨.hbm, 97, rfl⟩
abbrev main_v12 : Ref sig .tc := ⟨.hbm, 98, rfl⟩
abbrev main_cst_1 : Ref sig .tc := ⟨.hbm, 99, rfl⟩
abbrev main_call4_v0 : Ref sig .tc := ⟨.hbm, 100, rfl⟩
abbrev main_call4_v1 : Ref sig .tc := ⟨.hbm, 101, rfl⟩
abbrev main_v13 : Ref sig .tc := ⟨.hbm, 102, rfl⟩
abbrev main_cst_2 : Ref sig .tc := ⟨.hbm, 103, rfl⟩
abbrev main_v14 : Ref sig .tc := ⟨.hbm, 104, rfl⟩
abbrev main_v15 : Ref sig .tc := ⟨.hbm, 105, rfl⟩
abbrev main_v16 : Ref sig .tc := ⟨.hbm, 106, rfl⟩

abbrev nD : Nat := 1
abbrev τ : Topo := Topo.v7x

variable {F : FTy → Type} [FloatOps F]

class Facts₀ : Prop where
  bcast_S_S52 : S_.BroadcastsInDim S52 (![] : Fin 0 → Fin S52.rank)
  bcast_S52_S52x1_0 : S52.BroadcastsInDim S52x1 (![0] : Fin 1 → Fin S52x1.rank)
  bcast_S_S52x1 : S_.BroadcastsInDim S52x1 (![] : Fin 0 → Fin S52x1.rank)
  bcast_S1_S1x1_1 : S1.BroadcastsInDim S1x1 (![1] : Fin 1 → Fin S1x1.rank)
  bcast_S1x1_S52x1_0_1 : S1x1.BroadcastsInDim S52x1 (![0, 1] : Fin 2 → Fin S52x1.rank)
  reducesTo_S52x1_S52_d1 : S52x1.ReducesTo [1] S52
  h_S_ : 0 < S_.numel
  bcast_S52_S52x64_0 : S52.BroadcastsInDim S52x64 (![0] : Fin 1 → Fin S52x64.rank)
  bcast_S_S52x64 : S_.BroadcastsInDim S52x64 (![] : Fin 0 → Fin S52x64.rank)
  concatenates_S52x64_S52x64_S52x128_d1 : Shape.Concatenates [S52x64, S52x64] S52x128 1
  bcast_S52x128_S1x52x128_1_2 : S52x128.BroadcastsInDim S1x52x128 (![1, 2] : Fin 2 → Fin S1x52x128.rank)
  bcast_S16384x52_S16384x52x1_0_1 : S16384x52.BroadcastsInDim S16384x52x1 (![0, 1] : Fin 2 → Fin S16384x52x1.rank)
  bcast_S1x52x128_S16384x52x128_0_1_2 : S1x52x128.BroadcastsInDim S16384x52x128 (![0, 1, 2] : Fin 3 → Fin S16384x52x128.rank)
  bcast_S16384x52x1_S16384x52x128_0_1_2 : S16384x52x1.BroadcastsInDim S16384x52x128 (![0, 1, 2] : Fin 3 → Fin S16384x52x128.rank)
  reducesTo_S16384x52_S16384_d1 : S16384x52.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  reducesTo_S16384x52x128_S16384x128_d1 : S16384x52x128.ReducesTo [1] S16384x128
  bcast_S16384x1_S16384x128_0_1 : S16384x1.BroadcastsInDim S16384x128 (![0, 1] : Fin 2 → Fin S16384x128.rank)
  gather_S13x64_S52x1_S52x64_1_0_n_n_0_1_164_wf : GatherDims.WF S13x64 S52x1 S52x64 [1] [0] [] [0] [] 1 ![1, 64]
  gather_S4x64_S52x1_S52x64_1_0_n_n_0_1_164_wf : GatherDims.WF S4x64 S52x1 S52x64 [1] [0] [] [0] [] 1 ![1, 64]

variable [Facts₀]

def gather_S13x64_S52x1_S52x64_1_0_n_n_0_1_164 : GatherDims S13x64 S52x1 S52x64 where
  offsetDims := [1]
  collapsedSliceDims := [0]
  operandBatchingDims := []
  startIndicesBatchingDims := []
  startIndexMap := [0]
  indexVectorDim := 1
  sliceSizes := ![1, 64]
  wf := gather_S13x64_S52x1_S52x64_1_0_n_n_0_1_164_wf
def gather_S4x64_S52x1_S52x64_1_0_n_n_0_1_164 : GatherDims S4x64 S52x1 S52x64 where
  offsetDims := [1]
  collapsedSliceDims := [0]
  operandBatchingDims := []
  startIndicesBatchingDims := []
  startIndexMap := [0]
  indexVectorDim := 1
  sliceSizes := ![1, 64]
  wf := gather_S4x64_S52x1_S52x64_1_0_n_n_0_1_164_wf

class Facts : Prop extends Facts₀ where

variable [Facts]
-- ==== Proof.Spec.lean ====
/-
  The function both programs compute, index by index, on the extended reals.

  A hand is a row of 52 weights, one per card. Card `c` has a feature row of 128 entries: the first 64 are
  row `c / 4` of the rank table, the last 64 are row `c % 4` of the suit table. The pooled representation of
  hand `b` at feature `e` is the weighted sum of the cards' features divided by the larger of the hand's total
  weight and one.
-/
import Idealize.ShloMosaic.PureOps.Ideal
import Idealize.ShloMosaic.Lib.ValueIdx

noncomputable section

open scoped BigOperators

namespace Cert.Spec

open Idealize.ShloMosaic Idealize.ShloMosaic.ValueIdx

/-- Entry `e` of card `c`'s feature row: the rank table's row `c / 4` on the first 64 columns, the suit table's
    row `c % 4` on the last 64. -/
def cardFeat (rk : (⟨2, ![13, 64]⟩ : Shape).Idx → EReal) (su : (⟨2, ![4, 64]⟩ : Shape).Idx → EReal)
    (c : Fin 52) (e : Fin 128) : EReal :=
  if h : e.val < 64 then rk (ix2 (⟨c.val / 4, by omega⟩ : Fin 13) (⟨e.val, h⟩ : Fin 64))
  else su (ix2 (⟨c.val % 4, by omega⟩ : Fin 4) (⟨e.val - 64, by omega⟩ : Fin 64))

/-- The card-feature table as an array of shape 52 × 128. -/
def cardFeats (rk : (⟨2, ![13, 64]⟩ : Shape).Idx → EReal) (su : (⟨2, ![4, 64]⟩ : Shape).Idx → EReal) :
    (⟨2, ![52, 128]⟩ : Shape).Idx → EReal :=
  fun j => cardFeat rk su (j 0) (j 1)

/-- The pooled representation of hand `b` at feature `e`: the weighted sum of card features over the larger of
    the total weight and one (the word `0x3F800000` is the float 1). -/
def pooledAt (hand : (⟨2, ![16384, 52]⟩ : Shape).Idx → EReal) (cf : (⟨2, ![52, 128]⟩ : Shape).Idx → EReal)
    (b : Fin 16384) (e : Fin 128) : EReal :=
  Ideal.div (∑ k : Fin 52, hand (ix2 b k) * cf (ix2 k e))
    (max (∑ k : Fin 52, hand (ix2 b k)) (Ideal.ofBits .f32 0x3F800000#32))

/-- The whole result array, from the hand weights and the card-feature table. -/
def pooledOf (hand : (⟨2, ![16384, 52]⟩ : Shape).Idx → EReal) (cf : (⟨2, ![52, 128]⟩ : Shape).Idx → EReal) :
    (⟨2, ![16384, 128]⟩ : Shape).Idx → EReal :=
  fun i => pooledAt hand cf (i 0) (i 1)

/-- The whole result array, from the three argument arrays. -/
def pooled (hand : (⟨2, ![16384, 52]⟩ : Shape).Idx → EReal) (rk : (⟨2, ![13, 64]⟩ : Shape).Idx → EReal)
    (su : (⟨2, ![4, 64]⟩ : Shape).Idx → EReal) : (⟨2, ![16384, 128]⟩ : Shape).Idx → EReal :=
  pooledOf hand (cardFeats rk su)

end Cert.Spec

end
-- ==== Proof.KISetup.lean ====
/-
  The vocabulary the three parts of the kernel's run are stated over: the program as the launch of its
  vector-subcore call sees it, the ghost state (the launch handshakes' rounds, the staging pipeline's rounds, the
  local copies' counters), the card-feature table as one function of the rank and suit tables, and what the call's
  handshakes carry.

  The vector-subcore call builds the 52 × 128 card-feature table: vector subcore `w` (for `w < 13`) copies row `w`
  of the rank table and the whole suit table into its own memory, lays them out as four rows — row `s` is the rank
  row followed by suit row `s` — and copies the four rows out to rows `4 w … 4 w + 3` of the table. So row `c` of the
  table is rank row `c / 4` followed by suit row `c % 4`. Subcores 13, 14 and 15 do nothing.
-/
import proofs.«203989_g3255585211076_cont_8to1_b_774_30_alg».proof.KernelIdeal
import proofs.«203989_g3255585211076_cont_8to1_b_774_30_alg».proof.Proof.Gen.KernelIdeal
import proofs.«203989_g3255585211076_cont_8to1_b_774_30_alg».proof.Proof.Gen.KernelIdeal.Skeleton
import proofs.«203989_g3255585211076_cont_8to1_b_774_30_alg».proof.Proof.Gen.KernelIdeal.Launch
import proofs.«203989_g3255585211076_cont_8to1_b_774_30_alg».proof.Proof.Gen.KernelIdeal.Points
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 1 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the staging pipeline's rounds, the local copies' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The staging pipeline's rounds: the left factor of the right factor (the counters are found by instance in what is left). -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-- The staging pipeline has no prefetched tables: its admissible table contents are the trivial ones. -/
abbrev adm : (p : Fin 1) → (pcfgs (F := F) p).Adm := fun p => (cfgs p).toPCfg_adm

/-! ## The arrays -/

variable (m : (ℓ : Loc nD τ sig) → Buf (Elt F) ℓ) (ρ : Dev nD → PrngReg)

/-- The hand weights, the rank table, the suit table (the arguments); the card-feature table (the call's result); the
    pooled representations (the program's result). -/
abbrev hLoc (d : Dev nD) : Loc nD τ sig := (SparseCore.T d).loc main_arg0
abbrev rkLoc (d : Dev nD) : Loc nD τ sig := (SparseCore.T d).loc main_arg1
abbrev suLoc (d : Dev nD) : Loc nD τ sig := (SparseCore.T d).loc main_arg2
abbrev cfLoc (d : Dev nD) : Loc nD τ sig := (SparseCore.T d).loc main_v0
abbrev outLoc (d : Dev nD) : Loc nD τ sig := (SparseCore.T d).loc main_v1

/-- Entry `(c, e)` of the card-feature table: entry `e` of rank row `c / 4` for `e < 64`, entry `e - 64` of suit row
    `c % 4` otherwise. Pure data movement: the same at every float instance. -/
def cfG (rk : Vec F S13x64 .f32) (su : Vec F S4x64 .f32) : Vec F S52x128 .f32 := fun j =>
  if h : (j 1).val < 64 then rk (fun | 0 => ⟨(j 0).val / 4, by have h0 : (j 0).val < 52 := (j 0).isLt; show (j 0).val / 4 < 13; omega⟩ | 1 => ⟨(j 1).val, h⟩)
  else su (fun | 0 => ⟨(j 0).val % 4, by show (j 0).val % 4 < 4; omega⟩ | 1 => ⟨(j 1).val - 64, by have h1 : (j 1).val < 128 := (j 1).isLt; show (j 1).val - 64 < 64; omega⟩)

/-- The card-feature table the call leaves on device `d`. -/
abbrev cfOf (d : Dev nD) : Buf (Elt F) (cfLoc d) := cfG (m (rkLoc d)) (m (suLoc d))

/-! ## What the call's handshakes carry -/

variable [FloatOps F]

theorem hdiv13 : 13 ∣ S52x128.size 0 := ⟨4, rfl⟩
/-- Rows `4 w … 4 w + 3` of the card-feature table: the four cards of rank `w`. -/
abbrev cardRows (w : Fin 13) : Rect S52x128 := Rect.part (s := S52x128) (a₀ := 0) hdiv13 w
abbrev cardRowSet (w : Fin 13) : Finset S52x128.Idx :=
  ((Memref.whole main_v0_scv : Memref sig .scVector .hbm S52x128 .f32).view.slice (cardRows w)).set

/-- Subcore `i`'s read share of the rank table and of the suit table (every working subcore reads the suit table whole,
    and row `i` of the rank table: a share of each whole array, one of sixteen). -/
abbrev rkTok (d : Dev nD) (i : Fin 16) : sProp 𝕄 := rkLoc d ↦{Transfers.shareTok fullShare 16 i} m (rkLoc d)
abbrev suTok (d : Dev nD) (i : Fin 16) : sProp 𝕄 := suLoc d ↦{Transfers.shareTok fullShare 16 i} m (suLoc d)
/-- Subcore `i`'s rows of the card-feature table at contents `f`: its four rows for `i < 13`, nothing otherwise. -/
def outRows (d : Dev nD) (i : Fin 16) (f : Buf (Elt F) (cfLoc d)) : sProp 𝕄 :=
  if h : i.val < 13 then cfLoc d ↦[cardRowSet ⟨i.val, h⟩]{fullShare} f else iprop(emp)

theorem outRows_pos (d : Dev nD) (i : Fin 16) (f : Buf (Elt F) (cfLoc d)) (h : i.val < 13) :
    outRows d i f = (cfLoc d ↦[cardRowSet ⟨i.val, h⟩]{fullShare} f : sProp 𝕄) := dif_pos h
theorem outRows_neg (d : Dev nD) (i : Fin 16) (f : Buf (Elt F) (cfLoc d)) (h : ¬ i.val < 13) :
    outRows d i f = (iprop(emp) : sProp 𝕄) := dif_neg h

instance outRows_storable (d : Dev nD) (i : Fin 16) (f : Buf (Elt F) (cfLoc d)) : BI.Storable (upEmb : UEmb _ 𝕄) (outRows d i f) := by
  unfold outRows; split <;> infer_instance

abbrev hPts (d : Dev nD) : sProp 𝕄 := hLoc d ↦{fullShare} m (hLoc d)
abbrev outPts (d : Dev nD) (f : Buf (Elt F) (outLoc d)) : sProp 𝕄 := outLoc d ↦{fullShare} f
abbrev rkPts (d : Dev nD) : sProp 𝕄 := rkLoc d ↦{fullShare} m (rkLoc d)
abbrev suPts (d : Dev nD) : sProp 𝕄 := suLoc d ↦{fullShare} m (suLoc d)
abbrev cfPts (d : Dev nD) (f : Buf (Elt F) (cfLoc d)) : sProp 𝕄 := cfLoc d ↦{fullShare} f

/-- The one call takes the rank table, the suit table and the card-feature table whole; each task a read share of the two
    tables and its four rows of the card-feature table; the rows come back at the table's one function of the two
    tables, and so does the whole. -/
def P : (K (F := F)).Pay (nD := nD) (Val := Elt F) (Name := ℕ) (U := UU) where
  st := fun q d _ => match q with | 0 => iprop(rkPts m d ∗ suPts m d ∗ cfPts d (m (cfLoc d)))
  dn := fun q d _ => match q with | 0 => iprop(rkPts m d ∗ suPts m d ∗ cfPts d (cfOf m d))
  go := fun q d _ i => match q with
    | 0 => iprop(rkTok m d (Fin.cast nSub_zero i) ∗ suTok m d (Fin.cast nSub_zero i) ∗ outRows d (Fin.cast nSub_zero i) (m (cfLoc d)))
  td := fun q d _ i => match q with
    | 0 => iprop(rkTok m d (Fin.cast nSub_zero i) ∗ suTok m d (Fin.cast nSub_zero i) ∗ outRows d (Fin.cast nSub_zero i) (cfOf m d))
  x := fun _ _ => iprop(emp)

instance P_storable : (P (F := F) m).IsStorable where
  st q d _ := match q with
    | 0 => (inferInstance : BI.Storable (upEmb : UEmb _ 𝕄) iprop(rkPts m d ∗ suPts m d ∗ cfPts d (m (cfLoc d))))
  dn q d _ := match q with
    | 0 => (inferInstance : BI.Storable (upEmb : UEmb _ 𝕄) iprop(rkPts m d ∗ suPts m d ∗ cfPts d (cfOf m d)))
  go q d _ i := match q with
    | 0 => (inferInstance : BI.Storable (upEmb : UEmb _ 𝕄)
        iprop(rkTok m d (Fin.cast nSub_zero i) ∗ suTok m d (Fin.cast nSub_zero i) ∗ outRows d (Fin.cast nSub_zero i) (m (cfLoc d))))
  td q d _ i := match q with
    | 0 => (inferInstance : BI.Storable (upEmb : UEmb _ 𝕄)
        iprop(rkTok m d (Fin.cast nSub_zero i) ∗ suTok m d (Fin.cast nSub_zero i) ∗ outRows d (Fin.cast nSub_zero i) (cfOf m d)))

end Cert.KernelIdeal.Hand

end
-- ==== Proof.KISplit.lean ====
/-
  The launch of the vector-subcore call: how the call's three arrays split among the sixteen tasks and come back, and
  the launch element of the ghost state.

  The rank and suit tables go out as sixteen read shares each (every working task reads the suit table whole and one row
  of the rank table), the remainder staying with the sequencer's side of the split; the card-feature table goes out as
  its thirteen blocks of four rows, block `w` to task `w`, and tasks 13, 14, 15 get none. The blocks come back at the
  table's one function of the two tables, so they join to the whole table at that function.
-/
import proofs.«203989_g3255585211076_cont_8to1_b_774_30_alg».proof.Proof.KISetup

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The card-feature table as its thirteen blocks of rows -/

omit [FloatOps F] in
theorem cardRowSet_eq (w : Fin 13) : cardRowSet w = (cardRows w).set := by
  show ((View.whole (main_v0_scv : Ref sig .scVector)).slice (cardRows w)).set = _
  rw [View.set_slice]; exact Finset.map_refl
omit [FloatOps F] in
theorem cardRows_disjoint : ∀ i ∈ (Finset.univ : Finset (Fin 13)), ∀ j ∈ (Finset.univ : Finset (Fin 13)), i ≠ j → Disjoint (cardRowSet i) (cardRowSet j) :=
  fun i _ j _ h => by rw [cardRowSet_eq, cardRowSet_eq]; exact Rect.part_disjoint hdiv13 h
omit [FloatOps F] in
theorem cardRows_cover : (Finset.univ : Finset (Fin 13)).biUnion cardRowSet = Finset.univ :=
  (Finset.biUnion_congr rfl fun i _ => cardRowSet_eq i).trans (Rect.biUnion_part hdiv13)

omit [FloatOps F] in
theorem cfPts_blocks (d : Dev nD) (f : Buf (Elt F) (cfLoc d)) :
    (cfLoc d ↦{fullShare} f : sProp 𝕄) = bigSep Finset.univ fun w : Fin 13 => cfLoc d ↦[cardRowSet w]{fullShare} f := by
  rw [← pointsTo_biUnion Finset.univ (ℓ := cfLoc d) cardRowSet cardRows_disjoint, cardRows_cover]; try rfl

/-- The sixteen tasks' rows are the thirteen blocks: tasks 13, 14, 15 hold nothing. -/
theorem outRows_tasks (d : Dev nD) (f : Buf (Elt F) (cfLoc d)) :
    (bigSep Finset.univ fun i : Fin 16 => outRows d i f) = bigSep Finset.univ fun w : Fin 13 => (cfLoc d ↦[cardRowSet w]{fullShare} f : sProp 𝕄) := by
  have h1 : ∀ i : Fin 16, outRows (F := F) d i f = if i.val < 13 then outRows d i f else (BI.emp : sProp 𝕄) := fun i => by
    by_cases h : i.val < 13
    · rw [if_pos h]
    · rw [if_neg h, outRows_neg d i f h]; rfl
  rw [bigSep_congr fun i _ => h1 i, ← bigSep_filter,
    show (Finset.univ.filter fun i : Fin 16 => i.val < 13) = Finset.univ.map (Fin.castLEEmb (show 13 ≤ 16 by decide)) from by
      ext i; simp only [Finset.mem_filter, Finset.mem_univ, _root_.true_and, Finset.mem_map, Fin.castLEEmb_apply]
      exact ⟨fun h => ⟨⟨i.val, h⟩, Fin.ext rfl⟩, fun ⟨j, hj⟩ => hj ▸ j.isLt⟩,
    bigSep_map]
  exact bigSep_congr fun w _ => outRows_pos d _ f w.isLt

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-! ## The split -/

theorem vecSplit : (K (F := F)).VecSplit' (P m) 0 := by
  intro d c
  show iprop(rkPts m d ∗ suPts m d ∗ cfPts d (m (cfLoc d))) ⊢ |={Set.univ}=> iprop(
      (bigSep Finset.univ fun i : Fin ((K (F := F)).nSub 0) =>
        iprop(rkTok m d (Fin.cast nSub_zero i) ∗ suTok m d (Fin.cast nSub_zero i) ∗ outRows d (Fin.cast nSub_zero i) (m (cfLoc d))))
      ∗ ((bigSep Finset.univ fun i : Fin ((K (F := F)).nSub 0) =>
          iprop(rkTok m d (Fin.cast nSub_zero i) ∗ suTok m d (Fin.cast nSub_zero i) ∗ outRows d (Fin.cast nSub_zero i) (cfOf m d)))
          -∗ iprop(rkPts m d ∗ suPts m d ∗ cfPts d (cfOf m d))))
  rw [bigSep_tasks (F := F) (fun i => iprop(rkTok m d i ∗ suTok m d i ∗ outRows d i (m (cfLoc d)))),
    bigSep_tasks (F := F) (fun i => iprop(rkTok m d i ∗ suTok m d i ∗ outRows d i (cfOf m d))), bigSep_sep', bigSep_sep', bigSep_sep', bigSep_sep',
    outRows_tasks, outRows_tasks]
  unfold cfPts
  rw [cfPts_blocks, cfPts_blocks]
  iintro ⟨Hrk, Hsu, Hcf⟩
  ihave Hrk' := (Transfers.pointsTo_toks_split fullShare 16) $$ Hrk
  ihave Hsu' := (Transfers.pointsTo_toks_split fullShare 16) $$ Hsu
  icases Hrk' with ⟨Hrk0, Hrks⟩
  icases Hsu' with ⟨Hsu0, Hsus⟩
  imodintro
  isplitl [Hrks Hsus Hcf]
  · isplitl [Hrks]; · iexact Hrks
    isplitl [Hsus]; · iexact Hsus
    iexact Hcf
  iintro ⟨Hrks, Hsus, Hcf⟩
  isplitl [Hrk0 Hrks]
  · iapply (Transfers.pointsTo_toks_join fullShare 16)
    isplitl [Hrk0] <;> iassumption
  isplitl [Hsu0 Hsus]
  · iapply (Transfers.pointsTo_toks_join fullShare 16)
    isplitl [Hsu0] <;> iassumption
  iexact Hcf

end Cert.KernelIdeal.Hand

end
-- ==== Proof.KIElem.lean ====
/-
  The launch element of the ghost state: the handshakes' rounds go to the launch theorem, the staging pipeline's rounds
  fund each TensorCore's staging cells and duty tokens (what the pooling region is entered with), and the local copies'
  counters need nothing from the launch.
-/
import proofs.«203989_g3255585211076_cont_8to1_b_774_30_alg».proof.Proof.KISetup

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

/-- The staging cells of the one pipeline are pairwise distinct. -/
theorem pinj : Function.Injective (Pipeline.cellOf (nD := nD) (τ := τ) (Pipeline.pin (pcfgs (F := F)) adm)) := cellOf_inj

def u₀ : UU :=
  (initOf (K (F := F)).hsCells (K (F := F)).hsToks,
    (initOf (Pipeline.cells (Pipeline.pin (pcfgs (F := F)) adm) pinj) (Pipeline.launchToks (Pipeline.pin (pcfgs (F := F)) adm) pinj), 1))

/-- What the launch deals TensorCore `d` for the pooling region: its staging cells' launch state and its duty tokens. -/
def G (d : Dev nD) : sProp 𝕄 :=
  iprop(Pipeline.cellsGhost (Pipeline.pin (pcfgs (F := F)) adm) EP 0 d ∗ Pipeline.toksInit (Pipeline.pin (pcfgs (F := F)) adm) EP 0 d)

theorem bigSep_emp' {I : Type} (s : Finset I) : (bigSep s fun _ => iprop(emp)) = (iprop(emp) : sProp 𝕄) := bigSep_emp_const s

theorem EP_eq : (EP : Emb UP 𝕄) = (Emb.inl : Emb UP (UP × Counters)).trans (embR (A := UH) (B := UP × Counters)) := rfl

variable [FloatOps F]

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H' := (own_pair_emb (embR (A := UH) (B := UP × Counters)) _ _) $$ HR
  icases H' with ⟨HP, -⟩
  ihave HP2 := (Entails.of_eq (congrArg (fun E : Emb UP 𝕄 => (BI.own (E (initOf (Pipeline.cells (Pipeline.pin (pcfgs (F := F)) adm) pinj)
    (Pipeline.launchToks (Pipeline.pin (pcfgs (F := F)) adm) pinj))) : sProp 𝕄)) (EP_eq (F := F)).symm)) $$ HP
  imod (Pipeline.fund_ghost (Pipeline.pin (pcfgs (F := F)) adm) EP pinj) $$ HP2 with ⟨Hc, Ht⟩
  imodintro
  isplitl [HH]; · iexact HH
  isplitl [Hc Ht]
  · unfold G
    rw [bigSep_sep']
    isplitl [Hc]
    · ihave Hc' := (Entails.of_eq (show (bigSep Finset.univ fun c : Dev nD => bigSep Finset.univ fun p : Fin 1 =>
          (Pipeline.cellsGhost (Pipeline.pin (pcfgs (F := F)) adm) EP p c : sProp 𝕄))
        = bigSep Finset.univ fun c : Dev nD => Pipeline.cellsGhost (Pipeline.pin (pcfgs (F := F)) adm) EP 0 c from
          bigSep_congr fun d _ => bigSep_univ_of_subsingleton (0 : Fin 1))) $$ Hc
      iexact Hc'
    · ihave Ht' := (Entails.of_eq (show (bigSep Finset.univ fun c : Dev nD => bigSep Finset.univ fun p : Fin 1 =>
          (Pipeline.toksInit (Pipeline.pin (pcfgs (F := F)) adm) EP p c : sProp 𝕄))
        = bigSep Finset.univ fun c : Dev nD => Pipeline.toksInit (Pipeline.pin (pcfgs (F := F)) adm) EP 0 c from
          bigSep_congr fun d _ => bigSep_univ_of_subsingleton (0 : Fin 1))) $$ Ht
      iexact Ht'
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.KernelIdeal.Hand

end
-- ==== Proof.KIMain.lean ====
/-
  @main on the TensorCore: it starts the vector-subcore call with the rank, suit and card-feature tables and gets them
  back, the card-feature table at its one function of the other two; then it enters the pooling region with the hand
  weights, that table and the result array, and leaves it with the result array at the pooled representations; the
  three argument arrays are as launched throughout. Then how the final memory reads those contents.

  The pooling region's record (its proof data, body, thread states) is a parameter here: this module states what it
  asks of it.
-/
import proofs.«203989_g3255585211076_cont_8to1_b_774_30_alg».proof.Proof.KISetup
import proofs.«203989_g3255585211076_cont_8to1_b_774_30_alg».proof.Proof.KIElem

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

variable [FloatOps F]

-- the pooled representations as a function of the hand weights and the card-feature table: the pooling region's
variable (pg : Vec F S16384x52 .f32 → Vec F S52x128 .f32 → Vec F S16384x128 .f32)

/-- What TensorCore `d` owes and has recorded once the one call is over: nothing owed, every recorded wait at or below
    level 8. -/
abbrev owesDone (d : Dev nD) : sProp 𝕄 :=
  iprop(∃ W, ⌜(K (F := F)).WBelow (SparseCore.T d) W 8⌝ ∗ owes (SparseCore.T d) (0 : CellTallies nD τ sig (HIx 1)) W)

/-- The thread state the pooling region is entered from: the hand weights as launched, the card-feature table as the
    call left it, the result array as launched, the two tables riding along, nothing owed. -/
abbrev regPre (d : Dev nD) : sProp 𝕄 :=
  iprop(hPts m d ∗ cfPts d (cfOf m d) ∗ outPts d (m (outLoc d)) ∗ (rkPts m d ∗ suPts m d) ∗ owesDone (F := F) d)
/-- and the one it leaves: the result array at the pooled representations. -/
abbrev regPost (d : Dev nD) : sProp 𝕄 :=
  iprop(hPts m d ∗ cfPts d (cfOf m d) ∗ outPts d (pg (m (hLoc d)) (cfOf m d)) ∗ (rkPts m d ∗ suPts m d) ∗ owesDone (F := F) d)

variable (pd : (p : Fin 1) → (d : Dev nD) → Pipeline.Dat τ (Elt F) (HIx 1) ℕ UU ℕ (Pipeline.pin (pcfgs (F := F)) adm p) d)
variable (R : Pipeline.RegionSeg (pcfgs (F := F)) adm pd (none : HIx 1) defs₀ 𝒱₀ (K (F := F)).L (K (F := F)).lev 0)

omit [FloatOps F] in
theorem unscopedBufs_eq (d : Dev nD) (W : (b : Ref sig .tc) → Buf (Elt F) ((d.tc : Thread nD τ).loc b)) :
    (unscopedBufs d W : sProp 𝕄) = iprop((hLoc d ↦{fullShare} W main_arg0) ∗ (rkLoc d ↦{fullShare} W main_arg1) ∗ (suLoc d ↦{fullShare} W main_arg2)
      ∗ (cfLoc d ↦{fullShare} W main_v0) ∗ outLoc d ↦{fullShare} W main_v1) := by
  unfold unscopedBufs
  rw [show (Finset.univ.filter fun b : Ref sig .tc => ¬ b.isScoped) = {main_arg0, main_arg1, main_arg2, main_v0, main_v1} by decide,
    SparseCore.bigSep_insert' (by decide), SparseCore.bigSep_insert' (by decide), SparseCore.bigSep_insert' (by decide),
    SparseCore.bigSep_insert' (by decide), bigSep_singleton]

theorem st0_eq (d : Dev nD) : (bigSep Finset.univ fun c : Fin ((K (F := F)).nCore 0) => (P m).st 0 d c) = iprop(rkPts m d ∗ suPts m d ∗ cfPts d (m (cfLoc d))) :=
  bigSep_univ_of_subsingleton (0 : Fin 1)
theorem dn0_eq (d : Dev nD) : (bigSep Finset.univ fun c : Fin ((K (F := F)).nCore 0) => (P m).dn 0 d c) = iprop(rkPts m d ∗ suPts m d ∗ cfPts d (cfOf m d)) :=
  bigSep_univ_of_subsingleton (0 : Fin 1)

omit [FloatOps F] in
/-- The pooling region's call, in the launch's extended label signature, is the pipeline's own call lifted. -/
theorem poolCall_eq :
    (Prog.lift (TpuEff.customCall (SparseCore.inner (Pipeline.entry (0 : Fin 1))) ()) :
        Prog (TpuEff nD τ sig (Elt F) (SparseCore.Sig (ΛP (F := F)) 1) Proc.tc) PUnit)
      = SparseCore.liftProg (Prog.op (TpuEff.customCall (Pipeline.entry (0 : Fin 1)) ()) fun _ => Prog.ret PUnit.unit) := rfl

/-- What @main leaves the claim: the three arguments as launched, the result at the pooled representations. -/
abbrev FIN (d : Dev nD) : sProp 𝕄 := iprop(hPts m d ∗ rkPts m d ∗ suPts m d ∗ outPts d (pg (m (hLoc d)) (cfOf m d)))

theorem hmain (hpre : ∀ d, R.pre d = regPre m d) (hpost : ∀ d, R.post d = regPost m pg d) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m pg d) := by
  unfold SparseCore.Cfg.tcRes
  rw [unscopedBufs_eq]
  simp only [main, wp_bind, wp_pure]
  iintro ⟨#Hctx, Hst, ⟨Hb, ⟨Hh, Hrk, Hsu, Hcf, Hout⟩, -, -⟩, HG⟩
  iapply ((K (F := F)).wp_run (D (F := F)) 𝒱 (EH := EH) (P := P m) κ d 0) $$ [Hst Hrk Hsu Hcf Hb Hh Hout HG]
  isplitr; · iexact Hctx
  isplitl [Hst]; · iexact Hst
  isplitl [Hrk Hsu Hcf]
  · rw [st0_eq]
    isplitl [Hrk]; · iexact Hrk
    isplitl [Hsu]; · iexact Hsu
    iexact Hcf
  iintro ⟨Hst, Hdn⟩
  ihave Hdn' := (Entails.of_eq (dn0_eq m d)) $$ Hdn
  icases Hdn' with ⟨Hrk, Hsu, Hcf⟩
  -- the pooling region: entered from the region boundary, the three arrays, the level facts and the staging cells' launch state
  rw [poolCall_eq]
  iapply ((K (F := F)).wp_liftProg (D (F := F)) 𝒱 (SparseCore.T d) Set.univ none _ _)
  ihave Hlev := (SparseCore.Cfg.ctx_levAts (K := K (F := F)) (EH := EH) (P := P m) κ) $$ Hctx
  unfold SparseCore.Cfg.tcSt
  icases Hst with ⟨⟨%W, %hW, HO⟩, Hat, #Hrd, #Hrs, Htoks⟩
  unfold G
  icases HG with ⟨Hcg, Hti⟩
  iapply (Pipeline.RegionSeg.wp (pcfgs (F := F)) adm pd (none : HIx 1) pinj EP defs₀ 𝒱₀ (K (F := F)).L (K (F := F)).lev R d none
    (fun _ hu => nomatch hu) _ _) $$ [Hb Hh Hout Hrk Hsu Hcf HO Hat Htoks Hcg Hti Hlev]
  isplitl [Hat Htoks]
  · iintro ⟨-, Hpost⟩
    ihave Hpost' := (Entails.of_eq (hpost d)) $$ Hpost
    icases Hpost' with ⟨Hh, Hcf, Hout, ⟨Hrk, Hsu⟩, ⟨%W', %hW', HO⟩⟩
    rw [wp_ret]; imodintro; imodintro
    isplitl [HO Hat Htoks]
    · isplitl [HO]
      · iexists W'; isplitr; · ipureintro; exact hW'
        iapply (Entails.of_eq (congrArg (fun O => (owes (SparseCore.T d) O W' : sProp 𝕄)) ((K (F := F)).Otc_end d (n := 1) (le_refl 1)).symm)); iexact HO
      isplitl [Hat]; · iexact Hat
      isplitr; · iexact Hrd
      isplitr; · iexact Hrs
      iexact Htoks
    isplitl [Hh]; · iexact Hh
    isplitl [Hrk]; · iexact Hrk
    isplitl [Hsu]; · iexact Hsu
    iexact Hout
  isplitl [Hb]; · iexact Hb
  isplitl [Hh Hcf Hout Hrk Hsu HO]
  · iapply (Entails.of_eq (hpre d).symm)
    isplitl [Hh]; · iexact Hh
    isplitl [Hcf]; · iexact Hcf
    isplitl [Hout]; · iexact Hout
    isplitl [Hrk Hsu]; · isplitl [Hrk] <;> iassumption
    iexists W; isplitr; · ipureintro; exact hW
    iapply (Entails.of_eq (congrArg (fun O => (owes (SparseCore.T d) O W : sProp 𝕄)) ((K (F := F)).Otc_end d (n := (0 : Fin 1).val + 1) (le_refl 1)))); iexact HO
  isplitl [Hlev]; · iexact Hlev
  isplitl [Hcg] <;> iassumption

end Cert.KernelIdeal.Hand

end
-- ==== Proof.KIRun.lean ====
/-
  The kernel program's run: from any launch memory, every weakly fair execution of the device's threads ends with the
  result array at the pooled representations of the hand weights against the card-feature table built from the two
  tables, and the three argument arrays as launched. The vector-subcore task's proof and the pooling region's record
  are parameters; the launch theorem for programs with SparseCore calls composes them with the split of the call's
  arrays, the launch element and @main's proof.
-/
import proofs.«203989_g3255585211076_cont_8to1_b_774_30_alg».proof.Proof.KISplit
import proofs.«203989_g3255585211076_cont_8to1_b_774_30_alg».proof.Proof.KIMain

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

variable [FloatOps F]

variable (pg : Vec F S16384x52 .f32 → Vec F S52x128 .f32 → Vec F S16384x128 .f32)

/-- What the final memory of device `d` must hold. -/
def fq (d : Dev nD) (s' : Phys nD τ sig (Elt F)) : Prop :=
  s'.mem.mem (outLoc d) = pg (m (hLoc d)) (cfOf m d) ∧ s'.mem.mem (hLoc d) = m (hLoc d) ∧ s'.mem.mem (rkLoc d) = m (rkLoc d)
    ∧ s'.mem.mem (suLoc d) = m (suLoc d)

theorem hfin (d : Dev nD) (s' : Phys nD τ sig (Elt F)) : iprop(FIN m pg d ∗ SI s') ⊢ (⌜fq m pg d s'⌝ : sProp 𝕄) := by
  iintro ⟨⟨Hh, Hrk, Hsu, Hout⟩, HSI⟩
  ihave H := (persistent_entails_right (SI_pointsTo_agree (st := s') (ℓ := hLoc d) (I := Finset.univ) (q := fullShare) (f := m (hLoc d)))) $$ [HSI Hh]
  · isplitl [HSI] <;> iassumption
  icases H with ⟨%h1, HSI, -⟩
  ihave H := (persistent_entails_right (SI_pointsTo_agree (st := s') (ℓ := rkLoc d) (I := Finset.univ) (q := fullShare) (f := m (rkLoc d)))) $$ [HSI Hrk]
  · isplitl [HSI] <;> iassumption
  icases H with ⟨%h2, HSI, -⟩
  ihave H := (persistent_entails_right (SI_pointsTo_agree (st := s') (ℓ := suLoc d) (I := Finset.univ) (q := fullShare) (f := m (suLoc d)))) $$ [HSI Hsu]
  · isplitl [HSI] <;> iassumption
  icases H with ⟨%h3, HSI, -⟩
  ihave H := (SI_pointsTo_agree (st := s') (ℓ := outLoc d) (I := Finset.univ) (q := fullShare) (f := pg (m (hLoc d)) (cfOf m d))) $$ [HSI Hout]
  · isplitl [HSI] <;> iassumption
  icases H with %h4
  ipureintro
  exact ⟨funext fun i => h4 i (Finset.mem_univ i), funext fun i => h1 i (Finset.mem_univ i), funext fun i => h2 i (Finset.mem_univ i),
    funext fun i => h3 i (Finset.mem_univ i)⟩

/-- The run's post: on every device the result array at the pooled representations, the arguments as launched. -/
def QC : PUnit × MemSt nD τ sig (Elt F) → Prop := fun r => ∀ c : Dev nD,
  r.2.mem (outLoc c) = pg (m (hLoc c)) (cfOf m c) ∧ r.2.mem (hLoc c) = m (hLoc c) ∧ r.2.mem (rkLoc c) = m (rkLoc c) ∧ r.2.mem (suLoc c) = m (suLoc c)

theorem run_of [∀ e, Nonempty (Elt F e)]
    (htile : (K (F := F)).TileObl (D (F := F)) 𝒱 (P m) v₀ 0)
    (pd : (p : Fin 1) → (d : Dev nD) → Pipeline.Dat τ (Elt F) (HIx 1) ℕ UU ℕ (Pipeline.pin (pcfgs (F := F)) adm p) d)
    (R : Pipeline.RegionSeg (pcfgs (F := F)) adm pd (none : HIx 1) defs₀ 𝒱₀ (K (F := F)).L (K (F := F)).lev 0)
    (hpre : ∀ d, R.pre d = regPre m d) (hpost : ∀ d, R.post d = regPost m pg d) :
    θ_run (Cert.KernelIdeal.defs (F := F)) (Cert.KernelIdeal.threads (F := F)) ⟨m, fun _ => 0, ρ⟩ (QC m pg) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun d => G (F := F) d) (FIN m pg) (u₀ (F := F)) (sep_elim_left.trans (hu₀ m)) (hmain m ρ pg pd R hpre hpost) (fq m pg) (hfin m pg) (QC m pg) (fun _ h => h)

end Cert.KernelIdeal.Hand

end
-- ==== Proof.KBSetup.lean ====
/-
  The vocabulary the three parts of the kernel's run are stated over: the program as the launch of its
  vector-subcore call sees it, the ghost state (the launch handshakes' rounds, the staging pipeline's rounds, the
  local copies' counters), the card-feature table as one function of the rank and suit tables, and what the call's
  handshakes carry.

  The vector-subcore call builds the 52 × 128 card-feature table: vector subcore `w` (for `w < 13`) copies row `w`
  of the rank table and the whole suit table into its own memory, lays them out as four rows — row `s` is the rank
  row followed by suit row `s` — and copies the four rows out to rows `4 w … 4 w + 3` of the table. So row `c` of the
  table is rank row `c / 4` followed by suit row `c % 4`. Subcores 13, 14 and 15 do nothing.
-/
import proofs.«203989_g3255585211076_cont_8to1_b_774_30_alg».proof.Kernel
import proofs.«203989_g3255585211076_cont_8to1_b_774_30_alg».proof.Proof.Gen.Kernel
import proofs.«203989_g3255585211076_cont_8to1_b_774_30_alg».proof.Proof.Gen.Kernel.Skeleton
import proofs.«203989_g3255585211076_cont_8to1_b_774_30_alg».proof.Proof.Gen.Kernel.Launch
import proofs.«203989_g3255585211076_cont_8to1_b_774_30_alg».proof.Proof.Gen.Kernel.Points
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Tactic

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 1 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the staging pipeline's rounds, the local copies' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The staging pipeline's rounds: the left factor of the right factor (the counters are found by instance in what is left). -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-- The staging pipeline has no prefetched tables: its admissible table contents are the trivial ones. -/
abbrev adm : (p : Fin 1) → (pcfgs (F := F) p).Adm := fun p => (cfgs p).toPCfg_adm

/-! ## The arrays -/

variable (m : (ℓ : Loc nD τ sig) → Buf (Elt F) ℓ) (ρ : Dev nD → PrngReg)

/-- The hand weights, the rank table, the suit table (the arguments); the card-feature table (the call's result); the
    pooled representations (the program's result). -/
abbrev hLoc (d : Dev nD) : Loc nD τ sig := (SparseCore.T d).loc main_arg0
abbrev rkLoc (d : Dev nD) : Loc nD τ sig := (SparseCore.T d).loc main_arg1
abbrev suLoc (d : Dev nD) : Loc nD τ sig := (SparseCore.T d).loc main_arg2
abbrev cfLoc (d : Dev nD) : Loc nD τ sig := (SparseCore.T d).loc main_v0
abbrev outLoc (d : Dev nD) : Loc nD τ sig := (SparseCore.T d).loc main_v1

/-- Entry `(c, e)` of the card-feature table: entry `e` of rank row `c / 4` for `e < 64`, entry `e - 64` of suit row
    `c % 4` otherwise. Pure data movement: the same at every float instance. -/
def cfG (rk : Vec F S13x64 .f32) (su : Vec F S4x64 .f32) : Vec F S52x128 .f32 := fun j =>
  if h : (j 1).val < 64 then rk (fun | 0 => ⟨(j 0).val / 4, by have h0 : (j 0).val < 52 := (j 0).isLt; show (j 0).val / 4 < 13; omega⟩ | 1 => ⟨(j 1).val, h⟩)
  else su (fun | 0 => ⟨(j 0).val % 4, by show (j 0).val % 4 < 4; omega⟩ | 1 => ⟨(j 1).val - 64, by have h1 : (j 1).val < 128 := (j 1).isLt; show (j 1).val - 64 < 64; omega⟩)

/-- The card-feature table the call leaves on device `d`. -/
abbrev cfOf (d : Dev nD) : Buf (Elt F) (cfLoc d) := cfG (m (rkLoc d)) (m (suLoc d))

/-! ## What the call's handshakes carry -/

variable [FloatOps F]

theorem hdiv13 : 13 ∣ S52x128.size 0 := ⟨4, rfl⟩
/-- Rows `4 w … 4 w + 3` of the card-feature table: the four cards of rank `w`. -/
abbrev cardRows (w : Fin 13) : Rect S52x128 := Rect.part (s := S52x128) (a₀ := 0) hdiv13 w
abbrev cardRowSet (w : Fin 13) : Finset S52x128.Idx :=
  ((Memref.whole main_v0_scv : Memref sig .scVector .hbm S52x128 .f32).view.slice (cardRows w)).set

/-- Subcore `i`'s read share of the rank table and of the suit table (every working subcore reads the suit table whole,
    and row `i` of the rank table: a share of each whole array, one of sixteen). -/
abbrev rkTok (d : Dev nD) (i : Fin 16) : sProp 𝕄 := rkLoc d ↦{Transfers.shareTok fullShare 16 i} m (rkLoc d)
abbrev suTok (d : Dev nD) (i : Fin 16) : sProp 𝕄 := suLoc d ↦{Transfers.shareTok fullShare 16 i} m (suLoc d)
/-- Subcore `i`'s rows of the card-feature table at contents `f`: its four rows for `i < 13`, nothing otherwise. -/
def outRows (d : Dev nD) (i : Fin 16) (f : Buf (Elt F) (cfLoc d)) : sProp 𝕄 :=
  if h : i.val < 13 then cfLoc d ↦[cardRowSet ⟨i.val, h⟩]{fullShare} f else iprop(emp)

theorem outRows_pos (d : Dev nD) (i : Fin 16) (f : Buf (Elt F) (cfLoc d)) (h : i.val < 13) :
    outRows d i f = (cfLoc d ↦[cardRowSet ⟨i.val, h⟩]{fullShare} f : sProp 𝕄) := dif_pos h
theorem outRows_neg (d : Dev nD) (i : Fin 16) (f : Buf (Elt F) (cfLoc d)) (h : ¬ i.val < 13) :
    outRows d i f = (iprop(emp) : sProp 𝕄) := dif_neg h

instance outRows_storable (d : Dev nD) (i : Fin 16) (f : Buf (Elt F) (cfLoc d)) : BI.Storable (upEmb : UEmb _ 𝕄) (outRows d i f) := by
  unfold outRows; split <;> infer_instance

abbrev hPts (d : Dev nD) : sProp 𝕄 := hLoc d ↦{fullShare} m (hLoc d)
abbrev outPts (d : Dev nD) (f : Buf (Elt F) (outLoc d)) : sProp 𝕄 := outLoc d ↦{fullShare} f
abbrev rkPts (d : Dev nD) : sProp 𝕄 := rkLoc d ↦{fullShare} m (rkLoc d)
abbrev suPts (d : Dev nD) : sProp 𝕄 := suLoc d ↦{fullShare} m (suLoc d)
abbrev cfPts (d : Dev nD) (f : Buf (Elt F) (cfLoc d)) : sProp 𝕄 := cfLoc d ↦{fullShare} f

/-- The one call takes the rank table, the suit table and the card-feature table whole; each task a read share of the two
    tables and its four rows of the card-feature table; the rows come back at the table's one function of the two
    tables, and so does the whole. -/
def P : (K (F := F)).Pay (nD := nD) (Val := Elt F) (Name := ℕ) (U := UU) where
  st := fun q d _ => match q with | 0 => iprop(rkPts m d ∗ suPts m d ∗ cfPts d (m (cfLoc d)))
  dn := fun q d _ => match q with | 0 => iprop(rkPts m d ∗ suPts m d ∗ cfPts d (cfOf m d))
  go := fun q d _ i => match q with
    | 0 => iprop(rkTok m d (Fin.cast nSub_zero i) ∗ suTok m d (Fin.cast nSub_zero i) ∗ outRows d (Fin.cast nSub_zero i) (m (cfLoc d)))
  td := fun q d _ i => match q with
    | 0 => iprop(rkTok m d (Fin.cast nSub_zero i) ∗ suTok m d (Fin.cast nSub_zero i) ∗ outRows d (Fin.cast nSub_zero i) (cfOf m d))
  x := fun _ _ => iprop(emp)

instance P_storable : (P (F := F) m).IsStorable where
  st q d _ := match q with
    | 0 => (inferInstance : BI.Storable (upEmb : UEmb _ 𝕄) iprop(rkPts m d ∗ suPts m d ∗ cfPts d (m (cfLoc d))))
  dn q d _ := match q with
    | 0 => (inferInstance : BI.Storable (upEmb : UEmb _ 𝕄) iprop(rkPts m d ∗ suPts m d ∗ cfPts d (cfOf m d)))
  go q d _ i := match q with
    | 0 => (inferInstance : BI.Storable (upEmb : UEmb _ 𝕄)
        iprop(rkTok m d (Fin.cast nSub_zero i) ∗ suTok m d (Fin.cast nSub_zero i) ∗ outRows d (Fin.cast nSub_zero i) (m (cfLoc d))))
  td q d _ i := match q with
    | 0 => (inferInstance : BI.Storable (upEmb : UEmb _ 𝕄)
        iprop(rkTok m d (Fin.cast nSub_zero i) ∗ suTok m d (Fin.cast nSub_zero i) ∗ outRows d (Fin.cast nSub_zero i) (cfOf m d)))

end Cert.Kernel.Hand

end
-- ==== Proof.KBSplit.lean ====
/-
  The launch of the vector-subcore call: how the call's three arrays split among the sixteen tasks and come back, and
  the launch element of the ghost state.

  The rank and suit tables go out as sixteen read shares each (every working task reads the suit table whole and one row
  of the rank table), the remainder staying with the sequencer's side of the split; the card-feature table goes out as
  its thirteen blocks of four rows, block `w` to task `w`, and tasks 13, 14, 15 get none. The blocks come back at the
  table's one function of the two tables, so they join to the whole table at that function.
-/
import proofs.«203989_g3255585211076_cont_8to1_b_774_30_alg».proof.Proof.KBSetup

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The card-feature table as its thirteen blocks of rows -/

omit [FloatOps F] in
theorem cardRowSet_eq (w : Fin 13) : cardRowSet w = (cardRows w).set := by
  show ((View.whole (main_v0_scv : Ref sig .scVector)).slice (cardRows w)).set = _
  rw [View.set_slice]; exact Finset.map_refl
omit [FloatOps F] in
theorem cardRows_disjoint : ∀ i ∈ (Finset.univ : Finset (Fin 13)), ∀ j ∈ (Finset.univ : Finset (Fin 13)), i ≠ j → Disjoint (cardRowSet i) (cardRowSet j) :=
  fun i _ j _ h => by rw [cardRowSet_eq, cardRowSet_eq]; exact Rect.part_disjoint hdiv13 h
omit [FloatOps F] in
theorem cardRows_cover : (Finset.univ : Finset (Fin 13)).biUnion cardRowSet = Finset.univ :=
  (Finset.biUnion_congr rfl fun i _ => cardRowSet_eq i).trans (Rect.biUnion_part hdiv13)

omit [FloatOps F] in
theorem cfPts_blocks (d : Dev nD) (f : Buf (Elt F) (cfLoc d)) :
    (cfLoc d ↦{fullShare} f : sProp 𝕄) = bigSep Finset.univ fun w : Fin 13 => cfLoc d ↦[cardRowSet w]{fullShare} f := by
  rw [← pointsTo_biUnion Finset.univ (ℓ := cfLoc d) cardRowSet cardRows_disjoint, cardRows_cover]; try rfl

/-- The sixteen tasks' rows are the thirteen blocks: tasks 13, 14, 15 hold nothing. -/
theorem outRows_tasks (d : Dev nD) (f : Buf (Elt F) (cfLoc d)) :
    (bigSep Finset.univ fun i : Fin 16 => outRows d i f) = bigSep Finset.univ fun w : Fin 13 => (cfLoc d ↦[cardRowSet w]{fullShare} f : sProp 𝕄) := by
  have h1 : ∀ i : Fin 16, outRows (F := F) d i f = if i.val < 13 then outRows d i f else (BI.emp : sProp 𝕄) := fun i => by
    by_cases h : i.val < 13
    · rw [if_pos h]
    · rw [if_neg h, outRows_neg d i f h]; rfl
  rw [bigSep_congr fun i _ => h1 i, ← bigSep_filter,
    show (Finset.univ.filter fun i : Fin 16 => i.val < 13) = Finset.univ.map (Fin.castLEEmb (show 13 ≤ 16 by decide)) from by
      ext i; simp only [Finset.mem_filter, Finset.mem_univ, _root_.true_and, Finset.mem_map, Fin.castLEEmb_apply]
      exact ⟨fun h => ⟨⟨i.val, h⟩, Fin.ext rfl⟩, fun ⟨j, hj⟩ => hj ▸ j.isLt⟩,
    bigSep_map]
  exact bigSep_congr fun w _ => outRows_pos d _ f w.isLt

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-! ## The split -/

theorem vecSplit : (K (F := F)).VecSplit' (P m) 0 := by
  intro d c
  show iprop(rkPts m d ∗ suPts m d ∗ cfPts d (m (cfLoc d))) ⊢ |={Set.univ}=> iprop(
      (bigSep Finset.univ fun i : Fin ((K (F := F)).nSub 0) =>
        iprop(rkTok m d (Fin.cast nSub_zero i) ∗ suTok m d (Fin.cast nSub_zero i) ∗ outRows d (Fin.cast nSub_zero i) (m (cfLoc d))))
      ∗ ((bigSep Finset.univ fun i : Fin ((K (F := F)).nSub 0) =>
          iprop(rkTok m d (Fin.cast nSub_zero i) ∗ suTok m d (Fin.cast nSub_zero i) ∗ outRows d (Fin.cast nSub_zero i) (cfOf m d)))
          -∗ iprop(rkPts m d ∗ suPts m d ∗ cfPts d (cfOf m d))))
  rw [bigSep_tasks (F := F) (fun i => iprop(rkTok m d i ∗ suTok m d i ∗ outRows d i (m (cfLoc d)))),
    bigSep_tasks (F := F) (fun i => iprop(rkTok m d i ∗ suTok m d i ∗ outRows d i (cfOf m d))), bigSep_sep', bigSep_sep', bigSep_sep', bigSep_sep',
    outRows_tasks, outRows_tasks]
  unfold cfPts
  rw [cfPts_blocks, cfPts_blocks]
  iintro ⟨Hrk, Hsu, Hcf⟩
  ihave Hrk' := (Transfers.pointsTo_toks_split fullShare 16) $$ Hrk
  ihave Hsu' := (Transfers.pointsTo_toks_split fullShare 16) $$ Hsu
  icases Hrk' with ⟨Hrk0, Hrks⟩
  icases Hsu' with ⟨Hsu0, Hsus⟩
  imodintro
  isplitl [Hrks Hsus Hcf]
  · isplitl [Hrks]; · iexact Hrks
    isplitl [Hsus]; · iexact Hsus
    iexact Hcf
  iintro ⟨Hrks, Hsus, Hcf⟩
  isplitl [Hrk0 Hrks]
  · iapply (Transfers.pointsTo_toks_join fullShare 16)
    isplitl [Hrk0] <;> iassumption
  isplitl [Hsu0 Hsus]
  · iapply (Transfers.pointsTo_toks_join fullShare 16)
    isplitl [Hsu0] <;> iassumption
  iexact Hcf

end Cert.Kernel.Hand

end
-- ==== Proof.KBElem.lean ====
/-
  The launch element of the ghost state: the handshakes' rounds go to the launch theorem, the staging pipeline's rounds
  fund each TensorCore's staging cells and duty tokens (what the pooling region is entered with), and the local copies'
  counters need nothing from the launch.
-/
import proofs.«203989_g3255585211076_cont_8to1_b_774_30_alg».proof.Proof.KBSetup

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

/-- The staging cells of the one pipeline are pairwise distinct. -/
theorem pinj : Function.Injective (Pipeline.cellOf (nD := nD) (τ := τ) (Pipeline.pin (pcfgs (F := F)) adm)) := cellOf_inj

def u₀ : UU :=
  (initOf (K (F := F)).hsCells (K (F := F)).hsToks,
    (initOf (Pipeline.cells (Pipeline.pin (pcfgs (F := F)) adm) pinj) (Pipeline.launchToks (Pipeline.pin (pcfgs (F := F)) adm) pinj), 1))

/-- What the launch deals TensorCore `d` for the pooling region: its staging cells' launch state and its duty tokens. -/
def G (d : Dev nD) : sProp 𝕄 :=
  iprop(Pipeline.cellsGhost (Pipeline.pin (pcfgs (F := F)) adm) EP 0 d ∗ Pipeline.toksInit (Pipeline.pin (pcfgs (F := F)) adm) EP 0 d)

theorem bigSep_emp' {I : Type} (s : Finset I) : (bigSep s fun _ => iprop(emp)) = (iprop(emp) : sProp 𝕄) := bigSep_emp_const s

theorem EP_eq : (EP : Emb UP 𝕄) = (Emb.inl : Emb UP (UP × Counters)).trans (embR (A := UH) (B := UP × Counters)) := rfl

variable [FloatOps F]

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H' := (own_pair_emb (embR (A := UH) (B := UP × Counters)) _ _) $$ HR
  icases H' with ⟨HP, -⟩
  ihave HP2 := (Entails.of_eq (congrArg (fun E : Emb UP 𝕄 => (BI.own (E (initOf (Pipeline.cells (Pipeline.pin (pcfgs (F := F)) adm) pinj)
    (Pipeline.launchToks (Pipeline.pin (pcfgs (F := F)) adm) pinj))) : sProp 𝕄)) (EP_eq (F := F)).symm)) $$ HP
  imod (Pipeline.fund_ghost (Pipeline.pin (pcfgs (F := F)) adm) EP pinj) $$ HP2 with ⟨Hc, Ht⟩
  imodintro
  isplitl [HH]; · iexact HH
  isplitl [Hc Ht]
  · unfold G
    rw [bigSep_sep']
    isplitl [Hc]
    · ihave Hc' := (Entails.of_eq (show (bigSep Finset.univ fun c : Dev nD => bigSep Finset.univ fun p : Fin 1 =>
          (Pipeline.cellsGhost (Pipeline.pin (pcfgs (F := F)) adm) EP p c : sProp 𝕄))
        = bigSep Finset.univ fun c : Dev nD => Pipeline.cellsGhost (Pipeline.pin (pcfgs (F := F)) adm) EP 0 c from
          bigSep_congr fun d _ => bigSep_univ_of_subsingleton (0 : Fin 1))) $$ Hc
      iexact Hc'
    · ihave Ht' := (Entails.of_eq (show (bigSep Finset.univ fun c : Dev nD => bigSep Finset.univ fun p : Fin 1 =>
          (Pipeline.toksInit (Pipeline.pin (pcfgs (F := F)) adm) EP p c : sProp 𝕄))
        = bigSep Finset.univ fun c : Dev nD => Pipeline.toksInit (Pipeline.pin (pcfgs (F := F)) adm) EP 0 c from
          bigSep_congr fun d _ => bigSep_univ_of_subsingleton (0 : Fin 1))) $$ Ht
      iexact Ht'
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Kernel.Hand

end
-- ==== Proof.KBMain.lean ====
/-
  @main on the TensorCore: it starts the vector-subcore call with the rank, suit and card-feature tables and gets them
  back, the card-feature table at its one function of the other two; then it enters the pooling region with the hand
  weights, that table and the result array, and leaves it with the result array at the pooled representations; the
  three argument arrays are as launched throughout. Then how the final memory reads those contents.

  The pooling region's record (its proof data, body, thread states) is a parameter here: this module states what it
  asks of it.
-/
import proofs.«203989_g3255585211076_cont_8to1_b_774_30_alg».proof.Proof.KBSetup
import proofs.«203989_g3255585211076_cont_8to1_b_774_30_alg».proof.Proof.KBElem

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

variable [FloatOps F]

-- the pooled representations as a function of the hand weights and the card-feature table: the pooling region's
variable (pg : Vec F S16384x52 .f32 → Vec F S52x128 .f32 → Vec F S16384x128 .f32)

/-- What TensorCore `d` owes and has recorded once the one call is over: nothing owed, every recorded wait at or below
    level 8. -/
abbrev owesDone (d : Dev nD) : sProp 𝕄 :=
  iprop(∃ W, ⌜(K (F := F)).WBelow (SparseCore.T d) W 8⌝ ∗ owes (SparseCore.T d) (0 : CellTallies nD τ sig (HIx 1)) W)

/-- The thread state the pooling region is entered from: the hand weights as launched, the card-feature table as the
    call left it, the result array as launched, the two tables riding along, nothing owed. -/
abbrev regPre (d : Dev nD) : sProp 𝕄 :=
  iprop(hPts m d ∗ cfPts d (cfOf m d) ∗ outPts d (m (outLoc d)) ∗ (rkPts m d ∗ suPts m d) ∗ owesDone (F := F) d)
/-- and the one it leaves: the result array at the pooled representations. -/
abbrev regPost (d : Dev nD) : sProp 𝕄 :=
  iprop(hPts m d ∗ cfPts d (cfOf m d) ∗ outPts d (pg (m (hLoc d)) (cfOf m d)) ∗ (rkPts m d ∗ suPts m d) ∗ owesDone (F := F) d)

variable (pd : (p : Fin 1) → (d : Dev nD) → Pipeline.Dat τ (Elt F) (HIx 1) ℕ UU ℕ (Pipeline.pin (pcfgs (F := F)) adm p) d)
variable (R : Pipeline.RegionSeg (pcfgs (F := F)) adm pd (none : HIx 1) defs₀ 𝒱₀ (K (F := F)).L (K (F := F)).lev 0)

omit [FloatOps F] in
theorem unscopedBufs_eq (d : Dev nD) (W : (b : Ref sig .tc) → Buf (Elt F) ((d.tc : Thread nD τ).loc b)) :
    (unscopedBufs d W : sProp 𝕄) = iprop((hLoc d ↦{fullShare} W main_arg0) ∗ (rkLoc d ↦{fullShare} W main_arg1) ∗ (suLoc d ↦{fullShare} W main_arg2)
      ∗ (cfLoc d ↦{fullShare} W main_v0) ∗ outLoc d ↦{fullShare} W main_v1) := by
  unfold unscopedBufs
  rw [show (Finset.univ.filter fun b : Ref sig .tc => ¬ b.isScoped) = {main_arg0, main_arg1, main_arg2, main_v0, main_v1} by decide,
    SparseCore.bigSep_insert' (by decide), SparseCore.bigSep_insert' (by decide), SparseCore.bigSep_insert' (by decide),
    SparseCore.bigSep_insert' (by decide), bigSep_singleton]

theorem st0_eq (d : Dev nD) : (bigSep Finset.univ fun c : Fin ((K (F := F)).nCore 0) => (P m).st 0 d c) = iprop(rkPts m d ∗ suPts m d ∗ cfPts d (m (cfLoc d))) :=
  bigSep_univ_of_subsingleton (0 : Fin 1)
theorem dn0_eq (d : Dev nD) : (bigSep Finset.univ fun c : Fin ((K (F := F)).nCore 0) => (P m).dn 0 d c) = iprop(rkPts m d ∗ suPts m d ∗ cfPts d (cfOf m d)) :=
  bigSep_univ_of_subsingleton (0 : Fin 1)

omit [FloatOps F] in
/-- The pooling region's call, in the launch's extended label signature, is the pipeline's own call lifted. -/
theorem poolCall_eq :
    (Prog.lift (TpuEff.customCall (SparseCore.inner (Pipeline.entry (0 : Fin 1))) ()) :
        Prog (TpuEff nD τ sig (Elt F) (SparseCore.Sig (ΛP (F := F)) 1) Proc.tc) PUnit)
      = SparseCore.liftProg (Prog.op (TpuEff.customCall (Pipeline.entry (0 : Fin 1)) ()) fun _ => Prog.ret PUnit.unit) := rfl

/-- What @main leaves the claim: the three arguments as launched, the result at the pooled representations. -/
abbrev FIN (d : Dev nD) : sProp 𝕄 := iprop(hPts m d ∗ rkPts m d ∗ suPts m d ∗ outPts d (pg (m (hLoc d)) (cfOf m d)))

theorem hmain (hpre : ∀ d, R.pre d = regPre m d) (hpost : ∀ d, R.post d = regPost m pg d) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m pg d) := by
  unfold SparseCore.Cfg.tcRes
  rw [unscopedBufs_eq]
  simp only [main, wp_bind, wp_pure]
  iintro ⟨#Hctx, Hst, ⟨Hb, ⟨Hh, Hrk, Hsu, Hcf, Hout⟩, -, -⟩, HG⟩
  iapply ((K (F := F)).wp_run (D (F := F)) 𝒱 (EH := EH) (P := P m) κ d 0) $$ [Hst Hrk Hsu Hcf Hb Hh Hout HG]
  isplitr; · iexact Hctx
  isplitl [Hst]; · iexact Hst
  isplitl [Hrk Hsu Hcf]
  · rw [st0_eq]
    isplitl [Hrk]; · iexact Hrk
    isplitl [Hsu]; · iexact Hsu
    iexact Hcf
  iintro ⟨Hst, Hdn⟩
  ihave Hdn' := (Entails.of_eq (dn0_eq m d)) $$ Hdn
  icases Hdn' with ⟨Hrk, Hsu, Hcf⟩
  -- the pooling region: entered from the region boundary, the three arrays, the level facts and the staging cells' launch state
  rw [poolCall_eq]
  iapply ((K (F := F)).wp_liftProg (D (F := F)) 𝒱 (SparseCore.T d) Set.univ none _ _)
  ihave Hlev := (SparseCore.Cfg.ctx_levAts (K := K (F := F)) (EH := EH) (P := P m) κ) $$ Hctx
  unfold SparseCore.Cfg.tcSt
  icases Hst with ⟨⟨%W, %hW, HO⟩, Hat, #Hrd, #Hrs, Htoks⟩
  unfold G
  icases HG with ⟨Hcg, Hti⟩
  iapply (Pipeline.RegionSeg.wp (pcfgs (F := F)) adm pd (none : HIx 1) pinj EP defs₀ 𝒱₀ (K (F := F)).L (K (F := F)).lev R d none
    (fun _ hu => nomatch hu) _ _) $$ [Hb Hh Hout Hrk Hsu Hcf HO Hat Htoks Hcg Hti Hlev]
  isplitl [Hat Htoks]
  · iintro ⟨-, Hpost⟩
    ihave Hpost' := (Entails.of_eq (hpost d)) $$ Hpost
    icases Hpost' with ⟨Hh, Hcf, Hout, ⟨Hrk, Hsu⟩, ⟨%W', %hW', HO⟩⟩
    rw [wp_ret]; imodintro; imodintro
    isplitl [HO Hat Htoks]
    · isplitl [HO]
      · iexists W'; isplitr; · ipureintro; exact hW'
        iapply (Entails.of_eq (congrArg (fun O => (owes (SparseCore.T d) O W' : sProp 𝕄)) ((K (F := F)).Otc_end d (n := 1) (le_refl 1)).symm)); iexact HO
      isplitl [Hat]; · iexact Hat
      isplitr; · iexact Hrd
      isplitr; · iexact Hrs
      iexact Htoks
    isplitl [Hh]; · iexact Hh
    isplitl [Hrk]; · iexact Hrk
    isplitl [Hsu]; · iexact Hsu
    iexact Hout
  isplitl [Hb]; · iexact Hb
  isplitl [Hh Hcf Hout Hrk Hsu HO]
  · iapply (Entails.of_eq (hpre d).symm)
    isplitl [Hh]; · iexact Hh
    isplitl [Hcf]; · iexact Hcf
    isplitl [Hout]; · iexact Hout
    isplitl [Hrk Hsu]; · isplitl [Hrk] <;> iassumption
    iexists W; isplitr; · ipureintro; exact hW
    iapply (Entails.of_eq (congrArg (fun O => (owes (SparseCore.T d) O W : sProp 𝕄)) ((K (F := F)).Otc_end d (n := (0 : Fin 1).val + 1) (le_refl 1)))); iexact HO
  isplitl [Hlev]; · iexact Hlev
  isplitl [Hcg] <;> iassumption

end Cert.Kernel.Hand

end
-- ==== Proof.KBRun.lean ====
/-
  The kernel program's run: from any launch memory, every weakly fair execution of the device's threads ends with the
  result array at the pooled representations of the hand weights against the card-feature table built from the two
  tables, and the three argument arrays as launched. The vector-subcore task's proof and the pooling region's record
  are parameters; the launch theorem for programs with SparseCore calls composes them with the split of the call's
  arrays, the launch element and @main's proof.
-/
import proofs.«203989_g3255585211076_cont_8to1_b_774_30_alg».proof.Proof.KBSplit
import proofs.«203989_g3255585211076_cont_8to1_b_774_30_alg».proof.Proof.KBMain

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

variable [FloatOps F]

variable (pg : Vec F S16384x52 .f32 → Vec F S52x128 .f32 → Vec F S16384x128 .f32)

/-- What the final memory of device `d` must hold. -/
def fq (d : Dev nD) (s' : Phys nD τ sig (Elt F)) : Prop :=
  s'.mem.mem (outLoc d) = pg (m (hLoc d)) (cfOf m d) ∧ s'.mem.mem (hLoc d) = m (hLoc d) ∧ s'.mem.mem (rkLoc d) = m (rkLoc d)
    ∧ s'.mem.mem (suLoc d) = m (suLoc d)

theorem hfin (d : Dev nD) (s' : Phys nD τ sig (Elt F)) : iprop(FIN m pg d ∗ SI s') ⊢ (⌜fq m pg d s'⌝ : sProp 𝕄) := by
  iintro ⟨⟨Hh, Hrk, Hsu, Hout⟩, HSI⟩
  ihave H := (persistent_entails_right (SI_pointsTo_agree (st := s') (ℓ := hLoc d) (I := Finset.univ) (q := fullShare) (f := m (hLoc d)))) $$ [HSI Hh]
  · isplitl [HSI] <;> iassumption
  icases H with ⟨%h1, HSI, -⟩
  ihave H := (persistent_entails_right (SI_pointsTo_agree (st := s') (ℓ := rkLoc d) (I := Finset.univ) (q := fullShare) (f := m (rkLoc d)))) $$ [HSI Hrk]
  · isplitl [HSI] <;> iassumption
  icases H with ⟨%h2, HSI, -⟩
  ihave H := (persistent_entails_right (SI_pointsTo_agree (st := s') (ℓ := suLoc d) (I := Finset.univ) (q := fullShare) (f := m (suLoc d)))) $$ [HSI Hsu]
  · isplitl [HSI] <;> iassumption
  icases H with ⟨%h3, HSI, -⟩
  ihave H := (SI_pointsTo_agree (st := s') (ℓ := outLoc d) (I := Finset.univ) (q := fullShare) (f := pg (m (hLoc d)) (cfOf m d))) $$ [HSI Hout]
  · isplitl [HSI] <;> iassumption
  icases H with %h4
  ipureintro
  exact ⟨funext fun i => h4 i (Finset.mem_univ i), funext fun i => h1 i (Finset.mem_univ i), funext fun i => h2 i (Finset.mem_univ i),
    funext fun i => h3 i (Finset.mem_univ i)⟩

/-- The run's post: on every device the result array at the pooled representations, the arguments as launched. -/
def QC : PUnit × MemSt nD τ sig (Elt F) → Prop := fun r => ∀ c : Dev nD,
  r.2.mem (outLoc c) = pg (m (hLoc c)) (cfOf m c) ∧ r.2.mem (hLoc c) = m (hLoc c) ∧ r.2.mem (rkLoc c) = m (rkLoc c) ∧ r.2.mem (suLoc c) = m (suLoc c)

theorem run_of [∀ e, Nonempty (Elt F e)]
    (htile : (K (F := F)).TileObl (D (F := F)) 𝒱 (P m) v₀ 0)
    (pd : (p : Fin 1) → (d : Dev nD) → Pipeline.Dat τ (Elt F) (HIx 1) ℕ UU ℕ (Pipeline.pin (pcfgs (F := F)) adm p) d)
    (R : Pipeline.RegionSeg (pcfgs (F := F)) adm pd (none : HIx 1) defs₀ 𝒱₀ (K (F := F)).L (K (F := F)).lev 0)
    (hpre : ∀ d, R.pre d = regPre m d) (hpost : ∀ d, R.post d = regPost m pg d) :
    θ_run (Cert.Kernel.defs (F := F)) (Cert.Kernel.threads (F := F)) ⟨m, fun _ => 0, ρ⟩ (QC m pg) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun d => G (F := F) d) (FIN m pg) (u₀ (F := F)) (sep_elim_left.trans (hu₀ m)) (hmain m ρ pg pd R hpre hpost) (fq m pg) (hfin m pg) (QC m pg) (fun _ h => h)

end Cert.Kernel.Hand

end
-- ==== Proof.KITile.lean ====
/-
  The vector-subcore call's task: what one vector subcore does with its read shares of the rank and suit tables and
  its four rows of the card-feature table. Subcore `w < 13` copies rank row `w` and the whole suit table into its own
  memory, lays out four rows — row `s` is the rank row followed by suit row `s` — in sixteen-lane pieces, and copies
  the four rows out to rows `4 w … 4 w + 3` of the table; the three copies use three semaphores, one copy each, and
  each is waited for before its destination is read or its source overwritten. Subcores 13, 14, 15 do nothing.
-/
import proofs.«203989_g3255585211076_cont_8to1_b_774_30_alg».proof.Proof.KISetup
import Idealize.ShloMosaic.Lib.Pipeline.Value
import Idealize.ShloMosaic.Lib.Pipeline.FrameBody
import Idealize.ShloMosaic.Lib.Ring

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

/-! ## The task's memrefs, spelt as the call passes them -/

abbrev rkV : Memref sig .scVector .hbm S13x64 .f32 := Memref.whole main_arg1_scv
abbrev suV : Memref sig .scVector .hbm S4x64 .f32 := Memref.whole main_arg2_scv
abbrev cfV : Memref sig .scVector .hbm S52x128 .f32 := Memref.whole main_v0_scv
/-- A subcore's scratch: the fetched rank row, the fetched suit table, the four laid-out rows. -/
abbrev sR : Memref sig .scVector .vmem S64 .f32 := Memref.whole cc0_scratch0
abbrev sS : Memref sig .scVector .vmem S4x64 .f32 := Memref.whole cc0_scratch1
abbrev sO : Memref sig .scVector .vmem S4x128 .f32 := Memref.whole cc0_scratch2

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_one : grid0.bound 1 = 16 := rfl
abbrev jL (L : grid0.Coords) : Fin 16 := Fin.cast bound_one (L 1)

/-- The branch is taken exactly on subcores below 13 (decided once over the grid). -/
theorem cond_iff : ∀ L : grid0.Coords, k0_cond1 L = 1#1 ↔ (L 1).val < 13 := by decide +kernel
theorem core_zero : ∀ L : grid0.Coords, (L 0).val = 0 := by decide +kernel

abbrev cAcell (d : Dev nD) (c : Fin τ.nSC) (i : Fin τ.nSub) : GSem nD τ sig := (V d c i, .dma cc0_scratch3.sem)
abbrev cBcell (d : Dev nD) (c : Fin τ.nSC) (i : Fin τ.nSub) : GSem nD τ sig := (V d c i, .dma cc0_scratch4.sem)
abbrev cCcell (d : Dev nD) (c : Fin τ.nSC) (i : Fin τ.nSub) : GSem nD τ sig := (V d c i, .dma cc0_scoped0.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scratch3.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch4.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped0.sem : SemLoc sig).isScoped .scVector = true; decide⟩⟩⟩)]

omit [FloatOps F] in
/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-! ### The arrays as the subcore's memrefs address them -/

omit [FloatOps F] in
theorem pts_rk (q : PosShare TreeShare) (f : Buf (Elt F) (rkLoc d)) :
    ((rkV : Memref sig .scVector .hbm S13x64 .f32).view.loc (V d (cV L) (jV L)) ↦{q} f : sProp 𝕄) = rkLoc d ↦{q} f := by
  simp only [Memref.view_whole, View.set_whole]
omit [FloatOps F] in
theorem pts_su (q : PosShare TreeShare) (f : Buf (Elt F) (suLoc d)) :
    ((suV : Memref sig .scVector .hbm S4x64 .f32).view.loc (V d (cV L) (jV L)) ↦{q} f : sProp 𝕄) = suLoc d ↦{q} f := by
  simp only [Memref.view_whole, View.set_whole]
omit [FloatOps F] in
theorem pts_sR (f : Buf (Elt F) ((V d (cV L) (jV L)).loc cc0_scratch0)) :
    ((sR : Memref sig .scVector .vmem S64 .f32).view.loc (V d (cV L) (jV L)) ↦{fullShare} f : sProp 𝕄) = (V d (cV L) (jV L)).loc cc0_scratch0 ↦{fullShare} f := rfl
omit [FloatOps F] in
theorem pts_sS (f : Buf (Elt F) ((V d (cV L) (jV L)).loc cc0_scratch1)) :
    ((sS : Memref sig .scVector .vmem S4x64 .f32).view.loc (V d (cV L) (jV L)) ↦{fullShare} f : sProp 𝕄) = (V d (cV L) (jV L)).loc cc0_scratch1 ↦{fullShare} f := rfl
omit [FloatOps F] in
theorem pts_sO (f : Buf (Elt F) ((V d (cV L) (jV L)).loc cc0_scratch2)) :
    ((sO : Memref sig .scVector .vmem S4x128 .f32).view.loc (V d (cV L) (jV L)) ↦{fullShare} f : sProp 𝕄) = (V d (cV L) (jV L)).loc cc0_scratch2 ↦{fullShare} f := rfl

/-! ### The rows the task slices -/

/-- Rank row `L 1` as the task slices it, squeezed. -/
abbrev rRowK (L : grid0.Coords) (h : k0_cond1 L = 1#1) : Memref sig .scVector .hbm S64 .f32 :=
  ((rkV : Memref sig .scVector .hbm S13x64 .f32).slice (Rect.unit (s := S13x64) (k0_off1 L) S1x64.size (k0_off1_inb L h)) (fun _ => rfl)).squeeze S64 squeezes_S1x64_S64
/-- The subcore's four rows of the card-feature table, as the task slices them. -/
abbrev oRowK (L : grid0.Coords) (h : k0_cond1 L = 1#1) : Memref sig .scVector .hbm S4x128 .f32 :=
  (cfV : Memref sig .scVector .hbm S52x128 .f32).slice (Rect.unit (s := S52x128) (k0_off2 L) S4x128.size (k0_off2_inb L h)) (fun _ => rfl)

omit [FloatOps F] in
theorem rowsK_eq (h : k0_cond1 L = 1#1) (hlt : (jL L).val < 13) :
    Rect.unit (s := S52x128) (k0_off2 L) S4x128.size (k0_off2_inb L h) = cardRows ⟨(jL L).val, hlt⟩ := by
  unfold cardRows Rect.part Rect.block
  have h0 := core_zero L
  congr 1 <;> funext a
  · rw [k0_off2_eq]
    match a with
    | 0 => simp [Shape.partIx, Shape.partSize, h0]; omega
    | 1 => simp [Shape.partIx, Shape.partSize]
  · match a with
    | 0 => simp [Shape.partSize]
    | 1 => simp [Shape.partSize]

omit [FloatOps F] in
theorem set_oRowK (h : k0_cond1 L = 1#1) (hlt : (jL L).val < 13) : (oRowK L h).view.set = cardRowSet ⟨(jL L).val, hlt⟩ := by
  show ((cfV : Memref sig .scVector .hbm S52x128 .f32).view.slice (Rect.unit (s := S52x128) (k0_off2 L) S4x128.size (k0_off2_inb L h))).set
    = ((cfV : Memref sig .scVector .hbm S52x128 .f32).view.slice (cardRows ⟨(jL L).val, hlt⟩)).set
  rw [rowsK_eq L h hlt]
omit [FloatOps F] in
theorem pts_oRowK (h : k0_cond1 L = 1#1) (hlt : (jL L).val < 13) (f : Buf (Elt F) (cfLoc d)) :
    ((oRowK L h).view.loc (V d (cV L) (jV L)) ↦[(oRowK L h).view.set]{fullShare} f : sProp 𝕄) = cfLoc d ↦[cardRowSet ⟨(jL L).val, hlt⟩]{fullShare} f := by
  rw [set_oRowK L h hlt]

/-! ## The value: what the thirty-two stores leave in the laid-out rows, and what the rows are in the table -/

/-- The four laid-out rows as one function of what the two fetches brought: columns below 64 hold the rank row, the rest
    suit row `y 0`. -/
def lay (r0 : S64.Idx → Elt F .f32) (s0 : S4x64.Idx → Elt F .f32) : S4x128.Idx → Elt F .f32 := fun y =>
  if h : (y 1).val < 64 then r0 (fun | 0 => ⟨(y 1).val, h⟩)
  else s0 (fun | 0 => y 0 | 1 => ⟨(y 1).val - 64, by have h1 : (y 1).val < 128 := (y 1).isLt; show (y 1).val - 64 < 64; omega⟩)

omit [FloatOps F] in
/-- A sixteen-lane vector recast to one row of sixteen reads lane `x 1` at `x`. -/
theorem cast_row (v : S16.Idx → Elt F .f32) (c1 : S16.ShapeCasts S16) (c2 : S16.ShapeCasts S1x16) (x : S1x16.Idx) :
    shapeCast S1x16 (shapeCast S16 v c1) c2 x = v (fun | 0 => x 1) := by
  have hx0 : (x 0).val = 0 := by have h : (x 0).val < 1 := (x 0).isLt; omega
  rw [shapeCast_self, shapeCast_apply v c2 x (fun | 0 => x 1) (by rw [Shape.rowMajor_val_one, Shape.rowMajor_val_two]; simp [hx0])]

omit [FloatOps F] in
/-- Sixteen lanes of the rank row, stored at row `s`, column `o` (below 64) of the laid-out rows. -/
theorem rank_piece (C : (sR : Memref sig .scVector .vmem S64 .f32).view.ty.Contents (Elt F)) (r0 : S64.Idx → Elt F .f32) (s0 : S4x64.Idx → Elt F .f32)
    (hC : C = r0) (s o : ℕ)
    (hR : ∀ a, (![o] : Fin 1 → ℕ) a + S16.size a ≤ S64.size a) (hP : ∀ a, (![s, o] : Fin 2 → ℕ) a + S1x16.size a ≤ S4x128.size a)
    (c1 : S16.ShapeCasts S16) (c2 : S16.ShapeCasts S1x16) (x : S1x16.Idx) :
    shapeCast S1x16 (shapeCast S16 ((sR : Memref sig .scVector .vmem S64 .f32).view.readAt (Elt F) (Rect.unit (s := S64) ![o] S16.size hR).toLoadRect C) c1) c2 x
      = lay r0 s0 ((Rect.unit (s := S4x128) ![s, o] S1x16.size hP).emb x) := by
  subst hC
  have hx1 : (x 1).val < 16 := (x 1).isLt
  have ho : o + 16 ≤ 64 := hR 0
  refine (cast_row _ c1 c2 x).trans ?_
  rw [View.readAt_apply]
  simp only [Memref.view_whole, View.read_whole]
  unfold lay
  have e1 : (((Rect.unit (s := S4x128) ![s, o] S1x16.size hP).emb x) 1).val = o + (x 1).val := by
    rw [Rect.emb_apply]; simp
  rw [dif_pos (by rw [e1]; omega)]
  congr 1
  funext a
  match a with
  | 0 => apply Fin.ext; rw [LoadRect.idx_apply]; simp [e1]

omit [FloatOps F] in
/-- Sixteen lanes of suit row `s`, stored at row `s`, column `64 + o` of the laid-out rows. -/
theorem suit_piece (C : (sS : Memref sig .scVector .vmem S4x64 .f32).view.ty.Contents (Elt F)) (r0 : S64.Idx → Elt F .f32) (s0 : S4x64.Idx → Elt F .f32)
    (hC : C = s0) (s o o' : ℕ) (ho' : o' = o + 64)
    (hS : ∀ a, (![s, o] : Fin 2 → ℕ) a + S1x16.size a ≤ S4x64.size a) (hP : ∀ a, (![s, o'] : Fin 2 → ℕ) a + S1x16.size a ≤ S4x128.size a)
    (c1 : S1x16.ShapeCasts S16) (c2 : S16.ShapeCasts S1x16) (x : S1x16.Idx) :
    shapeCast S1x16 (shapeCast S16 ((sS : Memref sig .scVector .vmem S4x64 .f32).view.readAt (Elt F) (Rect.unit (s := S4x64) ![s, o] S1x16.size hS).toLoadRect C) c1) c2 x
      = lay r0 s0 ((Rect.unit (s := S4x128) ![s, o'] S1x16.size hP).emb x) := by
  subst ho' hC
  have hx0 : (x 0).val = 0 := by have h : (x 0).val < 1 := (x 0).isLt; omega
  have hx1 : (x 1).val < 16 := (x 1).isLt
  have ho : o + 16 ≤ 64 := hS 1
  refine (congrFun (shapeCast_shapeCast (s := S1x16) (t := S16) _ c1 c2) x).trans ?_
  rw [View.readAt_apply]
  simp only [Memref.view_whole, View.read_whole]
  unfold lay
  have e0 : (((Rect.unit (s := S4x128) ![s, o + 64] S1x16.size hP).emb x) 0).val = s := by
    rw [Rect.emb_apply]; simp [hx0]
  have e1 : (((Rect.unit (s := S4x128) ![s, o + 64] S1x16.size hP).emb x) 1).val = o + 64 + (x 1).val := by
    rw [Rect.emb_apply]; simp
  rw [dif_neg (by rw [e1]; omega)]
  congr 1
  funext a
  match a with
  | 0 => apply Fin.ext; rw [LoadRect.idx_apply]; simp [e0, hx0]
  | 1 => apply Fin.ext; rw [LoadRect.idx_apply]; simp [e1]; omega

/-- Pieces that tile a buffer, each a block of one function `G` of the buffer's index, read back as `G`. -/
theorem read_pieces {κ : Kind} {sp : Space} {s : Shape} {e : EltTy} (v : View sig κ sp s e) (f : v.ty.Contents (Elt F)) (Lp : List (View.Piece (Elt F) s e))
    (G : s.Idx → Elt F e) (sz : Fin s.rank → ℕ) (ht : View.Piece.tiledL Lp sz = true)
    (hp : ∀ p ∈ Lp, ∀ x : p.1.shape.Idx, p.2 x = G (p.1.emb x)) : v.read (Elt F) (v.writes (Elt F) f Lp) = G := by
  funext y
  rw [View.read_writes_eq_canon v f Lp (View.cover_of_tiledL Lp sz ht)]
  exact View.canon_apply_of_pieces G Lp hp y (View.cover_of_tiledL Lp sz ht y)

/-- A rank piece and a suit piece of the laid-out rows, as the stores list them. -/
abbrev rkP (C : (sR : Memref sig .scVector .vmem S64 .f32).view.ty.Contents (Elt F)) (s o : ℕ)
    (hR : ∀ a, (![o] : Fin 1 → ℕ) a + S16.size a ≤ S64.size a) (hP : ∀ a, (![s, o] : Fin 2 → ℕ) a + S1x16.size a ≤ S4x128.size a)
    (c1 : S16.ShapeCasts S16) (c2 : S16.ShapeCasts S1x16) : View.Piece (Elt F) S4x128 .f32 :=
  ⟨Rect.unit (s := S4x128) ![s, o] S1x16.size hP,
    shapeCast S1x16 (shapeCast S16 ((sR : Memref sig .scVector .vmem S64 .f32).view.readAt (Elt F) (Rect.unit (s := S64) ![o] S16.size hR).toLoadRect C) c1) c2⟩
abbrev suP (C : (sS : Memref sig .scVector .vmem S4x64 .f32).view.ty.Contents (Elt F)) (s o o' : ℕ)
    (hS : ∀ a, (![s, o] : Fin 2 → ℕ) a + S1x16.size a ≤ S4x64.size a) (hP : ∀ a, (![s, o'] : Fin 2 → ℕ) a + S1x16.size a ≤ S4x128.size a)
    (c1 : S1x16.ShapeCasts S16) (c2 : S16.ShapeCasts S1x16) : View.Piece (Elt F) S4x128 .f32 :=
  ⟨Rect.unit (s := S4x128) ![s, o'] S1x16.size hP,
    shapeCast S1x16 (shapeCast S16 ((sS : Memref sig .scVector .vmem S4x64 .f32).view.readAt (Elt F) (Rect.unit (s := S4x64) ![s, o] S1x16.size hS).toLoadRect C) c1) c2⟩

omit [FloatOps F] in
theorem rkP_lay (C : (sR : Memref sig .scVector .vmem S64 .f32).view.ty.Contents (Elt F)) (r0 : S64.Idx → Elt F .f32) (s0 : S4x64.Idx → Elt F .f32)
    (hC : C = r0) (s o : ℕ) (hR : ∀ a, (![o] : Fin 1 → ℕ) a + S16.size a ≤ S64.size a) (hP : ∀ a, (![s, o] : Fin 2 → ℕ) a + S1x16.size a ≤ S4x128.size a)
    (c1 : S16.ShapeCasts S16) (c2 : S16.ShapeCasts S1x16) :
    ∀ x : (rkP C s o hR hP c1 c2).1.shape.Idx, (rkP C s o hR hP c1 c2).2 x = lay r0 s0 ((rkP C s o hR hP c1 c2).1.emb x) :=
  fun x => rank_piece C r0 s0 hC s o hR hP c1 c2 x
omit [FloatOps F] in
theorem suP_lay (C : (sS : Memref sig .scVector .vmem S4x64 .f32).view.ty.Contents (Elt F)) (r0 : S64.Idx → Elt F .f32) (s0 : S4x64.Idx → Elt F .f32)
    (hC : C = s0) (s o o' : ℕ) (ho' : o' = o + 64) (hS : ∀ a, (![s, o] : Fin 2 → ℕ) a + S1x16.size a ≤ S4x64.size a)
    (hP : ∀ a, (![s, o'] : Fin 2 → ℕ) a + S1x16.size a ≤ S4x128.size a) (c1 : S1x16.ShapeCasts S16) (c2 : S16.ShapeCasts S1x16) :
    ∀ x : (suP C s o o' hS hP c1 c2).1.shape.Idx, (suP C s o o' hS hP c1 c2).2 x = lay r0 s0 ((suP C s o o' hS hP c1 c2).1.emb x) :=
  fun x => suit_piece C r0 s0 hC s o o' ho' hS hP c1 c2 x

/-! ### The rows' places in the tables -/

omit [FloatOps F] in
/-- Entry `x` of the subcore's four rows is entry `(4 w + x 0, x 1)` of the card-feature table. -/
theorem emb_oRowK (h1 : k0_cond1 L = 1#1) (x : S4x128.Idx) :
    (((oRowK L h1).view.emb x) 0).val = 4 * (L 1).val + (x 0).val ∧ (((oRowK L h1).view.emb x) 1).val = (x 1).val := by
  have h0 := core_zero L
  constructor
  · show ((Rect.unit (s := S52x128) (k0_off2 L) S4x128.size (k0_off2_inb L h1)).emb x 0).val = _
    rw [Rect.emb_apply]; simp [k0_off2_eq, h0]
  · show ((Rect.unit (s := S52x128) (k0_off2 L) S4x128.size (k0_off2_inb L h1)).emb x 1).val = _
    rw [Rect.emb_apply]; simp [k0_off2_eq]

omit [FloatOps F] in
/-- Entry `i` of the fetched rank row is entry `(w, i)` of the rank table. -/
theorem emb_rRowK (h1 : k0_cond1 L = 1#1) (i : S64.Idx) :
    (((rRowK L h1).view.emb i) 0).val = (L 1).val ∧ (((rRowK L h1).view.emb i) 1).val = (i 0).val := by
  have h0 := core_zero L
  constructor
  · show ((Rect.unit (s := S13x64) (k0_off1 L) S1x64.size (k0_off1_inb L h1)).emb (Shape.reshapeEquiv squeezes_S1x64_S64.numel_eq i) 0).val = _
    rw [Shape.reshapeEquiv_cons_one, Rect.emb_apply]; simp [k0_off1_eq, h0]; rfl
  · show ((Rect.unit (s := S13x64) (k0_off1 L) S1x64.size (k0_off1_inb L h1)).emb (Shape.reshapeEquiv squeezes_S1x64_S64.numel_eq i) 1).val = _
    rw [Shape.reshapeEquiv_cons_one, Rect.emb_apply]; simp [k0_off1_eq]; rfl

omit [FloatOps F] in
/-- The laid-out rows of what the two fetches brought are the subcore's four rows of the card-feature table. -/
theorem lay_eq (h1 : k0_cond1 L = 1#1) (x : S4x128.Idx) :
    lay (View.read (Elt F) (rRowK L h1).view (m (rkLoc d))) (View.read (Elt F) (suV : Memref sig .scVector .hbm S4x64 .f32).view (m (suLoc d))) x
      = cfG (m (rkLoc d)) (m (suLoc d)) ((oRowK L h1).view.emb x) := by
  obtain ⟨e0, e1⟩ := emb_oRowK L h1 x
  have hx0 : (x 0).val < 4 := (x 0).isLt
  unfold lay cfG
  by_cases h : (x 1).val < 64
  · rw [dif_pos h, dif_pos (by rw [e1]; exact h), View.read_apply]
    refine (cast_eq _ _).trans ?_
    obtain ⟨r0, r1⟩ := emb_rRowK L h1 (fun | 0 => ⟨(x 1).val, h⟩)
    congr 1; funext a
    match a with
    | 0 => apply Fin.ext; show ((rRowK L h1).view.emb _ 0).val = ((oRowK L h1).view.emb x 0).val / 4; rw [r0, e0]; omega
    | 1 => apply Fin.ext; show ((rRowK L h1).view.emb _ 1).val = ((oRowK L h1).view.emb x 1).val; rw [r1, e1]
  · rw [dif_neg h, dif_neg (by rw [e1]; exact h), View.read_apply]
    refine (cast_eq _ _).trans ?_
    congr 1; funext a
    match a with
    | 0 => apply Fin.ext; show (x 0).val = ((oRowK L h1).view.emb x 0).val % 4; rw [e0]; omega
    | 1 => apply Fin.ext; show (x 1).val - 64 = ((oRowK L h1).view.emb x 1).val - 64; rw [e1]

omit [FloatOps F] in
theorem sR_write (f : (sR : Memref sig .scVector .vmem S64 .f32).view.ty.Contents (Elt F)) (w : S64.Idx → Elt F .f32) :
    View.write (Elt F) (sR : Memref sig .scVector .vmem S64 .f32).view f w Finset.univ = w := View.write_whole_univ _ _ _
omit [FloatOps F] in
theorem sS_write (f : (sS : Memref sig .scVector .vmem S4x64 .f32).view.ty.Contents (Elt F)) (w : S4x64.Idx → Elt F .f32) :
    View.write (Elt F) (sS : Memref sig .scVector .vmem S4x64 .f32).view f w Finset.univ = w := View.write_whole_univ _ _ _
/-! ### The task -/

/-- The task on a subcore the branch skips: nothing moves, and it holds no rows. -/
theorem tile_skip (h1 : ¬ k0_cond1 L = 1#1) (O : CellTallies nD τ sig (HIx 1)) (W : Waits sig (HIx 1)) :
    iprop(levAts (K (F := F)).L (K (F := F)).lev ∗ emp ∗ (rkTok m d (jL L) ∗ suTok m d (jL L) ∗ outRows d (jL L) (m (cfLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_build L rkV (Memref.isWhole_whole _) suV (Memref.isWhole_whole _) cfV (Memref.isWhole_whole _)
            sR (Memref.isWhole_whole _) sS (Memref.isWhole_whole _) sO (Memref.isWhole_whole _) cc0_scratch3 cc0_scratch4 cc0_scoped0)
          fun _ => iprop((rkTok m d (jL L) ∗ suTok m d (jL L) ∗ outRows d (jL L) (cfOf m d)) ∗ scopedBufs (V d (cV L) (jV L)) ∗ scopedSems0 (V d (cV L) (jV L))
            ∗ ∃ W', ⌜∀ p ∈ W', p ∈ W ∨ p.2 = none⌝ ∗ owes (V d (cV L) (jV L)) O W') := by
  have hlt : ¬ (jL L).val < 13 := fun h => h1 ((cond_iff L).mpr h)
  simp only [cc0_build_eq_skeleton]; unfold cc0_build_skel
  rw [outRows_neg d (jL L) (m (cfLoc d)) hlt, outRows_neg d (jL L) (cfOf m d) hlt]
  iintro ⟨-, -, Hst, Hsb, Hss, HO⟩
  sl_exec
  sl_step
  isplitl [Hst]; · iexact Hst
  isplitl [Hsb]; · iexact Hsb
  isplitl [Hss]; · iexact Hss
  iexists W; isplitr
  · ipureintro; exact fun p hp => .inl hp
  · iexact HO

/-- The task on a subcore below 13: two fetches and their waits, thirty-two sixteen-lane loads and stores, the write-out
    and its wait. -/
theorem tile_taken (h1 : k0_cond1 L = 1#1) (O : CellTallies nD τ sig (HIx 1)) (W : Waits sig (HIx 1)) (hO : ∀ g, O g none = 0) :
    iprop(levAts (K (F := F)).L (K (F := F)).lev ∗ emp ∗ (rkTok m d (jL L) ∗ suTok m d (jL L) ∗ outRows d (jL L) (m (cfLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_build L rkV (Memref.isWhole_whole _) suV (Memref.isWhole_whole _) cfV (Memref.isWhole_whole _)
            sR (Memref.isWhole_whole _) sS (Memref.isWhole_whole _) sO (Memref.isWhole_whole _) cc0_scratch3 cc0_scratch4 cc0_scoped0)
          fun _ => iprop((rkTok m d (jL L) ∗ suTok m d (jL L) ∗ outRows d (jL L) (cfOf m d)) ∗ scopedBufs (V d (cV L) (jV L)) ∗ scopedSems0 (V d (cV L) (jV L))
            ∗ ∃ W', ⌜∀ p ∈ W', p ∈ W ∨ p.2 = none⌝ ∗ owes (V d (cV L) (jV L)) O W') := by
  have hlt : (jL L).val < 13 := (cond_iff L).mp h1
  simp only [cc0_build_eq_skeleton]; unfold cc0_build_skel
  rw [(K (F := F)).scopedBufs_V facts d (cV L) (jV L), SparseCore.Cfg.scopedSems0_V (Val := Elt F) d (cV L) (jV L), ownSems0_V, ownBufs_V,
    outRows_pos d (jL L) (m (cfLoc d)) hlt, outRows_pos d (jL L) (cfOf m d) hlt]
  iintro ⟨#Hlv, -, ⟨Hrk, Hsu, Ho⟩, ⟨⟨%f0, Hs0⟩, ⟨%f1, Hs1⟩, ⟨%f2, Hs2⟩, Hbufs⟩, ⟨HsemA, HsemB, HsemC, Hsems⟩, HO⟩
  ihave Hmw := ((K (F := F)).mayWaits_none (thr := V d (cV L) (jV L)) hO) $$ Hlv
  ihave Hrk' := (Entails.of_eq (pts_rk (F := F) d L _ _).symm) $$ Hrk
  ihave Hsu' := (Entails.of_eq (pts_su (F := F) d L _ _).symm) $$ Hsu
  ihave Ho' := (Entails.of_eq (pts_oRowK (F := F) d L h1 hlt _).symm) $$ Ho
  ihave Hs0' := (Entails.of_eq (pts_sR (F := F) d L _).symm) $$ Hs0
  ihave Hs1' := (Entails.of_eq (pts_sS (F := F) d L _).symm) $$ Hs1
  ihave Hs2' := (Entails.of_eq (pts_sO (F := F) d L _).symm) $$ Hs2
  sl_exec_parts
  sl_step
  isplitl [Hrk' Hsu' Ho']
  · isplitl [Hrk']; · iapply (Entails.of_eq (pts_rk (F := F) d L _ _)); iexact Hrk'
    isplitl [Hsu']; · iapply (Entails.of_eq (pts_su (F := F) d L _ _)); iexact Hsu'
    ihave Ho := (Entails.of_eq (pts_oRowK (F := F) d L h1 hlt _)) $$ Ho'
    iapply (Entails.of_eq (pointsTo_congr ?hval)) $$ Ho
    case hval =>
      intro j hj
      rw [← set_oRowK L h1 hlt] at hj
      obtain ⟨x, -, rfl⟩ := Finset.mem_map.mp hj
      rw [← View.write_univ_eq_writes_whole, View.writes_nil, View.write_emb_of_mem _ _ (Finset.mem_univ _)]
      refine (cast_eq _ _).trans ?_
      refine Eq.trans ?_ (lay_eq m d L h1 x)
      refine congrFun ?_ x
      sl_unfold_run_names
      sl_unfold_run_names
      refine read_pieces _ _ _ _ S1x16.size (by sl_kernel_rfl) ?_
      repeat' (refine List.forall_mem_cons.mpr ⟨?_, ?_⟩)
      all_goals first
        | exact rkP_lay _ _ _ (sR_write _ _) _ _ _ _ _ _
        | exact suP_lay _ _ _ (sS_write _ _) _ _ _ (by decide) _ _ _ _
        | exact fun _ h => nomatch h
  isplitl [Hs0' Hs1' Hs2' Hbufs]
  · isplitl [Hs0']; · iexists _; iexact Hs0'
    isplitl [Hs1']; · iexists _; iexact Hs1'
    isplitl [Hs2']; · iexists _; iexact Hs2'
    iexact Hbufs
  isplitl [HsemA HsemB HsemC Hsems]
  · isplitl [HsemA]; · iexact HsemA
    isplitl [HsemB]; · iexact HsemB
    isplitl [HsemC]; · iexact HsemC
    iexact Hsems
  iexists (insert (SemLoc.dma cc0_scoped0.sem, (default : HIx 1)) (insert (SemLoc.dma cc0_scratch4.sem, (default : HIx 1)) (insert (SemLoc.dma cc0_scratch3.sem, (default : HIx 1)) W))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp
  iexact HO

theorem tile_body (O : CellTallies nD τ sig (HIx 1)) (W : Waits sig (HIx 1)) (hO : ∀ g, O g none = 0) :
    iprop(levAts (K (F := F)).L (K (F := F)).lev ∗ emp ∗ (rkTok m d (jL L) ∗ suTok m d (jL L) ∗ outRows d (jL L) (m (cfLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_build L rkV (Memref.isWhole_whole _) suV (Memref.isWhole_whole _) cfV (Memref.isWhole_whole _)
            sR (Memref.isWhole_whole _) sS (Memref.isWhole_whole _) sO (Memref.isWhole_whole _) cc0_scratch3 cc0_scratch4 cc0_scoped0)
          fun _ => iprop((rkTok m d (jL L) ∗ suTok m d (jL L) ∗ outRows d (jL L) (cfOf m d)) ∗ scopedBufs (V d (cV L) (jV L)) ∗ scopedSems0 (V d (cV L) (jV L))
            ∗ ∃ W', ⌜∀ p ∈ W', p ∈ W ∨ p.2 = none⌝ ∗ owes (V d (cV L) (jV L)) O W') := by
  by_cases h1 : k0_cond1 L = 1#1
  · exact tile_taken m d L h1 O W hO
  · exact tile_skip m d L h1 O W

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_build (coordsV c s)
          rkV (Memref.isWhole_whole _) suV (Memref.isWhole_whole _) cfV (Memref.isWhole_whole _)
          sR (Memref.isWhole_whole _) sS (Memref.isWhole_whole _) sO (Memref.isWhole_whole _) cc0_scratch3 cc0_scratch4 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  -- the task owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) O W hO).trans (wp_mono frame _ _ fun _ => obl_post)

end Cert.KernelIdeal.Hand

end
-- ==== Proof.KBTile.lean ====
/-
  The vector-subcore call's task: what one vector subcore does with its read shares of the rank and suit tables and
  its four rows of the card-feature table. Subcore `w < 13` copies rank row `w` and the whole suit table into its own
  memory, lays out four rows — row `s` is the rank row followed by suit row `s` — in sixteen-lane pieces, and copies
  the four rows out to rows `4 w … 4 w + 3` of the table; the three copies use three semaphores, one copy each, and
  each is waited for before its destination is read or its source overwritten. Subcores 13, 14, 15 do nothing.
-/
import proofs.«203989_g3255585211076_cont_8to1_b_774_30_alg».proof.Proof.KBSetup
import Idealize.ShloMosaic.Lib.Pipeline.Value
import Idealize.ShloMosaic.Lib.Pipeline.FrameBody
import Idealize.ShloMosaic.Lib.Ring

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

/-! ## The task's memrefs, spelt as the call passes them -/

abbrev rkV : Memref sig .scVector .hbm S13x64 .f32 := Memref.whole main_arg1_scv
abbrev suV : Memref sig .scVector .hbm S4x64 .f32 := Memref.whole main_arg2_scv
abbrev cfV : Memref sig .scVector .hbm S52x128 .f32 := Memref.whole main_v0_scv
/-- A subcore's scratch: the fetched rank row, the fetched suit table, the four laid-out rows. -/
abbrev sR : Memref sig .scVector .vmem S64 .f32 := Memref.whole cc0_scratch0
abbrev sS : Memref sig .scVector .vmem S4x64 .f32 := Memref.whole cc0_scratch1
abbrev sO : Memref sig .scVector .vmem S4x128 .f32 := Memref.whole cc0_scratch2

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_one : grid0.bound 1 = 16 := rfl
abbrev jL (L : grid0.Coords) : Fin 16 := Fin.cast bound_one (L 1)

/-- The branch is taken exactly on subcores below 13 (decided once over the grid). -/
theorem cond_iff : ∀ L : grid0.Coords, k0_cond1 L = 1#1 ↔ (L 1).val < 13 := by decide +kernel
theorem core_zero : ∀ L : grid0.Coords, (L 0).val = 0 := by decide +kernel

abbrev cAcell (d : Dev nD) (c : Fin τ.nSC) (i : Fin τ.nSub) : GSem nD τ sig := (V d c i, .dma cc0_scratch3.sem)
abbrev cBcell (d : Dev nD) (c : Fin τ.nSC) (i : Fin τ.nSub) : GSem nD τ sig := (V d c i, .dma cc0_scratch4.sem)
abbrev cCcell (d : Dev nD) (c : Fin τ.nSC) (i : Fin τ.nSub) : GSem nD τ sig := (V d c i, .dma cc0_scoped0.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scratch3.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch4.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped0.sem : SemLoc sig).isScoped .scVector = true; decide⟩⟩⟩)]

omit [FloatOps F] in
/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-! ### The arrays as the subcore's memrefs address them -/

omit [FloatOps F] in
theorem pts_rk (q : PosShare TreeShare) (f : Buf (Elt F) (rkLoc d)) :
    ((rkV : Memref sig .scVector .hbm S13x64 .f32).view.loc (V d (cV L) (jV L)) ↦{q} f : sProp 𝕄) = rkLoc d ↦{q} f := by
  simp only [Memref.view_whole, View.set_whole]
omit [FloatOps F] in
theorem pts_su (q : PosShare TreeShare) (f : Buf (Elt F) (suLoc d)) :
    ((suV : Memref sig .scVector .hbm S4x64 .f32).view.loc (V d (cV L) (jV L)) ↦{q} f : sProp 𝕄) = suLoc d ↦{q} f := by
  simp only [Memref.view_whole, View.set_whole]
omit [FloatOps F] in
theorem pts_sR (f : Buf (Elt F) ((V d (cV L) (jV L)).loc cc0_scratch0)) :
    ((sR : Memref sig .scVector .vmem S64 .f32).view.loc (V d (cV L) (jV L)) ↦{fullShare} f : sProp 𝕄) = (V d (cV L) (jV L)).loc cc0_scratch0 ↦{fullShare} f := rfl
omit [FloatOps F] in
theorem pts_sS (f : Buf (Elt F) ((V d (cV L) (jV L)).loc cc0_scratch1)) :
    ((sS : Memref sig .scVector .vmem S4x64 .f32).view.loc (V d (cV L) (jV L)) ↦{fullShare} f : sProp 𝕄) = (V d (cV L) (jV L)).loc cc0_scratch1 ↦{fullShare} f := rfl
omit [FloatOps F] in
theorem pts_sO (f : Buf (Elt F) ((V d (cV L) (jV L)).loc cc0_scratch2)) :
    ((sO : Memref sig .scVector .vmem S4x128 .f32).view.loc (V d (cV L) (jV L)) ↦{fullShare} f : sProp 𝕄) = (V d (cV L) (jV L)).loc cc0_scratch2 ↦{fullShare} f := rfl

/-! ### The rows the task slices -/

/-- Rank row `L 1` as the task slices it, squeezed. -/
abbrev rRowK (L : grid0.Coords) (h : k0_cond1 L = 1#1) : Memref sig .scVector .hbm S64 .f32 :=
  ((rkV : Memref sig .scVector .hbm S13x64 .f32).slice (Rect.unit (s := S13x64) (k0_off1 L) S1x64.size (k0_off1_inb L h)) (fun _ => rfl)).squeeze S64 squeezes_S1x64_S64
/-- The subcore's four rows of the card-feature table, as the task slices them. -/
abbrev oRowK (L : grid0.Coords) (h : k0_cond1 L = 1#1) : Memref sig .scVector .hbm S4x128 .f32 :=
  (cfV : Memref sig .scVector .hbm S52x128 .f32).slice (Rect.unit (s := S52x128) (k0_off2 L) S4x128.size (k0_off2_inb L h)) (fun _ => rfl)

omit [FloatOps F] in
theorem rowsK_eq (h : k0_cond1 L = 1#1) (hlt : (jL L).val < 13) :
    Rect.unit (s := S52x128) (k0_off2 L) S4x128.size (k0_off2_inb L h) = cardRows ⟨(jL L).val, hlt⟩ := by
  unfold cardRows Rect.part Rect.block
  have h0 := core_zero L
  congr 1 <;> funext a
  · rw [k0_off2_eq]
    match a with
    | 0 => simp [Shape.partIx, Shape.partSize, h0]; omega
    | 1 => simp [Shape.partIx, Shape.partSize]
  · match a with
    | 0 => simp [Shape.partSize]
    | 1 => simp [Shape.partSize]

omit [FloatOps F] in
theorem set_oRowK (h : k0_cond1 L = 1#1) (hlt : (jL L).val < 13) : (oRowK L h).view.set = cardRowSet ⟨(jL L).val, hlt⟩ := by
  show ((cfV : Memref sig .scVector .hbm S52x128 .f32).view.slice (Rect.unit (s := S52x128) (k0_off2 L) S4x128.size (k0_off2_inb L h))).set
    = ((cfV : Memref sig .scVector .hbm S52x128 .f32).view.slice (cardRows ⟨(jL L).val, hlt⟩)).set
  rw [rowsK_eq L h hlt]
omit [FloatOps F] in
theorem pts_oRowK (h : k0_cond1 L = 1#1) (hlt : (jL L).val < 13) (f : Buf (Elt F) (cfLoc d)) :
    ((oRowK L h).view.loc (V d (cV L) (jV L)) ↦[(oRowK L h).view.set]{fullShare} f : sProp 𝕄) = cfLoc d ↦[cardRowSet ⟨(jL L).val, hlt⟩]{fullShare} f := by
  rw [set_oRowK L h hlt]

/-! ## The value: what the thirty-two stores leave in the laid-out rows, and what the rows are in the table -/

/-- The four laid-out rows as one function of what the two fetches brought: columns below 64 hold the rank row, the rest
    suit row `y 0`. -/
def lay (r0 : S64.Idx → Elt F .f32) (s0 : S4x64.Idx → Elt F .f32) : S4x128.Idx → Elt F .f32 := fun y =>
  if h : (y 1).val < 64 then r0 (fun | 0 => ⟨(y 1).val, h⟩)
  else s0 (fun | 0 => y 0 | 1 => ⟨(y 1).val - 64, by have h1 : (y 1).val < 128 := (y 1).isLt; show (y 1).val - 64 < 64; omega⟩)

omit [FloatOps F] in
/-- A sixteen-lane vector recast to one row of sixteen reads lane `x 1` at `x`. -/
theorem cast_row (v : S16.Idx → Elt F .f32) (c1 : S16.ShapeCasts S16) (c2 : S16.ShapeCasts S1x16) (x : S1x16.Idx) :
    shapeCast S1x16 (shapeCast S16 v c1) c2 x = v (fun | 0 => x 1) := by
  have hx0 : (x 0).val = 0 := by have h : (x 0).val < 1 := (x 0).isLt; omega
  rw [shapeCast_self, shapeCast_apply v c2 x (fun | 0 => x 1) (by rw [Shape.rowMajor_val_one, Shape.rowMajor_val_two]; simp [hx0])]

omit [FloatOps F] in
/-- Sixteen lanes of the rank row, stored at row `s`, column `o` (below 64) of the laid-out rows. -/
theorem rank_piece (C : (sR : Memref sig .scVector .vmem S64 .f32).view.ty.Contents (Elt F)) (r0 : S64.Idx → Elt F .f32) (s0 : S4x64.Idx → Elt F .f32)
    (hC : C = r0) (s o : ℕ)
    (hR : ∀ a, (![o] : Fin 1 → ℕ) a + S16.size a ≤ S64.size a) (hP : ∀ a, (![s, o] : Fin 2 → ℕ) a + S1x16.size a ≤ S4x128.size a)
    (c1 : S16.ShapeCasts S16) (c2 : S16.ShapeCasts S1x16) (x : S1x16.Idx) :
    shapeCast S1x16 (shapeCast S16 ((sR : Memref sig .scVector .vmem S64 .f32).view.readAt (Elt F) (Rect.unit (s := S64) ![o] S16.size hR).toLoadRect C) c1) c2 x
      = lay r0 s0 ((Rect.unit (s := S4x128) ![s, o] S1x16.size hP).emb x) := by
  subst hC
  have hx1 : (x 1).val < 16 := (x 1).isLt
  have ho : o + 16 ≤ 64 := hR 0
  refine (cast_row _ c1 c2 x).trans ?_
  rw [View.readAt_apply]
  simp only [Memref.view_whole, View.read_whole]
  unfold lay
  have e1 : (((Rect.unit (s := S4x128) ![s, o] S1x16.size hP).emb x) 1).val = o + (x 1).val := by
    rw [Rect.emb_apply]; simp
  rw [dif_pos (by rw [e1]; omega)]
  congr 1
  funext a
  match a with
  | 0 => apply Fin.ext; rw [LoadRect.idx_apply]; simp [e1]

omit [FloatOps F] in
/-- Sixteen lanes of suit row `s`, stored at row `s`, column `64 + o` of the laid-out rows. -/
theorem suit_piece (C : (sS : Memref sig .scVector .vmem S4x64 .f32).view.ty.Contents (Elt F)) (r0 : S64.Idx → Elt F .f32) (s0 : S4x64.Idx → Elt F .f32)
    (hC : C = s0) (s o o' : ℕ) (ho' : o' = o + 64)
    (hS : ∀ a, (![s, o] : Fin 2 → ℕ) a + S1x16.size a ≤ S4x64.size a) (hP : ∀ a, (![s, o'] : Fin 2 → ℕ) a + S1x16.size a ≤ S4x128.size a)
    (c1 : S1x16.ShapeCasts S16) (c2 : S16.ShapeCasts S1x16) (x : S1x16.Idx) :
    shapeCast S1x16 (shapeCast S16 ((sS : Memref sig .scVector .vmem S4x64 .f32).view.readAt (Elt F) (Rect.unit (s := S4x64) ![s, o] S1x16.size hS).toLoadRect C) c1) c2 x
      = lay r0 s0 ((Rect.unit (s := S4x128) ![s, o'] S1x16.size hP).emb x) := by
  subst ho' hC
  have hx0 : (x 0).val = 0 := by have h : (x 0).val < 1 := (x 0).isLt; omega
  have hx1 : (x 1).val < 16 := (x 1).isLt
  have ho : o + 16 ≤ 64 := hS 1
  refine (congrFun (shapeCast_shapeCast (s := S1x16) (t := S16) _ c1 c2) x).trans ?_
  rw [View.readAt_apply]
  simp only [Memref.view_whole, View.read_whole]
  unfold lay
  have e0 : (((Rect.unit (s := S4x128) ![s, o + 64] S1x16.size hP).emb x) 0).val = s := by
    rw [Rect.emb_apply]; simp [hx0]
  have e1 : (((Rect.unit (s := S4x128) ![s, o + 64] S1x16.size hP).emb x) 1).val = o + 64 + (x 1).val := by
    rw [Rect.emb_apply]; simp
  rw [dif_neg (by rw [e1]; omega)]
  congr 1
  funext a
  match a with
  | 0 => apply Fin.ext; rw [LoadRect.idx_apply]; simp [e0, hx0]
  | 1 => apply Fin.ext; rw [LoadRect.idx_apply]; simp [e1]; omega

/-- Pieces that tile a buffer, each a block of one function `G` of the buffer's index, read back as `G`. -/
theorem read_pieces {κ : Kind} {sp : Space} {s : Shape} {e : EltTy} (v : View sig κ sp s e) (f : v.ty.Contents (Elt F)) (Lp : List (View.Piece (Elt F) s e))
    (G : s.Idx → Elt F e) (sz : Fin s.rank → ℕ) (ht : View.Piece.tiledL Lp sz = true)
    (hp : ∀ p ∈ Lp, ∀ x : p.1.shape.Idx, p.2 x = G (p.1.emb x)) : v.read (Elt F) (v.writes (Elt F) f Lp) = G := by
  funext y
  rw [View.read_writes_eq_canon v f Lp (View.cover_of_tiledL Lp sz ht)]
  exact View.canon_apply_of_pieces G Lp hp y (View.cover_of_tiledL Lp sz ht y)

/-- A rank piece and a suit piece of the laid-out rows, as the stores list them. -/
abbrev rkP (C : (sR : Memref sig .scVector .vmem S64 .f32).view.ty.Contents (Elt F)) (s o : ℕ)
    (hR : ∀ a, (![o] : Fin 1 → ℕ) a + S16.size a ≤ S64.size a) (hP : ∀ a, (![s, o] : Fin 2 → ℕ) a + S1x16.size a ≤ S4x128.size a)
    (c1 : S16.ShapeCasts S16) (c2 : S16.ShapeCasts S1x16) : View.Piece (Elt F) S4x128 .f32 :=
  ⟨Rect.unit (s := S4x128) ![s, o] S1x16.size hP,
    shapeCast S1x16 (shapeCast S16 ((sR : Memref sig .scVector .vmem S64 .f32).view.readAt (Elt F) (Rect.unit (s := S64) ![o] S16.size hR).toLoadRect C) c1) c2⟩
abbrev suP (C : (sS : Memref sig .scVector .vmem S4x64 .f32).view.ty.Contents (Elt F)) (s o o' : ℕ)
    (hS : ∀ a, (![s, o] : Fin 2 → ℕ) a + S1x16.size a ≤ S4x64.size a) (hP : ∀ a, (![s, o'] : Fin 2 → ℕ) a + S1x16.size a ≤ S4x128.size a)
    (c1 : S1x16.ShapeCasts S16) (c2 : S16.ShapeCasts S1x16) : View.Piece (Elt F) S4x128 .f32 :=
  ⟨Rect.unit (s := S4x128) ![s, o'] S1x16.size hP,
    shapeCast S1x16 (shapeCast S16 ((sS : Memref sig .scVector .vmem S4x64 .f32).view.readAt (Elt F) (Rect.unit (s := S4x64) ![s, o] S1x16.size hS).toLoadRect C) c1) c2⟩

omit [FloatOps F] in
theorem rkP_lay (C : (sR : Memref sig .scVector .vmem S64 .f32).view.ty.Contents (Elt F)) (r0 : S64.Idx → Elt F .f32) (s0 : S4x64.Idx → Elt F .f32)
    (hC : C = r0) (s o : ℕ) (hR : ∀ a, (![o] : Fin 1 → ℕ) a + S16.size a ≤ S64.size a) (hP : ∀ a, (![s, o] : Fin 2 → ℕ) a + S1x16.size a ≤ S4x128.size a)
    (c1 : S16.ShapeCasts S16) (c2 : S16.ShapeCasts S1x16) :
    ∀ x : (rkP C s o hR hP c1 c2).1.shape.Idx, (rkP C s o hR hP c1 c2).2 x = lay r0 s0 ((rkP C s o hR hP c1 c2).1.emb x) :=
  fun x => rank_piece C r0 s0 hC s o hR hP c1 c2 x
omit [FloatOps F] in
theorem suP_lay (C : (sS : Memref sig .scVector .vmem S4x64 .f32).view.ty.Contents (Elt F)) (r0 : S64.Idx → Elt F .f32) (s0 : S4x64.Idx → Elt F .f32)
    (hC : C = s0) (s o o' : ℕ) (ho' : o' = o + 64) (hS : ∀ a, (![s, o] : Fin 2 → ℕ) a + S1x16.size a ≤ S4x64.size a)
    (hP : ∀ a, (![s, o'] : Fin 2 → ℕ) a + S1x16.size a ≤ S4x128.size a) (c1 : S1x16.ShapeCasts S16) (c2 : S16.ShapeCasts S1x16) :
    ∀ x : (suP C s o o' hS hP c1 c2).1.shape.Idx, (suP C s o o' hS hP c1 c2).2 x = lay r0 s0 ((suP C s o o' hS hP c1 c2).1.emb x) :=
  fun x => suit_piece C r0 s0 hC s o o' ho' hS hP c1 c2 x

/-! ### The rows' places in the tables -/

omit [FloatOps F] in
/-- Entry `x` of the subcore's four rows is entry `(4 w + x 0, x 1)` of the card-feature table. -/
theorem emb_oRowK (h1 : k0_cond1 L = 1#1) (x : S4x128.Idx) :
    (((oRowK L h1).view.emb x) 0).val = 4 * (L 1).val + (x 0).val ∧ (((oRowK L h1).view.emb x) 1).val = (x 1).val := by
  have h0 := core_zero L
  constructor
  · show ((Rect.unit (s := S52x128) (k0_off2 L) S4x128.size (k0_off2_inb L h1)).emb x 0).val = _
    rw [Rect.emb_apply]; simp [k0_off2_eq, h0]
  · show ((Rect.unit (s := S52x128) (k0_off2 L) S4x128.size (k0_off2_inb L h1)).emb x 1).val = _
    rw [Rect.emb_apply]; simp [k0_off2_eq]

omit [FloatOps F] in
/-- Entry `i` of the fetched rank row is entry `(w, i)` of the rank table. -/
theorem emb_rRowK (h1 : k0_cond1 L = 1#1) (i : S64.Idx) :
    (((rRowK L h1).view.emb i) 0).val = (L 1).val ∧ (((rRowK L h1).view.emb i) 1).val = (i 0).val := by
  have h0 := core_zero L
  constructor
  · show ((Rect.unit (s := S13x64) (k0_off1 L) S1x64.size (k0_off1_inb L h1)).emb (Shape.reshapeEquiv squeezes_S1x64_S64.numel_eq i) 0).val = _
    rw [Shape.reshapeEquiv_cons_one, Rect.emb_apply]; simp [k0_off1_eq, h0]; rfl
  · show ((Rect.unit (s := S13x64) (k0_off1 L) S1x64.size (k0_off1_inb L h1)).emb (Shape.reshapeEquiv squeezes_S1x64_S64.numel_eq i) 1).val = _
    rw [Shape.reshapeEquiv_cons_one, Rect.emb_apply]; simp [k0_off1_eq]; rfl

omit [FloatOps F] in
/-- The laid-out rows of what the two fetches brought are the subcore's four rows of the card-feature table. -/
theorem lay_eq (h1 : k0_cond1 L = 1#1) (x : S4x128.Idx) :
    lay (View.read (Elt F) (rRowK L h1).view (m (rkLoc d))) (View.read (Elt F) (suV : Memref sig .scVector .hbm S4x64 .f32).view (m (suLoc d))) x
      = cfG (m (rkLoc d)) (m (suLoc d)) ((oRowK L h1).view.emb x) := by
  obtain ⟨e0, e1⟩ := emb_oRowK L h1 x
  have hx0 : (x 0).val < 4 := (x 0).isLt
  unfold lay cfG
  by_cases h : (x 1).val < 64
  · rw [dif_pos h, dif_pos (by rw [e1]; exact h), View.read_apply]
    refine (cast_eq _ _).trans ?_
    obtain ⟨r0, r1⟩ := emb_rRowK L h1 (fun | 0 => ⟨(x 1).val, h⟩)
    congr 1; funext a
    match a with
    | 0 => apply Fin.ext; show ((rRowK L h1).view.emb _ 0).val = ((oRowK L h1).view.emb x 0).val / 4; rw [r0, e0]; omega
    | 1 => apply Fin.ext; show ((rRowK L h1).view.emb _ 1).val = ((oRowK L h1).view.emb x 1).val; rw [r1, e1]
  · rw [dif_neg h, dif_neg (by rw [e1]; exact h), View.read_apply]
    refine (cast_eq _ _).trans ?_
    congr 1; funext a
    match a with
    | 0 => apply Fin.ext; show (x 0).val = ((oRowK L h1).view.emb x 0).val % 4; rw [e0]; omega
    | 1 => apply Fin.ext; show (x 1).val - 64 = ((oRowK L h1).view.emb x 1).val - 64; rw [e1]

omit [FloatOps F] in
theorem sR_write (f : (sR : Memref sig .scVector .vmem S64 .f32).view.ty.Contents (Elt F)) (w : S64.Idx → Elt F .f32) :
    View.write (Elt F) (sR : Memref sig .scVector .vmem S64 .f32).view f w Finset.univ = w := View.write_whole_univ _ _ _
omit [FloatOps F] in
theorem sS_write (f : (sS : Memref sig .scVector .vmem S4x64 .f32).view.ty.Contents (Elt F)) (w : S4x64.Idx → Elt F .f32) :
    View.write (Elt F) (sS : Memref sig .scVector .vmem S4x64 .f32).view f w Finset.univ = w := View.write_whole_univ _ _ _
/-! ### The task -/

/-- The task on a subcore the branch skips: nothing moves, and it holds no rows. -/
theorem tile_skip (h1 : ¬ k0_cond1 L = 1#1) (O : CellTallies nD τ sig (HIx 1)) (W : Waits sig (HIx 1)) :
    iprop(levAts (K (F := F)).L (K (F := F)).lev ∗ emp ∗ (rkTok m d (jL L) ∗ suTok m d (jL L) ∗ outRows d (jL L) (m (cfLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_build L rkV (Memref.isWhole_whole _) suV (Memref.isWhole_whole _) cfV (Memref.isWhole_whole _)
            sR (Memref.isWhole_whole _) sS (Memref.isWhole_whole _) sO (Memref.isWhole_whole _) cc0_scratch3 cc0_scratch4 cc0_scoped0)
          fun _ => iprop((rkTok m d (jL L) ∗ suTok m d (jL L) ∗ outRows d (jL L) (cfOf m d)) ∗ scopedBufs (V d (cV L) (jV L)) ∗ scopedSems0 (V d (cV L) (jV L))
            ∗ ∃ W', ⌜∀ p ∈ W', p ∈ W ∨ p.2 = none⌝ ∗ owes (V d (cV L) (jV L)) O W') := by
  have hlt : ¬ (jL L).val < 13 := fun h => h1 ((cond_iff L).mpr h)
  simp only [cc0_build_eq_skeleton]; unfold cc0_build_skel
  rw [outRows_neg d (jL L) (m (cfLoc d)) hlt, outRows_neg d (jL L) (cfOf m d) hlt]
  iintro ⟨-, -, Hst, Hsb, Hss, HO⟩
  sl_exec
  sl_step
  isplitl [Hst]; · iexact Hst
  isplitl [Hsb]; · iexact Hsb
  isplitl [Hss]; · iexact Hss
  iexists W; isplitr
  · ipureintro; exact fun p hp => .inl hp
  · iexact HO

/-- The task on a subcore below 13: two fetches and their waits, thirty-two sixteen-lane loads and stores, the write-out
    and its wait. -/
theorem tile_taken (h1 : k0_cond1 L = 1#1) (O : CellTallies nD τ sig (HIx 1)) (W : Waits sig (HIx 1)) (hO : ∀ g, O g none = 0) :
    iprop(levAts (K (F := F)).L (K (F := F)).lev ∗ emp ∗ (rkTok m d (jL L) ∗ suTok m d (jL L) ∗ outRows d (jL L) (m (cfLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_build L rkV (Memref.isWhole_whole _) suV (Memref.isWhole_whole _) cfV (Memref.isWhole_whole _)
            sR (Memref.isWhole_whole _) sS (Memref.isWhole_whole _) sO (Memref.isWhole_whole _) cc0_scratch3 cc0_scratch4 cc0_scoped0)
          fun _ => iprop((rkTok m d (jL L) ∗ suTok m d (jL L) ∗ outRows d (jL L) (cfOf m d)) ∗ scopedBufs (V d (cV L) (jV L)) ∗ scopedSems0 (V d (cV L) (jV L))
            ∗ ∃ W', ⌜∀ p ∈ W', p ∈ W ∨ p.2 = none⌝ ∗ owes (V d (cV L) (jV L)) O W') := by
  have hlt : (jL L).val < 13 := (cond_iff L).mp h1
  simp only [cc0_build_eq_skeleton]; unfold cc0_build_skel
  rw [(K (F := F)).scopedBufs_V facts d (cV L) (jV L), SparseCore.Cfg.scopedSems0_V (Val := Elt F) d (cV L) (jV L), ownSems0_V, ownBufs_V,
    outRows_pos d (jL L) (m (cfLoc d)) hlt, outRows_pos d (jL L) (cfOf m d) hlt]
  iintro ⟨#Hlv, -, ⟨Hrk, Hsu, Ho⟩, ⟨⟨%f0, Hs0⟩, ⟨%f1, Hs1⟩, ⟨%f2, Hs2⟩, Hbufs⟩, ⟨HsemA, HsemB, HsemC, Hsems⟩, HO⟩
  ihave Hmw := ((K (F := F)).mayWaits_none (thr := V d (cV L) (jV L)) hO) $$ Hlv
  ihave Hrk' := (Entails.of_eq (pts_rk (F := F) d L _ _).symm) $$ Hrk
  ihave Hsu' := (Entails.of_eq (pts_su (F := F) d L _ _).symm) $$ Hsu
  ihave Ho' := (Entails.of_eq (pts_oRowK (F := F) d L h1 hlt _).symm) $$ Ho
  ihave Hs0' := (Entails.of_eq (pts_sR (F := F) d L _).symm) $$ Hs0
  ihave Hs1' := (Entails.of_eq (pts_sS (F := F) d L _).symm) $$ Hs1
  ihave Hs2' := (Entails.of_eq (pts_sO (F := F) d L _).symm) $$ Hs2
  sl_exec_parts
  sl_step
  isplitl [Hrk' Hsu' Ho']
  · isplitl [Hrk']; · iapply (Entails.of_eq (pts_rk (F := F) d L _ _)); iexact Hrk'
    isplitl [Hsu']; · iapply (Entails.of_eq (pts_su (F := F) d L _ _)); iexact Hsu'
    ihave Ho := (Entails.of_eq (pts_oRowK (F := F) d L h1 hlt _)) $$ Ho'
    iapply (Entails.of_eq (pointsTo_congr ?hval)) $$ Ho
    case hval =>
      intro j hj
      rw [← set_oRowK L h1 hlt] at hj
      obtain ⟨x, -, rfl⟩ := Finset.mem_map.mp hj
      rw [← View.write_univ_eq_writes_whole, View.writes_nil, View.write_emb_of_mem _ _ (Finset.mem_univ _)]
      refine (cast_eq _ _).trans ?_
      refine Eq.trans ?_ (lay_eq m d L h1 x)
      refine congrFun ?_ x
      sl_unfold_run_names
      sl_unfold_run_names
      refine read_pieces _ _ _ _ S1x16.size (by sl_kernel_rfl) ?_
      repeat' (refine List.forall_mem_cons.mpr ⟨?_, ?_⟩)
      all_goals first
        | exact rkP_lay _ _ _ (sR_write _ _) _ _ _ _ _ _
        | exact suP_lay _ _ _ (sS_write _ _) _ _ _ (by decide) _ _ _ _
        | exact fun _ h => nomatch h
  isplitl [Hs0' Hs1' Hs2' Hbufs]
  · isplitl [Hs0']; · iexists _; iexact Hs0'
    isplitl [Hs1']; · iexists _; iexact Hs1'
    isplitl [Hs2']; · iexists _; iexact Hs2'
    iexact Hbufs
  isplitl [HsemA HsemB HsemC Hsems]
  · isplitl [HsemA]; · iexact HsemA
    isplitl [HsemB]; · iexact HsemB
    isplitl [HsemC]; · iexact HsemC
    iexact Hsems
  iexists (insert (SemLoc.dma cc0_scoped0.sem, (default : HIx 1)) (insert (SemLoc.dma cc0_scratch4.sem, (default : HIx 1)) (insert (SemLoc.dma cc0_scratch3.sem, (default : HIx 1)) W))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp
  iexact HO

theorem tile_body (O : CellTallies nD τ sig (HIx 1)) (W : Waits sig (HIx 1)) (hO : ∀ g, O g none = 0) :
    iprop(levAts (K (F := F)).L (K (F := F)).lev ∗ emp ∗ (rkTok m d (jL L) ∗ suTok m d (jL L) ∗ outRows d (jL L) (m (cfLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_build L rkV (Memref.isWhole_whole _) suV (Memref.isWhole_whole _) cfV (Memref.isWhole_whole _)
            sR (Memref.isWhole_whole _) sS (Memref.isWhole_whole _) sO (Memref.isWhole_whole _) cc0_scratch3 cc0_scratch4 cc0_scoped0)
          fun _ => iprop((rkTok m d (jL L) ∗ suTok m d (jL L) ∗ outRows d (jL L) (cfOf m d)) ∗ scopedBufs (V d (cV L) (jV L)) ∗ scopedSems0 (V d (cV L) (jV L))
            ∗ ∃ W', ⌜∀ p ∈ W', p ∈ W ∨ p.2 = none⌝ ∗ owes (V d (cV L) (jV L)) O W') := by
  by_cases h1 : k0_cond1 L = 1#1
  · exact tile_taken m d L h1 O W hO
  · exact tile_skip m d L h1 O W

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_build (coordsV c s)
          rkV (Memref.isWhole_whole _) suV (Memref.isWhole_whole _) cfV (Memref.isWhole_whole _)
          sR (Memref.isWhole_whole _) sS (Memref.isWhole_whole _) sO (Memref.isWhole_whole _) cc0_scratch3 cc0_scratch4 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  -- the task owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) O W hO).trans (wp_mono frame _ _ fun _ => obl_post)

end Cert.Kernel.Hand

end
-- ==== Proof.KIPool.lean ====
/-
  The pooling region of the kernel's run: what the TensorCore kernel leaves in its output block from its two input
  blocks, the staging pipeline's proof data on each core, the body's triple at every grid point, the region as a
  segment of the program's run, and the whole pooled array as one function of the hand weights and the card-feature
  table.

  The kernel pools a block of 8192 hands at a time: for hand `b` and feature `e`, the weighted sum over the 52 cards of
  the card's feature, divided by the larger of the hand's total weight and one. The grid has two points; the hand
  weights and the result move block by block, the card-feature table is fetched once and stays.
-/
import proofs.«203989_g3255585211076_cont_8to1_b_774_30_alg».proof.Proof.KISetup
import Idealize.ShloMosaic.Lib.Pipeline.FrameBody
import Idealize.ShloMosaic.Lib.Pipeline.Value
import Idealize.ShloMosaic.Lib.Ring
import Idealize.ShloMosaic.Lib.ValueIdx
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig (HIx 1) (Elt F) ℕ UU ℕ

variable (m : (ℓ : Loc nD τ sig) → Buf (Elt F) ℓ)

/-! ## What the body leaves in the output block -/

/-- The body's accesses: each block whole, as a rectangle of itself. -/
abbrev rH : Rect S8192x52 := Rect.unit (s := S8192x52) ![0, 0] S8192x52.size inb_S8192x52_S8192x52_0_0
abbrev rCf : Rect S52x128 := Rect.unit (s := S52x128) ![0, 0] S52x128.size inb_S52x128_S52x128_0_0
abbrev rOut : Rect S8192x128 := Rect.unit (s := S8192x128) ![0, 0] S8192x128.size inb_S8192x128_S8192x128_0_0

theorem hz2 : (![0, 0] : Fin 2 → Nat) = fun _ => 0 := funext fun a => by fin_cases a <;> rfl

/-- The output block after the body, from the two input blocks: its one store, of the pooled block of the two
    loads. -/
def poolOut (x0 : Vec F S8192x52 .f32) (x1 : Vec F S52x128 .f32) : Vec F S8192x128 .f32 :=
  View.canon [⟨rOut, k1_pay1 (View.ld x0 rH) (View.ld x1 rCf)⟩]

/-! ## The body's triple -/

set_option maxHeartbeats 1000000 in
/-- The kernel body on whole staging memrefs, the two inputs' at read contents `x0`, `x1` and the output's at anything,
    runs to the continuation holding the inputs' as they were and the output's at `poolOut x0 x1`. -/
theorem sound_kernel (d : Dev nD) (E : Set ℕ) (i : grid1.Coords) (arg1 : Memref sig .tc .vmem S8192x52 .f32) (harg1 : arg1.IsWhole)
    (arg2 : Memref sig .tc .vmem S52x128 .f32) (harg2 : arg2.IsWhole) (arg3 : Memref sig .tc .vmem S8192x128 .f32) (harg3 : arg3.IsWhole)
    (x0 : Vec F S8192x52 .f32) (x1 : Vec F S52x128 .f32) (Kk : PUnit → sProp 𝕄) :
    iprop(owns (d : Thread nD τ) arg1 fullShare x0 ∗ owns (d : Thread nD τ) arg2 fullShare x1 ∗ (∃ y, owns (d : Thread nD τ) arg3 fullShare y)
        ∗ (iprop(owns (d : Thread nD τ) arg1 fullShare x0 ∗ owns (d : Thread nD τ) arg2 fullShare x1 ∗ owns (d : Thread nD τ) arg3 fullShare (poolOut x0 x1)) -∗ Kk ⟨⟩))
      ⊢ wp frame (wpE (defs₀ (F := F)) Variants.none (d : Thread nD τ) none) E (cc1__pool_body i arg1 harg1 arg2 harg2 arg3 harg3) Kk := by
  simp only [cc1__pool_body_eq_skeleton]; unfold cc1__pool_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (fun y => ⟨_, List.mem_singleton_self _, View.mem_set_unit_zero hz2 inb_S8192x128_S8192x128_0_0 y⟩)

/-! ## The pipeline's proof data -/

/-- The windows' arrays as the region finds them: the hand weights as launched, the card-feature table the
    vector-subcore call left, the result array as launched. -/
def arrIn (d : Dev nD) : (w : Fin cfg1.W) → Buf (Elt F) ((cfg1.win w).arr.view.loc (d : Thread nD τ))
  | ⟨0, _⟩ => m (hLoc d)
  | ⟨1, _⟩ => cfOf m d
  | ⟨2, _⟩ => m (outLoc d)

theorem arrIn_h (d : Dev nD) : arrIn m d 0 = m (hLoc d) := rfl
theorem arrIn_cf (d : Dev nD) : arrIn m d 1 = cfOf m d := rfl
theorem arrIn_out (d : Dev nD) : arrIn m d 2 = m (outLoc d) := rfl

/-- Window `w`'s block at point `t`, read off its array as the region finds it. -/
def iblk (d : Dev nD) (w : Fin cfg1.W) (t : Fin cfg1.N) : ((cfg1.win w).xblock (cfg1.grid.coords t)).Idx → Elt F (cfg1.win w).elt :=
  ((cfg1.win w).blk t).view.read (Elt F) (arrIn m d w)

/-- The proof data of the staging pipeline on core `d`: the arrays as the region finds them; after the body at point
    `t` each input's buffer at its block and the output's at the pooled block of the two; no invariant of its own;
    nothing owed; full shares; the waits recorded before the region and through it stay at the levels of the launch
    protocol's first eight. -/
def dat1 (d : Dev nD) : Dat τ (Elt F) (HIx 1) ℕ UU ℕ cfg1 d where
  A w := arrIn m d w
  after w t := match w with
    | ⟨0, _⟩ => iblk m d 0 t
    | ⟨1, _⟩ => iblk m d 1 t
    | ⟨2, _⟩ => poolOut (iblk m d 0 t) (iblk m d 1 t)
  Φ _ := iprop(emp)
  q _ := fullShare
  owed _ := 0
  recorded _ := {p | (K (F := F)).lev (SparseCore.T d, p.1) p.2 ≤ 8}

def pdats : (p : Fin 1) → (d : Dev nD) → Dat τ (Elt F) (HIx 1) ℕ UU ℕ (Pipeline.pin (pcfgs (F := F)) adm p) d
  | 0 => dat1 m

theorem A_eq (d : Dev nD) (w : Fin cfg1.W) : (dat1 m d).A w = arrIn m d w := by dsimp only [dat1]

theorem after1_0 (d : Dev nD) (t : Fin cfg1.N) : (dat1 m d).after 0 t = iblk m d 0 t := by dsimp only [dat1]
theorem after1_1 (d : Dev nD) (t : Fin cfg1.N) : (dat1 m d).after 1 t = iblk m d 1 t := by dsimp only [dat1]
theorem after1_2 (d : Dev nD) (t : Fin cfg1.N) : (dat1 m d).after 2 t = poolOut (iblk m d 0 t) (iblk m d 1 t) := by dsimp only [dat1]

/-- Each input's current staging buffer holds its block at every point, fetched there or not: unfetched, the block
    index has not moved. -/
theorem before1_0 (d : Dev nD) (t : Fin cfg1.N) (y) : (dat1 m d).before 0 t y = iblk m d 0 t :=
  ((dat1 m d).before_in_eq_fetched 0 rfl (fun _ => rfl) (fun _ _ _ => rfl) (fun t => by rw [after1_0]; unfold Dat.blockOf iblk; rw [A_eq]; try rfl) t y).trans
    (by unfold Dat.fetched Dat.blockOf iblk; rw [A_eq]; try rfl)
theorem before1_1 (d : Dev nD) (t : Fin cfg1.N) (y) : (dat1 m d).before 1 t y = iblk m d 1 t :=
  ((dat1 m d).before_in_eq_fetched 1 rfl (fun _ => rfl) (fun _ _ _ => rfl) (fun t => by rw [after1_1]; unfold Dat.blockOf iblk; rw [A_eq]; try rfl) t y).trans
    (by unfold Dat.fetched Dat.blockOf iblk; rw [A_eq]; try rfl)

/-! ## The body obligation, at a generic point -/

/-- What the body is called with at point `t`, the windows one by one, -/
def bodyPre (d : Dev nD) (t : Fin cfg1.N) : sProp 𝕄 :=
  iprop((dat1 m d).Φ t.castSucc ∗ (dat1 m d).owesAt (none : HIx 1) t.castSucc
    ∗ (∃ y, owns (d : Thread nD τ) (st1_0 t) fullShare ((dat1 m d).before 0 t y))
    ∗ (∃ y, owns (d : Thread nD τ) (st1_1 t) fullShare ((dat1 m d).before 1 t y))
    ∗ (∃ y, owns (d : Thread nD τ) (st1_2 t) fullShare ((dat1 m d).before 2 t y)))

/-- and what it returns. -/
def bodyPost (d : Dev nD) (t : Fin cfg1.N) : sProp 𝕄 :=
  iprop((dat1 m d).Φ t.succ ∗ (dat1 m d).owesAt (none : HIx 1) t.succ
    ∗ owns (d : Thread nD τ) (st1_0 t) fullShare ((dat1 m d).after 0 t)
    ∗ owns (d : Thread nD τ) (st1_1 t) fullShare ((dat1 m d).after 1 t)
    ∗ owns (d : Thread nD τ) (st1_2 t) fullShare ((dat1 m d).after 2 t))

/-- The body at any point: the inputs' memrefs hold their blocks, so the body's triple applies; the core's `owes`
    passes through unread. -/
theorem sound_body (d : Dev nD) (t : Fin cfg1.N) :
    bodyPre m d t ⊢ wp frame (wpE (defs₀ (F := F)) Variants.none (d : Thread nD τ) none) Set.univ (bodyAt1 t) (fun _ => bodyPost m d t) := by
  unfold bodyPre bodyPost bodyAt1
  simp only [before1_0, before1_1]
  rw [show (dat1 m d).Φ t.succ = (dat1 m d).Φ t.castSucc from rfl,
    show (dat1 m d).owesAt (none : HIx 1) t.succ = (dat1 m d).owesAt (none : HIx 1) t.castSucc from rfl,
    after1_0, after1_1, after1_2]
  iintro ⟨HΦ, Ho, ⟨%y0, H0⟩, ⟨%y1, H1⟩, ⟨%y2, H2⟩⟩
  iapply (sound_kernel d Set.univ (grid1.coords t) _ _ _ _ _ _ (iblk m d 0 t) (iblk m d 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (d : Dev nD) : BodyObligation (dat1 (F := F) m d) (defs₀ (F := F)) 𝒱₀ (none : HIx 1) Set.univ := fun t => by
  rw [bigSep_W1, bigSep_W1]
  exact sound_body m d t

/-! ## The whole result array as one function -/

/-- The pooled array, from the hand weights and the card-feature table: hand `r` lies in the block of 8192 hands
    number `r / 8192`, at row `r % 8192` of it, and its pooled row is that row of the body's output block on that
    block of hands and the whole table. -/
def poolG (hand : Vec F S16384x52 .f32) (cf : Vec F S52x128 .f32) : Vec F S16384x128 .f32 := fun i =>
  poolOut (fun j => hand (ix2 (⟨8192 * ((i 0).val / 8192) + (j 0).val, by
      have h0 : (i 0).val < 16384 := (i 0).isLt; have h1 : (j 0).val < 8192 := (j 0).isLt; omega⟩ : Fin 16384) (⟨(j 1).val, (j 1).isLt⟩ : Fin 52))) cf
    (ix2 (⟨(i 0).val % 8192, Nat.mod_lt _ (by decide)⟩ : Fin 8192) (⟨(i 1).val, (i 1).isLt⟩ : Fin 128))

/-- The printed index maps, decided over the two grid points: the hand weights' block moves with the result's along
    the rows and neither moves along the columns; the card-feature table's block never moves; the result's block
    number is the point's. -/
theorem idx_facts : ∀ t : Fin cfg1.N, win1_0.index t (0 : Fin 2) = win1_2.index t (0 : Fin 2)
    ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The pooled array on block `q` of the hands: at the array index whose row is row `j 0` of block `q`, it is the body's
    output block on that block of hands and the table, at `j`. -/
theorem poolG_blk (hand : Vec F S16384x52 .f32) (cf : Vec F S52x128 .f32) (q : ℕ) (hq : q < 2) (j : S8192x128.Idx) (i : S16384x128.Idx)
    (h0 : (i 0).val = q * 8192 + (j 0).val) (h1 : (i 1).val = (j 1).val) :
    poolG hand cf i = poolOut (fun j' => hand (ix2 (⟨q * 8192 + (j' 0).val, by
      have h1 : (j' 0).val < 8192 := (j' 0).isLt; omega⟩ : Fin 16384) (⟨(j' 1).val, (j' 1).isLt⟩ : Fin 52))) cf j := by
  have hj0 : (j 0).val < 8192 := (j 0).isLt
  unfold poolG
  refine congrArg₂ (fun a b => poolOut a cf b) ?_ ?_
  · funext j'
    refine congrArg hand ?_
    funext a
    match a with
    | ⟨0, _⟩ => exact Fin.ext (by show 8192 * ((i 0).val / 8192) + (j' 0).val = q * 8192 + (j' 0).val; omega)
    | ⟨1, _⟩ => rfl
  · funext a
    match a with
    | ⟨0, _⟩ => exact Fin.ext (by show (i 0).val % 8192 = (j 0).val; omega)
    | ⟨1, _⟩ => exact Fin.ext (by show (i 1).val = (j 1).val; exact h1)

/-- WHAT POINT `t` WRITES BACK is block `t` of the pooled array of the hand weights and the card-feature table as the
    region finds them. -/
theorem flushed_eq (d : Dev nD) (t : Fin cfg1.N) :
    (dat1 m d).flushed 2 t = ((cfg1.win 2).blk t).view.read (Elt F) (poolG (m (hLoc d)) (cfOf m d)) := by
  show (cfg1.win 2).cut (grid1.coords t) ((dat1 m d).after 2 t) = _
  rw [after1_2]
  obtain ⟨e0, e1, e2, e3, e4, e5⟩ := idx_facts t
  have hN : cfg1.N = 2 := N_1
  have ht : t.val < 2 := lt_of_lt_of_eq t.isLt hN
  funext j
  rw [View.read_apply, cast_eq]
  show poolOut (iblk m d 0 t) (iblk m d 1 t) j = _
  rw [poolG_blk (m (hLoc d)) (cfOf m d) (win1_2.index t (0 : Fin 2)) (by omega) j (((cfg1.win 2).blk t).view.emb j)
    (by show win1_2.index t (0 : Fin 2) * 8192 + 1 * (j 0).val = _; omega)
    (by show win1_2.index t (1 : Fin 2) * 128 + 1 * (j 1).val = _; omega)]
  refine congrArg₂ (fun a b => poolOut a b j) ?_ ?_
  · funext j'
    unfold iblk
    rw [View.read_apply, cast_eq]
    show m (hLoc d) (((cfg1.win 0).blk t).view.emb j') = _
    refine congrArg (m (hLoc d)) ?_
    funext a
    match a with
    | ⟨0, _⟩ => exact Fin.ext (by show win1_0.index t (0 : Fin 2) * 8192 + 1 * (j' 0).val = win1_2.index t (0 : Fin 2) * 8192 + (j' 0).val; omega)
    | ⟨1, _⟩ => exact Fin.ext (by show win1_0.index t (1 : Fin 2) * 52 + 1 * (j' 1).val = (j' 1).val; omega)
  · funext j'
    unfold iblk
    rw [View.read_apply, cast_eq]
    show cfOf m d (((cfg1.win 1).blk t).view.emb j') = _
    refine congrArg (cfOf m d) ?_
    funext a
    match a with
    | ⟨0, _⟩ => exact Fin.ext (by show win1_1.index t (0 : Fin 2) * 52 + 1 * (j' 0).val = (j' 0).val; omega)
    | ⟨1, _⟩ => exact Fin.ext (by show win1_1.index t (1 : Fin 2) * 128 + 1 * (j' 1).val = (j' 1).val; omega)

/-- An index of the result array is in point `t`'s block iff each coordinate is in the block's range on its axis. -/
theorem mem_blk (t : Fin cfg1.N) (i : S16384x128.Idx) :
    i ∈ ((cfg1.win 2).blk t).view.set ↔ ∀ a : Fin 2, win1_2.index t a * S8192x128.size a ≤ (i a).val ∧ (i a).val < win1_2.index t a * S8192x128.size a + S8192x128.size a := by
  show i ∈ ((View.whole main_v1).slice (win1_2.rect t)).set ↔ _
  rw [View.set_slice_whole, Rect.mem_set_unit]
  exact Iff.rfl

/-- Every index of the result array is in some point's block: row `r` is in the block of point `r / 8192`. -/
theorem covered (i : S16384x128.Idx) : ∃ t : Fin cfg1.N, (cfg1.win 2).flush t = true ∧ i ∈ ((cfg1.win 2).blk t).view.set := by
  have hi0 : (i 0).val < 16384 := (i 0).isLt
  have hi1 : (i 1).val < 128 := (i 1).isLt
  have hN : cfg1.N = 2 := N_1
  let t : Fin cfg1.N := ⟨(i 0).val / 8192, by rw [hN]; omega⟩
  obtain ⟨e0, e1, e2, e3, e4, e5⟩ := idx_facts t
  have e4' : win1_2.index t (0 : Fin 2) = (i 0).val / 8192 := e4
  refine ⟨t, flush1_2 t, ?_⟩
  rw [mem_blk]
  intro a
  match a with
  | ⟨0, _⟩ => show win1_2.index t (0 : Fin 2) * 8192 ≤ (i 0).val ∧ (i 0).val < win1_2.index t (0 : Fin 2) * 8192 + 8192; omega
  | ⟨1, _⟩ => show win1_2.index t (1 : Fin 2) * 128 ≤ (i 1).val ∧ (i 1).val < win1_2.index t (1 : Fin 2) * 128 + 128; omega

/-- THE RESULT ARRAY after the region: the pooled array of the hand weights and the card-feature table. -/
theorem arrAt_out (d : Dev nD) : (dat1 m d).arrAt 2 cfg1.N = poolG (m (hLoc d)) (cfOf m d) :=
  (dat1 m d).arrAt_eq_of_cover 2 (poolG (m (hLoc d)) (cfOf m d)) (fun t _ => flushed_eq m d t) covered

/-- The inputs' arrays reach the region's exit as it found them: an input is never written back. -/
theorem arrAt_h (d : Dev nD) : (dat1 m d).arrAt 0 cfg1.N = m (hLoc d) := (dat1 m d).arrAt_in 0 rfl _
theorem arrAt_cf (d : Dev nD) : (dat1 m d).arrAt 1 cfg1.N = cfOf m d := (dat1 m d).arrAt_in 1 rfl _

/-! ## The region -/

/-- The region's arrays at contents `Fa` are the hand weights, the card-feature table and the result held whole. -/
theorem arrays_eq (d : Dev nD) (Fa) : ((pdats (F := F) m 0 d).arrays Fa : sProp 𝕄)
    = iprop((hLoc d ↦{fullShare} Fa 0) ∗ (cfLoc d ↦{fullShare} Fa 1) ∗ (outLoc d ↦{fullShare} Fa 2)) := by
  rw [Pipeline.arrays_eq (Pipeline.pin (pcfgs (F := F)) adm) (pdats m) 0 d launch1.arr_whole ((pdats m 0 d).share_full fun _ => rfl) Fa, bigSep_W1]

/-- THE POOLING REGION as a segment of the program's run: the three arrays into the pipeline, the rank and suit
    tables bypassing; the core owes nothing throughout, and the waits it has recorded stay below the launch
    protocol's level bound (a staging wait is recorded at the level-0 index). -/
def poolReg : Pipeline.RegionSeg (pcfgs (F := F)) adm (pdats m) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody d := (body_obligation m d).loose
  hwaits d := Pipeline.hwaits_of_owed_zero (pcfgs (F := F)) adm (pdats m) (none : HIx 1) (K (F := F)).L (K (F := F)).lev 0 (fun _ _ => rfl) d
  pre d := iprop(hPts m d ∗ cfPts d (cfOf m d) ∗ outPts d (m (outLoc d)) ∗ (rkPts m d ∗ suPts m d)
    ∗ ∃ W, ⌜(K (F := F)).WBelow (SparseCore.T d) W 8⌝ ∗ owes (SparseCore.T d) (0 : CellTallies nD τ sig (HIx 1)) W)
  post d := iprop(hPts m d ∗ cfPts d (cfOf m d) ∗ outPts d (poolG (m (hLoc d)) (cfOf m d)) ∗ (rkPts m d ∗ suPts m d)
    ∗ ∃ W, ⌜(K (F := F)).WBelow (SparseCore.T d) W 8⌝ ∗ owes (SparseCore.T d) (0 : CellTallies nD τ sig (HIx 1)) W)
  X _ := iprop(emp)
  Y _ := iprop(emp)
  Z d := iprop(rkPts m d ∗ suPts m d)
  hentry d := by
    rw [Pipeline.ownSems0_none, arrays_eq]
    iintro ⟨⟨Hh, Hcf, Hout, Hz, %W, %hW, HO⟩, -, -⟩
    imodintro
    isplitl [Hh Hcf Hout]
    · isplitl [Hh]; · iexact Hh
      isplitl [Hcf]; · iexact Hcf
      iexact Hout
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hz
  hin d := by iintro -; iempintro
  hout d := by
    rw [Pipeline.ownSems0_none, scopedRest1_eq]
    iintro -; isplitr; · iempintro
    isplitr <;> iempintro
  hexit d := by
    rw [arrays_eq]
    rw [show (pdats (F := F) m 0 d).arrAt 0 (Pipeline.pin (pcfgs (F := F)) adm 0).N = m (hLoc d) from arrAt_h m d,
      show (pdats (F := F) m 0 d).arrAt 1 (Pipeline.pin (pcfgs (F := F)) adm 0).N = cfOf m d from arrAt_cf m d,
      show (pdats (F := F) m 0 d).arrAt 2 (Pipeline.pin (pcfgs (F := F)) adm 0).N = poolG (m (hLoc d)) (cfOf m d) from arrAt_out m d]
    iintro ⟨⟨Hh, Hcf, Hout⟩, HO, -, Hz⟩
    imodintro
    isplitl [Hh]; · iexact Hh
    isplitl [Hcf]; · iexact Hcf
    isplitl [Hout]; · iexact Hout
    isplitl [Hz]; · iexact Hz
    unfold Pipeline.Dat.owesAt Pipeline.owesWithin
    icases HO with ⟨%W, %hW, HO⟩
    iexists W; isplitr; swap; · iexact HO
    ipureintro
    intro p hp
    rcases hW hp with h | ⟨w, s, rfl⟩
    · exact h
    · exact Nat.zero_le _

end Cert.KernelIdeal.Hand

end
-- ==== Proof.KBPool.lean ====
/-
  The pooling region of the kernel's run: what the TensorCore kernel leaves in its output block from its two input
  blocks, the staging pipeline's proof data on each core, the body's triple at every grid point, the region as a
  segment of the program's run, and the whole pooled array as one function of the hand weights and the card-feature
  table.

  The kernel pools a block of 8192 hands at a time: for hand `b` and feature `e`, the weighted sum over the 52 cards of
  the card's feature, divided by the larger of the hand's total weight and one. The grid has two points; the hand
  weights and the result move block by block, the card-feature table is fetched once and stays.
-/
import proofs.«203989_g3255585211076_cont_8to1_b_774_30_alg».proof.Proof.KBSetup
import Idealize.ShloMosaic.Lib.Pipeline.FrameBody
import Idealize.ShloMosaic.Lib.Pipeline.Value
import Idealize.ShloMosaic.Lib.Ring
import Idealize.ShloMosaic.Lib.ValueIdx
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig (HIx 1) (Elt F) ℕ UU ℕ

variable (m : (ℓ : Loc nD τ sig) → Buf (Elt F) ℓ)

/-! ## What the body leaves in the output block -/

/-- The body's accesses: each block whole, as a rectangle of itself. -/
abbrev rH : Rect S8192x52 := Rect.unit (s := S8192x52) ![0, 0] S8192x52.size inb_S8192x52_S8192x52_0_0
abbrev rCf : Rect S52x128 := Rect.unit (s := S52x128) ![0, 0] S52x128.size inb_S52x128_S52x128_0_0
abbrev rOut : Rect S8192x128 := Rect.unit (s := S8192x128) ![0, 0] S8192x128.size inb_S8192x128_S8192x128_0_0

theorem hz2 : (![0, 0] : Fin 2 → Nat) = fun _ => 0 := funext fun a => by fin_cases a <;> rfl

/-- The output block after the body, from the two input blocks: its one store, of the pooled block of the two
    loads. -/
def poolOut (x0 : Vec F S8192x52 .f32) (x1 : Vec F S52x128 .f32) : Vec F S8192x128 .f32 :=
  View.canon [⟨rOut, k1_pay1 (View.ld x0 rH) (View.ld x1 rCf)⟩]

/-! ## The body's triple -/

set_option maxHeartbeats 1000000 in
/-- The kernel body on whole staging memrefs, the two inputs' at read contents `x0`, `x1` and the output's at anything,
    runs to the continuation holding the inputs' as they were and the output's at `poolOut x0 x1`. -/
theorem sound_kernel (d : Dev nD) (E : Set ℕ) (i : grid1.Coords) (arg1 : Memref sig .tc .vmem S8192x52 .f32) (harg1 : arg1.IsWhole)
    (arg2 : Memref sig .tc .vmem S52x128 .f32) (harg2 : arg2.IsWhole) (arg3 : Memref sig .tc .vmem S8192x128 .f32) (harg3 : arg3.IsWhole)
    (x0 : Vec F S8192x52 .f32) (x1 : Vec F S52x128 .f32) (Kk : PUnit → sProp 𝕄) :
    iprop(owns (d : Thread nD τ) arg1 fullShare x0 ∗ owns (d : Thread nD τ) arg2 fullShare x1 ∗ (∃ y, owns (d : Thread nD τ) arg3 fullShare y)
        ∗ (iprop(owns (d : Thread nD τ) arg1 fullShare x0 ∗ owns (d : Thread nD τ) arg2 fullShare x1 ∗ owns (d : Thread nD τ) arg3 fullShare (poolOut x0 x1)) -∗ Kk ⟨⟩))
      ⊢ wp frame (wpE (defs₀ (F := F)) Variants.none (d : Thread nD τ) none) E (cc1__pool_body i arg1 harg1 arg2 harg2 arg3 harg3) Kk := by
  simp only [cc1__pool_body_eq_skeleton]; unfold cc1__pool_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (fun y => ⟨_, List.mem_singleton_self _, View.mem_set_unit_zero hz2 inb_S8192x128_S8192x128_0_0 y⟩)

/-! ## The pipeline's proof data -/

/-- The windows' arrays as the region finds them: the hand weights as launched, the card-feature table the
    vector-subcore call left, the result array as launched. -/
def arrIn (d : Dev nD) : (w : Fin cfg1.W) → Buf (Elt F) ((cfg1.win w).arr.view.loc (d : Thread nD τ))
  | ⟨0, _⟩ => m (hLoc d)
  | ⟨1, _⟩ => cfOf m d
  | ⟨2, _⟩ => m (outLoc d)

theorem arrIn_h (d : Dev nD) : arrIn m d 0 = m (hLoc d) := rfl
theorem arrIn_cf (d : Dev nD) : arrIn m d 1 = cfOf m d := rfl
theorem arrIn_out (d : Dev nD) : arrIn m d 2 = m (outLoc d) := rfl

/-- Window `w`'s block at point `t`, read off its array as the region finds it. -/
def iblk (d : Dev nD) (w : Fin cfg1.W) (t : Fin cfg1.N) : ((cfg1.win w).xblock (cfg1.grid.coords t)).Idx → Elt F (cfg1.win w).elt :=
  ((cfg1.win w).blk t).view.read (Elt F) (arrIn m d w)

/-- The proof data of the staging pipeline on core `d`: the arrays as the region finds them; after the body at point
    `t` each input's buffer at its block and the output's at the pooled block of the two; no invariant of its own;
    nothing owed; full shares; the waits recorded before the region and through it stay at the levels of the launch
    protocol's first eight. -/
def dat1 (d : Dev nD) : Dat τ (Elt F) (HIx 1) ℕ UU ℕ cfg1 d where
  A w := arrIn m d w
  after w t := match w with
    | ⟨0, _⟩ => iblk m d 0 t
    | ⟨1, _⟩ => iblk m d 1 t
    | ⟨2, _⟩ => poolOut (iblk m d 0 t) (iblk m d 1 t)
  Φ _ := iprop(emp)
  q _ := fullShare
  owed _ := 0
  recorded _ := {p | (K (F := F)).lev (SparseCore.T d, p.1) p.2 ≤ 8}

def pdats : (p : Fin 1) → (d : Dev nD) → Dat τ (Elt F) (HIx 1) ℕ UU ℕ (Pipeline.pin (pcfgs (F := F)) adm p) d
  | 0 => dat1 m

theorem A_eq (d : Dev nD) (w : Fin cfg1.W) : (dat1 m d).A w = arrIn m d w := by dsimp only [dat1]

theorem after1_0 (d : Dev nD) (t : Fin cfg1.N) : (dat1 m d).after 0 t = iblk m d 0 t := by dsimp only [dat1]
theorem after1_1 (d : Dev nD) (t : Fin cfg1.N) : (dat1 m d).after 1 t = iblk m d 1 t := by dsimp only [dat1]
theorem after1_2 (d : Dev nD) (t : Fin cfg1.N) : (dat1 m d).after 2 t = poolOut (iblk m d 0 t) (iblk m d 1 t) := by dsimp only [dat1]

/-- Each input's current staging buffer holds its block at every point, fetched there or not: unfetched, the block
    index has not moved. -/
theorem before1_0 (d : Dev nD) (t : Fin cfg1.N) (y) : (dat1 m d).before 0 t y = iblk m d 0 t :=
  ((dat1 m d).before_in_eq_fetched 0 rfl (fun _ => rfl) (fun _ _ _ => rfl) (fun t => by rw [after1_0]; unfold Dat.blockOf iblk; rw [A_eq]; try rfl) t y).trans
    (by unfold Dat.fetched Dat.blockOf iblk; rw [A_eq]; try rfl)
theorem before1_1 (d : Dev nD) (t : Fin cfg1.N) (y) : (dat1 m d).before 1 t y = iblk m d 1 t :=
  ((dat1 m d).before_in_eq_fetched 1 rfl (fun _ => rfl) (fun _ _ _ => rfl) (fun t => by rw [after1_1]; unfold Dat.blockOf iblk; rw [A_eq]; try rfl) t y).trans
    (by unfold Dat.fetched Dat.blockOf iblk; rw [A_eq]; try rfl)

/-! ## The body obligation, at a generic point -/

/-- What the body is called with at point `t`, the windows one by one, -/
def bodyPre (d : Dev nD) (t : Fin cfg1.N) : sProp 𝕄 :=
  iprop((dat1 m d).Φ t.castSucc ∗ (dat1 m d).owesAt (none : HIx 1) t.castSucc
    ∗ (∃ y, owns (d : Thread nD τ) (st1_0 t) fullShare ((dat1 m d).before 0 t y))
    ∗ (∃ y, owns (d : Thread nD τ) (st1_1 t) fullShare ((dat1 m d).before 1 t y))
    ∗ (∃ y, owns (d : Thread nD τ) (st1_2 t) fullShare ((dat1 m d).before 2 t y)))

/-- and what it returns. -/
def bodyPost (d : Dev nD) (t : Fin cfg1.N) : sProp 𝕄 :=
  iprop((dat1 m d).Φ t.succ ∗ (dat1 m d).owesAt (none : HIx 1) t.succ
    ∗ owns (d : Thread nD τ) (st1_0 t) fullShare ((dat1 m d).after 0 t)
    ∗ owns (d : Thread nD τ) (st1_1 t) fullShare ((dat1 m d).after 1 t)
    ∗ owns (d : Thread nD τ) (st1_2 t) fullShare ((dat1 m d).after 2 t))

/-- The body at any point: the inputs' memrefs hold their blocks, so the body's triple applies; the core's `owes`
    passes through unread. -/
theorem sound_body (d : Dev nD) (t : Fin cfg1.N) :
    bodyPre m d t ⊢ wp frame (wpE (defs₀ (F := F)) Variants.none (d : Thread nD τ) none) Set.univ (bodyAt1 t) (fun _ => bodyPost m d t) := by
  unfold bodyPre bodyPost bodyAt1
  simp only [before1_0, before1_1]
  rw [show (dat1 m d).Φ t.succ = (dat1 m d).Φ t.castSucc from rfl,
    show (dat1 m d).owesAt (none : HIx 1) t.succ = (dat1 m d).owesAt (none : HIx 1) t.castSucc from rfl,
    after1_0, after1_1, after1_2]
  iintro ⟨HΦ, Ho, ⟨%y0, H0⟩, ⟨%y1, H1⟩, ⟨%y2, H2⟩⟩
  iapply (sound_kernel d Set.univ (grid1.coords t) _ _ _ _ _ _ (iblk m d 0 t) (iblk m d 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (d : Dev nD) : BodyObligation (dat1 (F := F) m d) (defs₀ (F := F)) 𝒱₀ (none : HIx 1) Set.univ := fun t => by
  rw [bigSep_W1, bigSep_W1]
  exact sound_body m d t

/-! ## The whole result array as one function -/

/-- The pooled array, from the hand weights and the card-feature table: hand `r` lies in the block of 8192 hands
    number `r / 8192`, at row `r % 8192` of it, and its pooled row is that row of the body's output block on that
    block of hands and the whole table. -/
def poolG (hand : Vec F S16384x52 .f32) (cf : Vec F S52x128 .f32) : Vec F S16384x128 .f32 := fun i =>
  poolOut (fun j => hand (ix2 (⟨8192 * ((i 0).val / 8192) + (j 0).val, by
      have h0 : (i 0).val < 16384 := (i 0).isLt; have h1 : (j 0).val < 8192 := (j 0).isLt; omega⟩ : Fin 16384) (⟨(j 1).val, (j 1).isLt⟩ : Fin 52))) cf
    (ix2 (⟨(i 0).val % 8192, Nat.mod_lt _ (by decide)⟩ : Fin 8192) (⟨(i 1).val, (i 1).isLt⟩ : Fin 128))

/-- The printed index maps, decided over the two grid points: the hand weights' block moves with the result's along
    the rows and neither moves along the columns; the card-feature table's block never moves; the result's block
    number is the point's. -/
theorem idx_facts : ∀ t : Fin cfg1.N, win1_0.index t (0 : Fin 2) = win1_2.index t (0 : Fin 2)
    ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The pooled array on block `q` of the hands: at the array index whose row is row `j 0` of block `q`, it is the body's
    output block on that block of hands and the table, at `j`. -/
theorem poolG_blk (hand : Vec F S16384x52 .f32) (cf : Vec F S52x128 .f32) (q : ℕ) (hq : q < 2) (j : S8192x128.Idx) (i : S16384x128.Idx)
    (h0 : (i 0).val = q * 8192 + (j 0).val) (h1 : (i 1).val = (j 1).val) :
    poolG hand cf i = poolOut (fun j' => hand (ix2 (⟨q * 8192 + (j' 0).val, by
      have h1 : (j' 0).val < 8192 := (j' 0).isLt; omega⟩ : Fin 16384) (⟨(j' 1).val, (j' 1).isLt⟩ : Fin 52))) cf j := by
  have hj0 : (j 0).val < 8192 := (j 0).isLt
  unfold poolG
  refine congrArg₂ (fun a b => poolOut a cf b) ?_ ?_
  · funext j'
    refine congrArg hand ?_
    funext a
    match a with
    | ⟨0, _⟩ => exact Fin.ext (by show 8192 * ((i 0).val / 8192) + (j' 0).val = q * 8192 + (j' 0).val; omega)
    | ⟨1, _⟩ => rfl
  · funext a
    match a with
    | ⟨0, _⟩ => exact Fin.ext (by show (i 0).val % 8192 = (j 0).val; omega)
    | ⟨1, _⟩ => exact Fin.ext (by show (i 1).val = (j 1).val; exact h1)

/-- WHAT POINT `t` WRITES BACK is block `t` of the pooled array of the hand weights and the card-feature table as the
    region finds them. -/
theorem flushed_eq (d : Dev nD) (t : Fin cfg1.N) :
    (dat1 m d).flushed 2 t = ((cfg1.win 2).blk t).view.read (Elt F) (poolG (m (hLoc d)) (cfOf m d)) := by
  show (cfg1.win 2).cut (grid1.coords t) ((dat1 m d).after 2 t) = _
  rw [after1_2]
  obtain ⟨e0, e1, e2, e3, e4, e5⟩ := idx_facts t
  have hN : cfg1.N = 2 := N_1
  have ht : t.val < 2 := lt_of_lt_of_eq t.isLt hN
  funext j
  rw [View.read_apply, cast_eq]
  show poolOut (iblk m d 0 t) (iblk m d 1 t) j = _
  rw [poolG_blk (m (hLoc d)) (cfOf m d) (win1_2.index t (0 : Fin 2)) (by omega) j (((cfg1.win 2).blk t).view.emb j)
    (by show win1_2.index t (0 : Fin 2) * 8192 + 1 * (j 0).val = _; omega)
    (by show win1_2.index t (1 : Fin 2) * 128 + 1 * (j 1).val = _; omega)]
  refine congrArg₂ (fun a b => poolOut a b j) ?_ ?_
  · funext j'
    unfold iblk
    rw [View.read_apply, cast_eq]
    show m (hLoc d) (((cfg1.win 0).blk t).view.emb j') = _
    refine congrArg (m (hLoc d)) ?_
    funext a
    match a with
    | ⟨0, _⟩ => exact Fin.ext (by show win1_0.index t (0 : Fin 2) * 8192 + 1 * (j' 0).val = win1_2.index t (0 : Fin 2) * 8192 + (j' 0).val; omega)
    | ⟨1, _⟩ => exact Fin.ext (by show win1_0.index t (1 : Fin 2) * 52 + 1 * (j' 1).val = (j' 1).val; omega)
  · funext j'
    unfold iblk
    rw [View.read_apply, cast_eq]
    show cfOf m d (((cfg1.win 1).blk t).view.emb j') = _
    refine congrArg (cfOf m d) ?_
    funext a
    match a with
    | ⟨0, _⟩ => exact Fin.ext (by show win1_1.index t (0 : Fin 2) * 52 + 1 * (j' 0).val = (j' 0).val; omega)
    | ⟨1, _⟩ => exact Fin.ext (by show win1_1.index t (1 : Fin 2) * 128 + 1 * (j' 1).val = (j' 1).val; omega)

/-- An index of the result array is in point `t`'s block iff each coordinate is in the block's range on its axis. -/
theorem mem_blk (t : Fin cfg1.N) (i : S16384x128.Idx) :
    i ∈ ((cfg1.win 2).blk t).view.set ↔ ∀ a : Fin 2, win1_2.index t a * S8192x128.size a ≤ (i a).val ∧ (i a).val < win1_2.index t a * S8192x128.size a + S8192x128.size a := by
  show i ∈ ((View.whole main_v1).slice (win1_2.rect t)).set ↔ _
  rw [View.set_slice_whole, Rect.mem_set_unit]
  exact Iff.rfl

/-- Every index of the result array is in some point's block: row `r` is in the block of point `r / 8192`. -/
theorem covered (i : S16384x128.Idx) : ∃ t : Fin cfg1.N, (cfg1.win 2).flush t = true ∧ i ∈ ((cfg1.win 2).blk t).view.set := by
  have hi0 : (i 0).val < 16384 := (i 0).isLt
  have hi1 : (i 1).val < 128 := (i 1).isLt
  have hN : cfg1.N = 2 := N_1
  let t : Fin cfg1.N := ⟨(i 0).val / 8192, by rw [hN]; omega⟩
  obtain ⟨e0, e1, e2, e3, e4, e5⟩ := idx_facts t
  have e4' : win1_2.index t (0 : Fin 2) = (i 0).val / 8192 := e4
  refine ⟨t, flush1_2 t, ?_⟩
  rw [mem_blk]
  intro a
  match a with
  | ⟨0, _⟩ => show win1_2.index t (0 : Fin 2) * 8192 ≤ (i 0).val ∧ (i 0).val < win1_2.index t (0 : Fin 2) * 8192 + 8192; omega
  | ⟨1, _⟩ => show win1_2.index t (1 : Fin 2) * 128 ≤ (i 1).val ∧ (i 1).val < win1_2.index t (1 : Fin 2) * 128 + 128; omega

/-- THE RESULT ARRAY after the region: the pooled array of the hand weights and the card-feature table. -/
theorem arrAt_out (d : Dev nD) : (dat1 m d).arrAt 2 cfg1.N = poolG (m (hLoc d)) (cfOf m d) :=
  (dat1 m d).arrAt_eq_of_cover 2 (poolG (m (hLoc d)) (cfOf m d)) (fun t _ => flushed_eq m d t) covered

/-- The inputs' arrays reach the region's exit as it found them: an input is never written back. -/
theorem arrAt_h (d : Dev nD) : (dat1 m d).arrAt 0 cfg1.N = m (hLoc d) := (dat1 m d).arrAt_in 0 rfl _
theorem arrAt_cf (d : Dev nD) : (dat1 m d).arrAt 1 cfg1.N = cfOf m d := (dat1 m d).arrAt_in 1 rfl _

/-! ## The region -/

/-- The region's arrays at contents `Fa` are the hand weights, the card-feature table and the result held whole. -/
theorem arrays_eq (d : Dev nD) (Fa) : ((pdats (F := F) m 0 d).arrays Fa : sProp 𝕄)
    = iprop((hLoc d ↦{fullShare} Fa 0) ∗ (cfLoc d ↦{fullShare} Fa 1) ∗ (outLoc d ↦{fullShare} Fa 2)) := by
  rw [Pipeline.arrays_eq (Pipeline.pin (pcfgs (F := F)) adm) (pdats m) 0 d launch1.arr_whole ((pdats m 0 d).share_full fun _ => rfl) Fa, bigSep_W1]

/-- THE POOLING REGION as a segment of the program's run: the three arrays into the pipeline, the rank and suit
    tables bypassing; the core owes nothing throughout, and the waits it has recorded stay below the launch
    protocol's level bound (a staging wait is recorded at the level-0 index). -/
def poolReg : Pipeline.RegionSeg (pcfgs (F := F)) adm (pdats m) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody d := (body_obligation m d).loose
  hwaits d := Pipeline.hwaits_of_owed_zero (pcfgs (F := F)) adm (pdats m) (none : HIx 1) (K (F := F)).L (K (F := F)).lev 0 (fun _ _ => rfl) d
  pre d := iprop(hPts m d ∗ cfPts d (cfOf m d) ∗ outPts d (m (outLoc d)) ∗ (rkPts m d ∗ suPts m d)
    ∗ ∃ W, ⌜(K (F := F)).WBelow (SparseCore.T d) W 8⌝ ∗ owes (SparseCore.T d) (0 : CellTallies nD τ sig (HIx 1)) W)
  post d := iprop(hPts m d ∗ cfPts d (cfOf m d) ∗ outPts d (poolG (m (hLoc d)) (cfOf m d)) ∗ (rkPts m d ∗ suPts m d)
    ∗ ∃ W, ⌜(K (F := F)).WBelow (SparseCore.T d) W 8⌝ ∗ owes (SparseCore.T d) (0 : CellTallies nD τ sig (HIx 1)) W)
  X _ := iprop(emp)
  Y _ := iprop(emp)
  Z d := iprop(rkPts m d ∗ suPts m d)
  hentry d := by
    rw [Pipeline.ownSems0_none, arrays_eq]
    iintro ⟨⟨Hh, Hcf, Hout, Hz, %W, %hW, HO⟩, -, -⟩
    imodintro
    isplitl [Hh Hcf Hout]
    · isplitl [Hh]; · iexact Hh
      isplitl [Hcf]; · iexact Hcf
      iexact Hout
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hz
  hin d := by iintro -; iempintro
  hout d := by
    rw [Pipeline.ownSems0_none, scopedRest1_eq]
    iintro -; isplitr; · iempintro
    isplitr <;> iempintro
  hexit d := by
    rw [arrays_eq]
    rw [show (pdats (F := F) m 0 d).arrAt 0 (Pipeline.pin (pcfgs (F := F)) adm 0).N = m (hLoc d) from arrAt_h m d,
      show (pdats (F := F) m 0 d).arrAt 1 (Pipeline.pin (pcfgs (F := F)) adm 0).N = cfOf m d from arrAt_cf m d,
      show (pdats (F := F) m 0 d).arrAt 2 (Pipeline.pin (pcfgs (F := F)) adm 0).N = poolG (m (hLoc d)) (cfOf m d) from arrAt_out m d]
    iintro ⟨⟨Hh, Hcf, Hout⟩, HO, -, Hz⟩
    imodintro
    isplitl [Hh]; · iexact Hh
    isplitl [Hcf]; · iexact Hcf
    isplitl [Hout]; · iexact Hout
    isplitl [Hz]; · iexact Hz
    unfold Pipeline.Dat.owesAt Pipeline.owesWithin
    icases HO with ⟨%W, %hW, HO⟩
    iexists W; isplitr; swap; · iexact HO
    ipureintro
    intro p hp
    rcases hW hp with h | ⟨w, s, rfl⟩
    · exact h
    · exact Nat.zero_le _

end Cert.Kernel.Hand

end
-- ==== Proof.PoolValue.lean ====
/-
  The two value facts the run's result is read through at the extended reals: the card-feature table the
  vector-subcore call builds is the specification's table, and the pooling call's block, entry by entry, is the
  specification's quotient — the hand's weighted sum of card features over the larger of its total weight and one.
-/
import proofs.«203989_g3255585211076_cont_8to1_b_774_30_alg».proof.Proof.KISetup
import proofs.«203989_g3255585211076_cont_8to1_b_774_30_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.IdealValue

open Cert.KernelIdeal Cert.KernelIdeal.Gen Cert.KernelIdeal.Hand
open Idealize.ShloMosaic Idealize.ShloMosaic.ValueIdx

/-- The card-feature table as the subcores lay it out is the specification's table: the same two index constructions. -/
theorem cfG_eq (rk : Vec Ideal S13x64 .f32) (su : Vec Ideal S4x64 .f32) : cfG (F := Ideal) rk su = Cert.Spec.cardFeats rk su := by
  funext j
  unfold cfG Cert.Spec.cardFeats Cert.Spec.cardFeat
  by_cases h : (j 1).val < 64
  · rw [dif_pos h, dif_pos h]; congr 1; funext a; match a with | ⟨0, _⟩ => rfl | ⟨1, _⟩ => rfl
  · rw [dif_neg h, dif_neg h]; congr 1; funext a; match a with | ⟨0, _⟩ => rfl | ⟨1, _⟩ => rfl

/-- The pooling product's dimension numbers: rows of hands times the card axis, the card axis times feature columns. -/
abbrev DD : DotDims S8192x52 S52x128 S8192x128 := dot_S8192x52_S52x128_S8192x128_1_0_0_1_n_n

/-- A hand's total weight: the sum over the card axis, read at hand `r`. -/
theorem rowSum_apply (x0 : FVec Ideal S8192x52 .f32) (r : Fin 8192) :
    multiReduction (F := Ideal) .add [1] S8192 x0 0x00000000#32 reduces_S8192x52_S8192 (.inl rfl) rfl (ix1 r) = ∑ k : Fin 52, x0 (ix2 r k) := by
  refine (Ideal.multiReduction_add_single x0 0x00000000#32 reduces_S8192x52_S8192 (.inl rfl) rfl (ix1 r)).trans ?_
  show ∑ k : Fin 52, x0 (reduces_S8192x52_S8192.lift (ix1 r) k) = _
  refine Finset.sum_congr rfl fun k _ => congrArg x0 ?_
  funext c
  match c with
  | ⟨0, _⟩ => exact Fin.ext rfl
  | ⟨1, _⟩ => exact Fin.ext rfl

/-- The product at an entry: the sum over the cards of weight times feature. -/
theorem prod_apply (x0 : FVec Ideal S8192x52 .f32) (x1 : FVec Ideal S52x128 .f32) (r : Fin 8192) (e : Fin 128) :
    FloatOps.matmul DD none x0 x1 (constant (F := Ideal) S8192x128 .f32 0x00000000#32) (ix2 r e) = ∑ k : Fin 52, x0 (ix2 r k) * x1 (ix2 k e) := by
  refine (Ideal.matmul_constant_zero_apply DD none x0 x1 (ix2 r e)).trans ?_
  refine (Equiv.sum_comp (contrEquiv1 DD 52 rfl rfl).symm _).symm.trans ?_
  refine Finset.sum_congr rfl fun k _ => ?_
  have hk : ((((contrEquiv1 DD 52 rfl rfl).symm k) ⟨0, by decide⟩ : Fin _) : ℕ) = k.val := contrEquiv1_symm_val DD 52 rfl rfl k
  congr 1
  · refine congrArg x0 ?_
    funext a
    match a with
    | ⟨0, _⟩ => exact Fin.ext rfl
    | ⟨1, _⟩ => exact Fin.ext ((DotDims.lhsIdx_val_of_single (d := DD) (cl := 1) rfl _ _).trans hk)
  · refine congrArg x1 ?_
    funext a
    match a with
    | ⟨0, _⟩ => exact Fin.ext ((DotDims.rhsIdx_val_of_single (d := DD) (cr := 0) rfl _ _).trans hk)
    | ⟨1, _⟩ => exact Fin.ext rfl

/-- A column of one entry per hand, recast from the vector of hands, reads hand `r` at `(r, 0)`. -/
theorem column_apply (v : FVec Ideal S8192 .f32) (r : Fin 8192) :
    shapeCast S8192x1 v shapeCasts_S8192_S8192x1 (ix2 r (0 : Fin 1)) = v (ix1 r) :=
  shapeCast_apply v shapeCasts_S8192_S8192x1 (ix2 r (0 : Fin 1)) (ix1 r) (by
    rw [Shape.rowMajor_val_one, Shape.rowMajor_val_two]; show r.val = r.val * 1 + 0; omega)

/-- The column laid along every feature reads the hand's entry at every feature. -/
theorem spread_apply (v : FVec Ideal S8192x1 .f32) (r : Fin 8192) (e : Fin 128) :
    broadcastTo S8192x128 v broadcasts_S8192x1_S8192x128 (ix2 r e) = v (ix2 r (0 : Fin 1)) :=
  broadcastTo_apply v broadcasts_S8192x1_S8192x128 (ix2 r e) (ix2 r (0 : Fin 1)) (by
    intro a
    match a with
    | ⟨0, _⟩ => rfl
    | ⟨1, _⟩ => rfl)

/-- The pooling call's block at an entry: the hand's weighted sum of card features over the larger of its total weight
    and one. -/
theorem pay_apply (x0 : Vec Ideal S8192x52 .f32) (x1 : Vec Ideal S52x128 .f32) (r : Fin 8192) (e : Fin 128) :
    k1_pay1 (F := Ideal) x0 x1 (ix2 r e)
      = Ideal.div (∑ k : Fin 52, x0 (ix2 r k) * x1 (ix2 k e)) (max (∑ k : Fin 52, x0 (ix2 r k)) (Ideal.ofBits .f32 0x3F800000#32)) := by
  unfold k1_pay1
  show Ideal.div (FloatOps.matmul DD none x0 (shapeCast S52x128 x1 shapeCasts_S52x128_S52x128) (constant (F := Ideal) S8192x128 .f32 0x00000000#32) (ix2 r e))
      (broadcastTo S8192x128 (maximumf (shapeCast S8192x1 (multiReduction (F := Ideal) .add [1] S8192 x0 0x00000000#32 reduces_S8192x52_S8192 (.inl rfl) rfl) shapeCasts_S8192_S8192x1)
        (broadcast S8192x1 (Scalar.ofBits (F := Ideal) .f32 0x3F800000#32))) broadcasts_S8192x1_S8192x128 (ix2 r e)) = _
  congr 1
  · rw [shapeCast_self]
    exact prod_apply x0 x1 r e
  · refine (spread_apply _ r e).trans ?_
    rw [maximumf_apply, broadcast_apply, column_apply, rowSum_apply]
    rfl

theorem zeros2 : (![0, 0] : Fin 2 → Nat) = fun _ => 0 := funext fun a => by fin_cases a <;> rfl

/-- What the pooling call's one store leaves in the output block (its whole-block payload over the two whole-block
    loads), at an entry: the same quotient. -/
theorem block_apply (x0 : Vec Ideal S8192x52 .f32) (x1 : Vec Ideal S52x128 .f32) (r : Fin 8192) (e : Fin 128) :
    View.canon [(⟨Rect.unit (s := S8192x128) ![0, 0] S8192x128.size inb_S8192x128_S8192x128_0_0,
        k1_pay1 (F := Ideal) (View.ld x0 (Rect.unit (s := S8192x52) ![0, 0] S8192x52.size inb_S8192x52_S8192x52_0_0))
          (View.ld x1 (Rect.unit (s := S52x128) ![0, 0] S52x128.size inb_S52x128_S52x128_0_0))⟩ : View.Piece (Elt Ideal) S8192x128 .f32)] (ix2 r e)
      = Ideal.div (∑ k : Fin 52, x0 (ix2 r k) * x1 (ix2 k e)) (max (∑ k : Fin 52, x0 (ix2 r k)) (Ideal.ofBits .f32 0x3F800000#32)) := by
  rw [View.canon_unit_zero zeros2, View.ld_unit_zero (S := S8192x52) zeros2, View.ld_unit_zero (S := S52x128) zeros2]
  exact pay_apply x0 x1 r e

end Cert.KernelIdeal.IdealValue

end
-- ==== Proof.PoolEq.lean ====
/-
  The pooled array the pooling region leaves, read at the extended reals, is the specification's: hand `b` lies in the
  block of 8192 hands number `b / 8192` at row `b % 8192`, the body's output block at that row is the specification's
  quotient for the block's row, and the block's row is hand `8192 (b / 8192) + b % 8192 = b`.
-/
import proofs.«203989_g3255585211076_cont_8to1_b_774_30_alg».proof.Proof.KIPool
import proofs.«203989_g3255585211076_cont_8to1_b_774_30_alg».proof.Proof.PoolValue

noncomputable section

open scoped BigOperators

namespace Cert.KernelIdeal.IdealValue

open Cert.KernelIdeal Cert.KernelIdeal.Gen Cert.KernelIdeal.Hand
open Idealize.ShloMosaic Idealize.ShloMosaic.ValueIdx

/-- The body's output block at row `r`, column `e`: the row's weighted sum of the table's column over the larger of the
    row's total and one. -/
theorem poolOut_apply (x0 : Vec Ideal S8192x52 .f32) (x1 : Vec Ideal S52x128 .f32) (r : Fin 8192) (e : Fin 128) :
    poolOut (F := Ideal) x0 x1 (ix2 r e)
      = Ideal.div (∑ k : Fin 52, x0 (ix2 r k) * x1 (ix2 k e)) (max (∑ k : Fin 52, x0 (ix2 r k)) (Ideal.ofBits .f32 0x3F800000#32)) := by
  unfold poolOut
  exact block_apply x0 x1 r e

/-- The pooled array is the specification's, index by index. -/
theorem poolG_eq (hand : Vec Ideal S16384x52 .f32) (cf : Vec Ideal S52x128 .f32) :
    poolG (F := Ideal) hand cf = Cert.Spec.pooledOf hand cf := by
  funext i
  obtain ⟨b, e, rfl⟩ : ∃ (b : Fin 16384) (e : Fin 128), i = ix2 b e := ⟨i 0, i 1, eq_ix2 i⟩
  have hb : b.val < 16384 := b.isLt
  have hrow : ∀ k : Fin 52, hand (ix2 (⟨8192 * (b.val / 8192) + b.val % 8192, by omega⟩ : Fin 16384) k) = hand (ix2 b k) := fun k =>
    congrArg hand (by
      funext a
      match a with
      | ⟨0, _⟩ => exact Fin.ext (by show 8192 * (b.val / 8192) + b.val % 8192 = b.val; omega)
      | ⟨1, _⟩ => rfl)
  unfold poolG Cert.Spec.pooledOf Cert.Spec.pooledAt
  refine (poolOut_apply _ cf (⟨b.val % 8192, Nat.mod_lt _ (by decide)⟩ : Fin 8192) (⟨e.val, e.isLt⟩ : Fin 128)).trans ?_
  exact congrArg₂ Ideal.div (Finset.sum_congr rfl fun k _ => congrArg₂ (· * ·) (hrow k) rfl)
    (congrArg₂ max (Finset.sum_congr rfl fun k _ => hrow k) rfl)

end Cert.KernelIdeal.IdealValue

end
-- ==== Proof.RefRun1.lean ====
/-
  The reference program's run, read back.

  The reference's entry function calls five helper functions (floor division, remainder, two table
  look-ups, a clip), two of which call a selection helper in turn. A call executes the callee's body on the
  caller's operands, so the entry function is one straight line of 104 array operations, listed here in
  order with each callee's operations at its call site, over that call's own buffers. Every weakly fair
  execution terminates with the result buffer holding the operations' composed term of the three argument
  arrays, and the arguments unchanged.
-/
import proofs.«203989_g3255585211076_cont_8to1_b_774_30_alg».proof.Proof.Gen.ReferenceIdeal
import Idealize.ShloMosaic.Lib.StableHlo.Run
import Idealize.ShloMosaic.PureOps.Ideal

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

section Line
variable {F : FTy → Type} [FloatOps F]

/-- The entry function's 104 operations in order, each call replaced by its callee's operations over the
    call's buffers. -/
abbrev ops : List (HloOp τ sig (Elt F)) :=
  [ StableHlo.nullary main_v0 (iotaInDim S52 32 0),
    StableHlo.nullary main_c (constantI S_ 32 4#32),
    StableHlo.TRef.unary (.of main_c : StableHlo.TRef sig ⟨S_, .i32⟩) main_call0.v0 id,
    StableHlo.TRef.unary main_call0.v0 main_call0.v1 (broadcastInDim S52 ![] bcast_S_S52),
    StableHlo.TRef.binary (.of main_v0 : StableHlo.TRef sig ⟨S52, .i32⟩) main_call0.v1 main_call0.v2 Host.divsi,
    StableHlo.TRef.unary (.of main_v0 : StableHlo.TRef sig ⟨S52, .i32⟩) main_call0.v3 signi,
    StableHlo.TRef.unary main_call0.v0 main_call0.v4 signi,
    StableHlo.TRef.unary main_call0.v4 main_call0.v5 (broadcastInDim S52 ![] bcast_S_S52),
    StableHlo.TRef.binary main_call0.v3 main_call0.v5 main_call0.v6 (cmpi .ne),
    StableHlo.TRef.unary main_call0.v0 main_call0.v7 (broadcastInDim S52 ![] bcast_S_S52),
    StableHlo.TRef.binary (.of main_v0 : StableHlo.TRef sig ⟨S52, .i32⟩) main_call0.v7 main_call0.v8 Host.remsi,
    StableHlo.TRef.nullary main_call0.c (constantI S_ 32 0#32),
    StableHlo.TRef.unary main_call0.c main_call0.v9 (broadcastInDim S52 ![] bcast_S_S52),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S52 ![] bcast_S_S52),
    StableHlo.TRef.binary main_call0.v2 main_call0.v12 main_call0.v13 subi,
    StableHlo.TRef.ternary main_call0.v11 main_call0.v13 main_call0.v2 main_call0.call0.v0 select,
    StableHlo.nullary main_c_0 (constantI S_ 32 4#32),
    StableHlo.TRef.unary (.of main_c_0 : StableHlo.TRef sig ⟨S_, .i32⟩) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S52 ![] bcast_S_S52),
    StableHlo.TRef.binary (.of main_v0 : StableHlo.TRef sig ⟨S52, .i32⟩) main_call1.v3 main_call1.v4 Host.remsi,
    StableHlo.TRef.nullary main_call1.c_1 (constantI S_ 32 0#32),
    StableHlo.TRef.unary main_call1.c_1 main_call1.v5 (broadcastInDim S52 ![] bcast_S_S52),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S52 ![] bcast_S_S52),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S52 ![] bcast_S_S52),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S52 ![] bcast_S_S52),
    StableHlo.TRef.binary main_call1.v4 main_call1.v13 main_call1.v14 addi,
    StableHlo.TRef.ternary main_call1.v12 main_call1.v14 main_call1.v4 main_call1.v15 select,
    StableHlo.TRef.nullary main_call2.c (constantI S_ 32 0#32),
    StableHlo.TRef.unary main_call2.c main_call2.v0 (broadcastInDim S52 ![] bcast_S_S52),
    StableHlo.TRef.binary (.of main_v1 : StableHlo.TRef sig ⟨S52, .i32⟩) main_call2.v0 main_call2.v1 (cmpi .slt),
    StableHlo.TRef.nullary main_call2.c_0 (constantI S_ 32 13#32),
    StableHlo.TRef.unary main_call2.c_0 main_call2.v2 (broadcastInDim S52 ![] bcast_S_S52),
    StableHlo.TRef.binary (.of main_v1 : StableHlo.TRef sig ⟨S52, .i32⟩) main_call2.v2 main_call2.v3 addi,
    StableHlo.TRef.ternary main_call2.v1 main_call2.v3 (.of main_v1 : StableHlo.TRef sig ⟨S52, .i32⟩) main_call2.call0.v0 select,
    StableHlo.TRef.unary main_call2.call0.v0 main_call2.v5 (broadcastInDim S52x1 ![0] bcast_S52_S52x1_0),
    StableHlo.TRef.nullary main_call2.c_1 (constantI S1 32 12#32),
    StableHlo.TRef.nullary main_call2.c_2 (constantI S_ 32 0#32),
    StableHlo.TRef.unary main_call2.c_2 main_call2.v6 (broadcastInDim S52x1 ![] bcast_S_S52x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S52x1 ![0, 1] bcast_S1x1_S52x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S52x1_S52_d1 h_S_),
    StableHlo.TRef.binary (.of main_arg1 : StableHlo.TRef sig ⟨S13x64, .f32⟩) main_call2.v5 main_call2.v13 (fun x i => Host.gather gather_S13x64_S52x1_S52x64_1_0_n_n_0_1_164 x i),
    StableHlo.TRef.unary main_call2.v12 main_call2.v14 (broadcastInDim S52x64 ![0] bcast_S52_S52x64_0),
    StableHlo.TRef.nullary main_call2.cst (constant S_ .f32 0x7FC00000#32),
    StableHlo.TRef.unary main_call2.cst main_call2.v15 (broadcastInDim S52x64 ![] bcast_S_S52x64),
    StableHlo.TRef.ternary main_call2.v14 main_call2.v13 main_call2.v15 main_call2.v16 select,
    StableHlo.TRef.nullary main_call3.c (constantI S_ 32 0#32),
    StableHlo.TRef.unary main_call3.c main_call3.v0 (broadcastInDim S52 ![] bcast_S_S52),
    StableHlo.TRef.binary (.of main_v2 : StableHlo.TRef sig ⟨S52, .i32⟩) main_call3.v0 main_call3.v1 (cmpi .slt),
    StableHlo.TRef.nullary main_call3.c_0 (constantI S_ 32 4#32),
    StableHlo.TRef.unary main_call3.c_0 main_call3.v2 (broadcastInDim S52 ![] bcast_S_S52),
    StableHlo.TRef.binary (.of main_v2 : StableHlo.TRef sig ⟨S52, .i32⟩) main_call3.v2 main_call3.v3 addi,
    StableHlo.TRef.ternary main_call3.v1 main_call3.v3 (.of main_v2 : StableHlo.TRef sig ⟨S52, .i32⟩) main_call3.call0.v0 select,
    StableHlo.TRef.unary main_call3.call0.v0 main_call3.v5 (broadcastInDim S52x1 ![0] bcast_S52_S52x1_0),
    StableHlo.TRef.nullary main_call3.c_1 (constantI S1 32 3#32),
    StableHlo.TRef.nullary main_call3.c_2 (constantI S_ 32 0#32),
    StableHlo.TRef.unary main_call3.c_2 main_call3.v6 (broadcastInDim S52x1 ![] bcast_S_S52x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S52x1 ![0, 1] bcast_S1x1_S52x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S52x1_S52_d1 h_S_),
    StableHlo.TRef.binary (.of main_arg2 : StableHlo.TRef sig ⟨S4x64, .f32⟩) main_call3.v5 main_call3.v13 (fun x i => Host.gather gather_S4x64_S52x1_S52x64_1_0_n_n_0_1_164 x i),
    StableHlo.TRef.unary main_call3.v12 main_call3.v14 (broadcastInDim S52x64 ![0] bcast_S52_S52x64_0),
    StableHlo.TRef.nullary main_call3.cst (constant S_ .f32 0x7FC00000#32),
    StableHlo.TRef.unary main_call3.cst main_call3.v15 (broadcastInDim S52x64 ![] bcast_S_S52x64),
    StableHlo.TRef.ternary main_call3.v14 main_call3.v13 main_call3.v15 main_call3.v16 select,
    StableHlo.binary main_v3 main_v4 main_v5 ((fun a b => concatenate S52x128 1 [⟨S52x64, a⟩, ⟨S52x64, b⟩] concatenates_S52x64_S52x64_S52x128_d1) : (⟨S52x64, .f32⟩ : BufTy).Contents (Elt F) → (⟨S52x64, .f32⟩ : BufTy).Contents (Elt F) → (⟨S52x128, .f32⟩ : BufTy).Contents (Elt F)),
    StableHlo.unary main_v5 main_v6 (broadcastInDim S1x52x128 ![1, 2] bcast_S52x128_S1x52x128_1_2 : (⟨S52x128, .f32⟩ : BufTy).Contents (Elt F) → (⟨S1x52x128, .f32⟩ : BufTy).Contents (Elt F)),
    StableHlo.unary main_arg0 main_v7 (broadcastInDim S16384x52x1 ![0, 1] bcast_S16384x52_S16384x52x1_0_1 : (⟨S16384x52, .f32⟩ : BufTy).Contents (Elt F) → (⟨S16384x52x1, .f32⟩ : BufTy).Contents (Elt F)),
    StableHlo.unary main_v6 main_v8 (broadcastInDim S16384x52x128 ![0, 1, 2] bcast_S1x52x128_S16384x52x128_0_1_2 : (⟨S1x52x128, .f32⟩ : BufTy).Contents (Elt F) → (⟨S16384x52x128, .f32⟩ : BufTy).Contents (Elt F)),
    StableHlo.unary main_v7 main_v9 (broadcastInDim S16384x52x128 ![0, 1, 2] bcast_S16384x52x1_S16384x52x128_0_1_2 : (⟨S16384x52x1, .f32⟩ : BufTy).Contents (Elt F) → (⟨S16384x52x128, .f32⟩ : BufTy).Contents (Elt F)),
    StableHlo.binary main_v8 main_v9 main_v10 (mulf : (⟨S16384x52x128, .f32⟩ : BufTy).Contents (Elt F) → (⟨S16384x52x128, .f32⟩ : BufTy).Contents (Elt F) → (⟨S16384x52x128, .f32⟩ : BufTy).Contents (Elt F)),
    StableHlo.nullary main_cst (constant S_ .f32 0x00000000#32),
    StableHlo.binary main_arg0 main_cst main_v11 ((fun x v => Host.reduceAdd x v reducesTo_S16384x52_S16384_d1 h_S_) : (⟨S16384x52, .f32⟩ : BufTy).Contents (Elt F) → (⟨S_, .f32⟩ : BufTy).Contents (Elt F) → (⟨S16384, .f32⟩ : BufTy).Contents (Elt F)),
    StableHlo.unary main_v11 main_v12 (broadcastInDim S16384x1 ![0] bcast_S16384_S16384x1_0 : (⟨S16384, .f32⟩ : BufTy).Contents (Elt F) → (⟨S16384x1, .f32⟩ : BufTy).Contents (Elt F)),
    StableHlo.nullary main_cst_1 (constant S_ .f32 0x3F800000#32),
    StableHlo.TRef.unary (.of main_cst_1 : StableHlo.TRef sig ⟨S_, .f32⟩) main_call4.v0 id,
    StableHlo.TRef.unary main_call4.v0 main_call4.v1 (broadcastInDim S16384x1 ![] bcast_S_S16384x1),
    StableHlo.TRef.binary main_call4.v1 (.of main_v12 : StableHlo.TRef sig ⟨S16384x1, .f32⟩) main_call4.v2 maximumf,
    StableHlo.nullary main_cst_2 (constant S_ .f32 0x00000000#32),
    StableHlo.binary main_v10 main_cst_2 main_v14 ((fun x v => Host.reduceAdd x v reducesTo_S16384x52x128_S16384x128_d1 h_S_) : (⟨S16384x52x128, .f32⟩ : BufTy).Contents (Elt F) → (⟨S_, .f32⟩ : BufTy).Contents (Elt F) → (⟨S16384x128, .f32⟩ : BufTy).Contents (Elt F)),
    StableHlo.unary main_v13 main_v15 (broadcastInDim S16384x128 ![0, 1] bcast_S16384x1_S16384x128_0_1 : (⟨S16384x1, .f32⟩ : BufTy).Contents (Elt F) → (⟨S16384x128, .f32⟩ : BufTy).Contents (Elt F)),
    StableHlo.binary main_v14 main_v15 main_v16 (Host.divf : (⟨S16384x128, .f32⟩ : BufTy).Contents (Elt F) → (⟨S16384x128, .f32⟩ : BufTy).Contents (Elt F) → (⟨S16384x128, .f32⟩ : BufTy).Contents (Elt F)) ]

set_option maxRecDepth 8192 in
set_option maxHeartbeats 4000000 in
/-- The entry function is that straight line: the helper functions' definitions unfolded at their calls, both
    sides are one chain of steps once sequencing is reassociated. -/
theorem main_eq (c : Dev nD) : main (F := F) c = seq ops := by
  simp only [main, fn_where.body, fn_floor_divide.body, fn_where_0.body, fn_remainder.body, fn_take.body,
    fn_take_1.body, fn_clip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., unary_bufs_sub .., unary_bufs_sub .., unary_bufs_sub .., unary_bufs_sub .., binary_bufs_sub .., nullary_bufs_sub .., binary_bufs_sub .., unary_bufs_sub .., nullary_bufs_sub .., unary_bufs_sub .., unary_bufs_sub .., binary_bufs_sub .., nullary_bufs_sub .., binary_bufs_sub .., unary_bufs_sub .., binary_bufs_sub ..⟩

end Line

/-! ## The value each operation leaves, as a term of the three argument arrays

One definition per operation, in the line's order: the operation's function applied to the terms of its
operands. The integer values (the card numbers, their quotients and remainders by four, the look-ups'
wrapped indices and in-range masks) depend on no argument. -/

def t_v0 : (⟨S52, .i32⟩ : BufTy).Contents (Elt Ideal) :=
  iotaInDim S52 32 0
def t_c : (⟨S_, .i32⟩ : BufTy).Contents (Elt Ideal) :=
  constantI S_ 32 4#32
def t_call0_v0 : (⟨S_, .i32⟩ : BufTy).Contents (Elt Ideal) :=
  t_c
def t_call0_v1 : (⟨S52, .i32⟩ : BufTy).Contents (Elt Ideal) :=
  (broadcastInDim S52 ![] bcast_S_S52) t_call0_v0
def t_call0_v2 : (⟨S52, .i32⟩ : BufTy).Contents (Elt Ideal) :=
  Host.divsi t_v0 t_call0_v1
def t_call0_v3 : (⟨S52, .i32⟩ : BufTy).Contents (Elt Ideal) :=
  signi t_v0
def t_call0_v4 : (⟨S_, .i32⟩ : BufTy).Contents (Elt Ideal) :=
  signi t_call0_v0
def t_call0_v5 : (⟨S52, .i32⟩ : BufTy).Contents (Elt Ideal) :=
  (broadcastInDim S52 ![] bcast_S_S52) t_call0_v4
def t_call0_v6 : (⟨S52, .i1⟩ : BufTy).Contents (Elt Ideal) :=
  (cmpi .ne) t_call0_v3 t_call0_v5
def t_call0_v7 : (⟨S52, .i32⟩ : BufTy).Contents (Elt Ideal) :=
  (broadcastInDim S52 ![] bcast_S_S52) t_call0_v0
def t_call0_v8 : (⟨S52, .i32⟩ : BufTy).Contents (Elt Ideal) :=
  Host.remsi t_v0 t_call0_v7
def t_call0_c : (⟨S_, .i32⟩ : BufTy).Contents (Elt Ideal) :=
  constantI S_ 32 0#32
def t_call0_v9 : (⟨S52, .i32⟩ : BufTy).Contents (Elt Ideal) :=
  (broadcastInDim S52 ![] bcast_S_S52) t_call0_c
def t_call0_v10 : (⟨S52, .i1⟩ : BufTy).Contents (Elt Ideal) :=
  (cmpi .ne) t_call0_v8 t_call0_v9
def t_call0_v11 : (⟨S52, .i1⟩ : BufTy).Contents (Elt Ideal) :=
  andi t_call0_v6 t_call0_v10
def t_call0_c_0 : (⟨S_, .i32⟩ : BufTy).Contents (Elt Ideal) :=
  constantI S_ 32 1#32
def t_call0_v12 : (⟨S52, .i32⟩ : BufTy).Contents (Elt Ideal) :=
  (broadcastInDim S52 ![] bcast_S_S52) t_call0_c_0
def t_call0_v13 : (⟨S52, .i32⟩ : BufTy).Contents (Elt Ideal) :=
  subi t_call0_v2 t_call0_v12
def t_v1 : (⟨S52, .i32⟩ : BufTy).Contents (Elt Ideal) :=
  select t_call0_v11 t_call0_v13 t_call0_v2
def t_c_0 : (⟨S_, .i32⟩ : BufTy).Contents (Elt Ideal) :=
  constantI S_ 32 4#32
def t_call1_v0 : (⟨S_, .i32⟩ : BufTy).Contents (Elt Ideal) :=
  t_c_0
def t_call1_c : (⟨S_, .i32⟩ : BufTy).Contents (Elt Ideal) :=
  constantI S_ 32 0#32
def t_call1_v1 : (⟨S_, .i1⟩ : BufTy).Contents (Elt Ideal) :=
  (cmpi .eq) t_call1_v0 t_call1_c
def t_call1_c_0 : (⟨S_, .i32⟩ : BufTy).Contents (Elt Ideal) :=
  constantI S_ 32 1#32
def t_call1_v2 : (⟨S_, .i32⟩ : BufTy).Contents (Elt Ideal) :=
  select t_call1_v1 t_call1_c_0 t_call1_v0
def t_call1_v3 : (⟨S52, .i32⟩ : BufTy).Contents (Elt Ideal) :=
  (broadcastInDim S52 ![] bcast_S_S52) t_call1_v2
def t_call1_v4 : (⟨S52, .i32⟩ : BufTy).Contents (Elt Ideal) :=
  Host.remsi t_v0 t_call1_v3
def t_call1_c_1 : (⟨S_, .i32⟩ : BufTy).Contents (Elt Ideal) :=
  constantI S_ 32 0#32
def t_call1_v5 : (⟨S52, .i32⟩ : BufTy).Contents (Elt Ideal) :=
  (broadcastInDim S52 ![] bcast_S_S52) t_call1_c_1
def t_call1_v6 : (⟨S52, .i1⟩ : BufTy).Contents (Elt Ideal) :=
  (cmpi .ne) t_call1_v4 t_call1_v5
def t_call1_c_2 : (⟨S_, .i32⟩ : BufTy).Contents (Elt Ideal) :=
  constantI S_ 32 0#32
def t_call1_v7 : (⟨S52, .i32⟩ : BufTy).Contents (Elt Ideal) :=
  (broadcastInDim S52 ![] bcast_S_S52) t_call1_c_2
def t_call1_v8 : (⟨S52, .i1⟩ : BufTy).Contents (Elt Ideal) :=
  (cmpi .slt) t_call1_v4 t_call1_v7
def t_call1_c_3 : (⟨S_, .i32⟩ : BufTy).Contents (Elt Ideal) :=
  constantI S_ 32 0#32
def t_call1_v9 : (⟨S_, .i1⟩ : BufTy).Contents (Elt Ideal) :=
  (cmpi .slt) t_call1_v2 t_call1_c_3
def t_call1_v10 : (⟨S52, .i1⟩ : BufTy).Contents (Elt Ideal) :=
  (broadcastInDim S52 ![] bcast_S_S52) t_call1_v9
def t_call1_v11 : (⟨S52, .i1⟩ : BufTy).Contents (Elt Ideal) :=
  (cmpi .ne) t_call1_v8 t_call1_v10
def t_call1_v12 : (⟨S52, .i1⟩ : BufTy).Contents (Elt Ideal) :=
  andi t_call1_v11 t_call1_v6
def t_call1_v13 : (⟨S52, .i32⟩ : BufTy).Contents (Elt Ideal) :=
  (broadcastInDim S52 ![] bcast_S_S52) t_call1_v2
def t_call1_v14 : (⟨S52, .i32⟩ : BufTy).Contents (Elt Ideal) :=
  addi t_call1_v4 t_call1_v13
def t_v2 : (⟨S52, .i32⟩ : BufTy).Contents (Elt Ideal) :=
  select t_call1_v12 t_call1_v14 t_call1_v4
def t_call2_c : (⟨S_, .i32⟩ : BufTy).Contents (Elt Ideal) :=
  constantI S_ 32 0#32
def t_call2_v0 : (⟨S52, .i32⟩ : BufTy).Contents (Elt Ideal) :=
  (broadcastInDim S52 ![] bcast_S_S52) t_call2_c
def t_call2_v1 : (⟨S52, .i1⟩ : BufTy).Contents (Elt Ideal) :=
  (cmpi .slt) t_v1 t_call2_v0
def t_call2_c_0 : (⟨S_, .i32⟩ : BufTy).Contents (Elt Ideal) :=
  constantI S_ 32 13#32
def t_call2_v2 : (⟨S52, .i32⟩ : BufTy).Contents (Elt Ideal) :=
  (broadcastInDim S52 ![] bcast_S_S52) t_call2_c_0
def t_call2_v3 : (⟨S52, .i32⟩ : BufTy).Contents (Elt Ideal) :=
  addi t_v1 t_call2_v2
def t_call2_v4 : (⟨S52, .i32⟩ : BufTy).Contents (Elt Ideal) :=
  select t_call2_v1 t_call2_v3 t_v1
def t_call2_v5 : (⟨S52x1, .i32⟩ : BufTy).Contents (Elt Ideal) :=
  (broadcastInDim S52x1 ![0] bcast_S52_S52x1_0) t_call2_v4
def t_call2_c_1 : (⟨S1, .i32⟩ : BufTy).Contents (Elt Ideal) :=
  constantI S1 32 12#32
def t_call2_c_2 : (⟨S_, .i32⟩ : BufTy).Contents (Elt Ideal) :=
  constantI S_ 32 0#32
def t_call2_v6 : (⟨S52x1, .i32⟩ : BufTy).Contents (Elt Ideal) :=
  (broadcastInDim S52x1 ![] bcast_S_S52x1) t_call2_c_2
def t_call2_v7 : (⟨S52x1, .i1⟩ : BufTy).Contents (Elt Ideal) :=
  (cmpi .sge) t_call2_v5 t_call2_v6
def t_call2_v8 : (⟨S1x1, .i32⟩ : BufTy).Contents (Elt Ideal) :=
  (broadcastInDim S1x1 ![1] bcast_S1_S1x1_1) t_call2_c_1
def t_call2_v9 : (⟨S52x1, .i32⟩ : BufTy).Contents (Elt Ideal) :=
  (broadcastInDim S52x1 ![0, 1] bcast_S1x1_S52x1_0_1) t_call2_v8
def t_call2_v10 : (⟨S52x1, .i1⟩ : BufTy).Contents (Elt Ideal) :=
  (cmpi .sle) t_call2_v5 t_call2_v9
def t_call2_v11 : (⟨S52x1, .i1⟩ : BufTy).Contents (Elt Ideal) :=
  andi t_call2_v7 t_call2_v10
def t_call2_c_3 : (⟨S_, .i1⟩ : BufTy).Contents (Elt Ideal) :=
  constantI S_ 1 1#1
def t_call2_v12 : (⟨S52, .i1⟩ : BufTy).Contents (Elt Ideal) :=
  Host.reduce IntOp.andi t_call2_v11 t_call2_c_3 reducesTo_S52x1_S52_d1 h_S_
def t_call2_v13 (rk : (⟨S13x64, .f32⟩ : BufTy).Contents (Elt Ideal)) : (⟨S52x64, .f32⟩ : BufTy).Contents (Elt Ideal) :=
  Host.gather gather_S13x64_S52x1_S52x64_1_0_n_n_0_1_164 rk t_call2_v5
def t_call2_v14 : (⟨S52x64, .i1⟩ : BufTy).Contents (Elt Ideal) :=
  (broadcastInDim S52x64 ![0] bcast_S52_S52x64_0) t_call2_v12
def t_call2_cst : (⟨S_, .f32⟩ : BufTy).Contents (Elt Ideal) :=
  constant (F := Ideal) S_ .f32 0x7FC00000#32
def t_call2_v15 : (⟨S52x64, .f32⟩ : BufTy).Contents (Elt Ideal) :=
  (broadcastInDim S52x64 ![] bcast_S_S52x64) t_call2_cst
def t_v3 (rk : (⟨S13x64, .f32⟩ : BufTy).Contents (Elt Ideal)) : (⟨S52x64, .f32⟩ : BufTy).Contents (Elt Ideal) :=
  select t_call2_v14 (t_call2_v13 rk) t_call2_v15
def t_call3_c : (⟨S_, .i32⟩ : BufTy).Contents (Elt Ideal) :=
  constantI S_ 32 0#32
def t_call3_v0 : (⟨S52, .i32⟩ : BufTy).Contents (Elt Ideal) :=
  (broadcastInDim S52 ![] bcast_S_S52) t_call3_c
def t_call3_v1 : (⟨S52, .i1⟩ : BufTy).Contents (Elt Ideal) :=
  (cmpi .slt) t_v2 t_call3_v0
def t_call3_c_0 : (⟨S_, .i32⟩ : BufTy).Contents (Elt Ideal) :=
  constantI S_ 32 4#32
def t_call3_v2 : (⟨S52, .i32⟩ : BufTy).Contents (Elt Ideal) :=
  (broadcastInDim S52 ![] bcast_S_S52) t_call3_c_0
def t_call3_v3 : (⟨S52, .i32⟩ : BufTy).Contents (Elt Ideal) :=
  addi t_v2 t_call3_v2
def t_call3_v4 : (⟨S52, .i32⟩ : BufTy).Contents (Elt Ideal) :=
  select t_call3_v1 t_call3_v3 t_v2
def t_call3_v5 : (⟨S52x1, .i32⟩ : BufTy).Contents (Elt Ideal) :=
  (broadcastInDim S52x1 ![0] bcast_S52_S52x1_0) t_call3_v4
def t_call3_c_1 : (⟨S1, .i32⟩ : BufTy).Contents (Elt Ideal) :=
  constantI S1 32 3#32
def t_call3_c_2 : (⟨S_, .i32⟩ : BufTy).Contents (Elt Ideal) :=
  constantI S_ 32 0#32
def t_call3_v6 : (⟨S52x1, .i32⟩ : BufTy).Contents (Elt Ideal) :=
  (broadcastInDim S52x1 ![] bcast_S_S52x1) t_call3_c_2
def t_call3_v7 : (⟨S52x1, .i1⟩ : BufTy).Contents (Elt Ideal) :=
  (cmpi .sge) t_call3_v5 t_call3_v6
def t_call3_v8 : (⟨S1x1, .i32⟩ : BufTy).Contents (Elt Ideal) :=
  (broadcastInDim S1x1 ![1] bcast_S1_S1x1_1) t_call3_c_1
def t_call3_v9 : (⟨S52x1, .i32⟩ : BufTy).Contents (Elt Ideal) :=
  (broadcastInDim S52x1 ![0, 1] bcast_S1x1_S52x1_0_1) t_call3_v8
def t_call3_v10 : (⟨S52x1, .i1⟩ : BufTy).Contents (Elt Ideal) :=
  (cmpi .sle) t_call3_v5 t_call3_v9
def t_call3_v11 : (⟨S52x1, .i1⟩ : BufTy).Contents (Elt Ideal) :=
  andi t_call3_v7 t_call3_v10
def t_call3_c_3 : (⟨S_, .i1⟩ : BufTy).Contents (Elt Ideal) :=
  constantI S_ 1 1#1
def t_call3_v12 : (⟨S52, .i1⟩ : BufTy).Contents (Elt Ideal) :=
  Host.reduce IntOp.andi t_call3_v11 t_call3_c_3 reducesTo_S52x1_S52_d1 h_S_
def t_call3_v13 (su : (⟨S4x64, .f32⟩ : BufTy).Contents (Elt Ideal)) : (⟨S52x64, .f32⟩ : BufTy).Contents (Elt Ideal) :=
  Host.gather gather_S4x64_S52x1_S52x64_1_0_n_n_0_1_164 su t_call3_v5
def t_call3_v14 : (⟨S52x64, .i1⟩ : BufTy).Contents (Elt Ideal) :=
  (broadcastInDim S52x64 ![0] bcast_S52_S52x64_0) t_call3_v12
def t_call3_cst : (⟨S_, .f32⟩ : BufTy).Contents (Elt Ideal) :=
  constant (F := Ideal) S_ .f32 0x7FC00000#32
def t_call3_v15 : (⟨S52x64, .f32⟩ : BufTy).Contents (Elt Ideal) :=
  (broadcastInDim S52x64 ![] bcast_S_S52x64) t_call3_cst
def t_v4 (su : (⟨S4x64, .f32⟩ : BufTy).Contents (Elt Ideal)) : (⟨S52x64, .f32⟩ : BufTy).Contents (Elt Ideal) :=
  select t_call3_v14 (t_call3_v13 su) t_call3_v15
def t_v5 (rk : (⟨S13x64, .f32⟩ : BufTy).Contents (Elt Ideal)) (su : (⟨S4x64, .f32⟩ : BufTy).Contents (Elt Ideal)) : (⟨S52x128, .f32⟩ : BufTy).Contents (Elt Ideal) :=
  concatenate S52x128 1 [⟨S52x64, (t_v3 rk)⟩, ⟨S52x64, (t_v4 su)⟩] concatenates_S52x64_S52x64_S52x128_d1
def t_v6 (rk : (⟨S13x64, .f32⟩ : BufTy).Contents (Elt Ideal)) (su : (⟨S4x64, .f32⟩ : BufTy).Contents (Elt Ideal)) : (⟨S1x52x128, .f32⟩ : BufTy).Contents (Elt Ideal) :=
  broadcastInDim S1x52x128 ![1, 2] bcast_S52x128_S1x52x128_1_2 (t_v5 rk su)
def t_v7 (hand : (⟨S16384x52, .f32⟩ : BufTy).Contents (Elt Ideal)) : (⟨S16384x52x1, .f32⟩ : BufTy).Contents (Elt Ideal) :=
  broadcastInDim S16384x52x1 ![0, 1] bcast_S16384x52_S16384x52x1_0_1 hand
def t_v8 (rk : (⟨S13x64, .f32⟩ : BufTy).Contents (Elt Ideal)) (su : (⟨S4x64, .f32⟩ : BufTy).Contents (Elt Ideal)) : (⟨S16384x52x128, .f32⟩ : BufTy).Contents (Elt Ideal) :=
  broadcastInDim S16384x52x128 ![0, 1, 2] bcast_S1x52x128_S16384x52x128_0_1_2 (t_v6 rk su)
def t_v9 (hand : (⟨S16384x52, .f32⟩ : BufTy).Contents (Elt Ideal)) : (⟨S16384x52x128, .f32⟩ : BufTy).Contents (Elt Ideal) :=
  broadcastInDim S16384x52x128 ![0, 1, 2] bcast_S16384x52x1_S16384x52x128_0_1_2 (t_v7 hand)
def t_v10 (hand : (⟨S16384x52, .f32⟩ : BufTy).Contents (Elt Ideal)) (rk : (⟨S13x64, .f32⟩ : BufTy).Contents (Elt Ideal)) (su : (⟨S4x64, .f32⟩ : BufTy).Contents (Elt Ideal)) : (⟨S16384x52x128, .f32⟩ : BufTy).Contents (Elt Ideal) :=
  mulf (F := Ideal) (φ := .f32) (t_v8 rk su) (t_v9 hand)
def t_cst : (⟨S_, .f32⟩ : BufTy).Contents (Elt Ideal) :=
  constant (F := Ideal) S_ .f32 0x00000000#32
def t_v11 (hand : (⟨S16384x52, .f32⟩ : BufTy).Contents (Elt Ideal)) : (⟨S16384, .f32⟩ : BufTy).Contents (Elt Ideal) :=
  Host.reduceAdd (F := Ideal) (φ := .f32) hand t_cst reducesTo_S16384x52_S16384_d1 h_S_
def t_v12 (hand : (⟨S16384x52, .f32⟩ : BufTy).Contents (Elt Ideal)) : (⟨S16384x1, .f32⟩ : BufTy).Contents (Elt Ideal) :=
  broadcastInDim S16384x1 ![0] bcast_S16384_S16384x1_0 (t_v11 hand)
def t_cst_1 : (⟨S_, .f32⟩ : BufTy).Contents (Elt Ideal) :=
  constant (F := Ideal) S_ .f32 0x3F800000#32
def t_call4_v0 : (⟨S_, .f32⟩ : BufTy).Contents (Elt Ideal) :=
  t_cst_1
def t_call4_v1 : (⟨S16384x1, .f32⟩ : BufTy).Contents (Elt Ideal) :=
  (broadcastInDim S16384x1 ![] bcast_S_S16384x1) t_call4_v0
def t_v13 (hand : (⟨S16384x52, .f32⟩ : BufTy).Contents (Elt Ideal)) : (⟨S16384x1, .f32⟩ : BufTy).Contents (Elt Ideal) :=
  maximumf (F := Ideal) (φ := .f32) t_call4_v1 (t_v12 hand)
def t_cst_2 : (⟨S_, .f32⟩ : BufTy).Contents (Elt Ideal) :=
  constant (F := Ideal) S_ .f32 0x00000000#32
def t_v14 (hand : (⟨S16384x52, .f32⟩ : BufTy).Contents (Elt Ideal)) (rk : (⟨S13x64, .f32⟩ : BufTy).Contents (Elt Ideal)) (su : (⟨S4x64, .f32⟩ : BufTy).Contents (Elt Ideal)) : (⟨S16384x128, .f32⟩ : BufTy).Contents (Elt Ideal) :=
  Host.reduceAdd (F := Ideal) (φ := .f32) (t_v10 hand rk su) t_cst_2 reducesTo_S16384x52x128_S16384x128_d1 h_S_
def t_v15 (hand : (⟨S16384x52, .f32⟩ : BufTy).Contents (Elt Ideal)) : (⟨S16384x128, .f32⟩ : BufTy).Contents (Elt Ideal) :=
  broadcastInDim S16384x128 ![0, 1] bcast_S16384x1_S16384x128_0_1 (t_v13 hand)
def t_v16 (hand : (⟨S16384x52, .f32⟩ : BufTy).Contents (Elt Ideal)) (rk : (⟨S13x64, .f32⟩ : BufTy).Contents (Elt Ideal)) (su : (⟨S4x64, .f32⟩ : BufTy).Contents (Elt Ideal)) : (⟨S16384x128, .f32⟩ : BufTy).Contents (Elt Ideal) :=
  Host.divf (F := Ideal) (φ := .f32) (t_v14 hand rk su) (t_v15 hand)

/-- The result array as a term of the hand weights, the rank table and the suit table. -/
def refTerm (hand : (⟨S16384x52, .f32⟩ : BufTy).Contents (Elt Ideal)) (rk : (⟨S13x64, .f32⟩ : BufTy).Contents (Elt Ideal)) (su : (⟨S4x64, .f32⟩ : BufTy).Contents (Elt Ideal)) : (⟨S16384x128, .f32⟩ : BufTy).Contents (Elt Ideal) :=
  t_v16 hand rk su

end Cert.ReferenceIdeal.Hand

end
-- ==== Proof.RefRun.lean ====
/-
  The reference program's run, read back: the fold of its straight line of operations at the result buffer is
  the composed term of the three argument arrays, no operation writes an argument's buffer, and so every
  weakly fair execution ends with the result at that term and the arguments unchanged.
-/
import proofs.«203989_g3255585211076_cont_8to1_b_774_30_alg».proof.Proof.RefRun1

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

/-- The fold of two lines run one after the other is the second's from the first's. -/
theorem after_append' {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

section Parts
variable {F : FTy → Type} [FloatOps F]

/-- The line's first 87 operations: everything up to the two looked-up tables of card features. -/
abbrev opsA : List (HloOp τ sig (Elt F)) :=
  [ StableHlo.nullary main_v0 (iotaInDim S52 32 0),
    StableHlo.nullary main_c (constantI S_ 32 4#32),
    StableHlo.TRef.unary (.of main_c : StableHlo.TRef sig ⟨S_, .i32⟩) main_call0.v0 id,
    StableHlo.TRef.unary main_call0.v0 main_call0.v1 (broadcastInDim S52 ![] bcast_S_S52),
    StableHlo.TRef.binary (.of main_v0 : StableHlo.TRef sig ⟨S52, .i32⟩) main_call0.v1 main_call0.v2 Host.divsi,
    StableHlo.TRef.unary (.of main_v0 : StableHlo.TRef sig ⟨S52, .i32⟩) main_call0.v3 signi,
    StableHlo.TRef.unary main_call0.v0 main_call0.v4 signi,
    StableHlo.TRef.unary main_call0.v4 main_call0.v5 (broadcastInDim S52 ![] bcast_S_S52),
    StableHlo.TRef.binary main_call0.v3 main_call0.v5 main_call0.v6 (cmpi .ne),
    StableHlo.TRef.unary main_call0.v0 main_call0.v7 (broadcastInDim S52 ![] bcast_S_S52),
    StableHlo.TRef.binary (.of main_v0 : StableHlo.TRef sig ⟨S52, .i32⟩) main_call0.v7 main_call0.v8 Host.remsi,
    StableHlo.TRef.nullary main_call0.c (constantI S_ 32 0#32),
    StableHlo.TRef.unary main_call0.c main_call0.v9 (broadcastInDim S52 ![] bcast_S_S52),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S52 ![] bcast_S_S52),
    StableHlo.TRef.binary main_call0.v2 main_call0.v12 main_call0.v13 subi,
    StableHlo.TRef.ternary main_call0.v11 main_call0.v13 main_call0.v2 main_call0.call0.v0 select,
    StableHlo.nullary main_c_0 (constantI S_ 32 4#32),
    StableHlo.TRef.unary (.of main_c_0 : StableHlo.TRef sig ⟨S_, .i32⟩) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S52 ![] bcast_S_S52),
    StableHlo.TRef.binary (.of main_v0 : StableHlo.TRef sig ⟨S52, .i32⟩) main_call1.v3 main_call1.v4 Host.remsi,
    StableHlo.TRef.nullary main_call1.c_1 (constantI S_ 32 0#32),
    StableHlo.TRef.unary main_call1.c_1 main_call1.v5 (broadcastInDim S52 ![] bcast_S_S52),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S52 ![] bcast_S_S52),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S52 ![] bcast_S_S52),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S52 ![] bcast_S_S52),
    StableHlo.TRef.binary main_call1.v4 main_call1.v13 main_call1.v14 addi,
    StableHlo.TRef.ternary main_call1.v12 main_call1.v14 main_call1.v4 main_call1.v15 select,
    StableHlo.TRef.nullary main_call2.c (constantI S_ 32 0#32),
    StableHlo.TRef.unary main_call2.c main_call2.v0 (broadcastInDim S52 ![] bcast_S_S52),
    StableHlo.TRef.binary (.of main_v1 : StableHlo.TRef sig ⟨S52, .i32⟩) main_call2.v0 main_call2.v1 (cmpi .slt),
    StableHlo.TRef.nullary main_call2.c_0 (constantI S_ 32 13#32),
    StableHlo.TRef.unary main_call2.c_0 main_call2.v2 (broadcastInDim S52 ![] bcast_S_S52),
    StableHlo.TRef.binary (.of main_v1 : StableHlo.TRef sig ⟨S52, .i32⟩) main_call2.v2 main_call2.v3 addi,
    StableHlo.TRef.ternary main_call2.v1 main_call2.v3 (.of main_v1 : StableHlo.TRef sig ⟨S52, .i32⟩) main_call2.call0.v0 select,
    StableHlo.TRef.unary main_call2.call0.v0 main_call2.v5 (broadcastInDim S52x1 ![0] bcast_S52_S52x1_0),
    StableHlo.TRef.nullary main_call2.c_1 (constantI S1 32 12#32),
    StableHlo.TRef.nullary main_call2.c_2 (constantI S_ 32 0#32),
    StableHlo.TRef.unary main_call2.c_2 main_call2.v6 (broadcastInDim S52x1 ![] bcast_S_S52x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S52x1 ![0, 1] bcast_S1x1_S52x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S52x1_S52_d1 h_S_),
    StableHlo.TRef.binary (.of main_arg1 : StableHlo.TRef sig ⟨S13x64, .f32⟩) main_call2.v5 main_call2.v13 (fun x i => Host.gather gather_S13x64_S52x1_S52x64_1_0_n_n_0_1_164 x i),
    StableHlo.TRef.unary main_call2.v12 main_call2.v14 (broadcastInDim S52x64 ![0] bcast_S52_S52x64_0),
    StableHlo.TRef.nullary main_call2.cst (constant S_ .f32 0x7FC00000#32),
    StableHlo.TRef.unary main_call2.cst main_call2.v15 (broadcastInDim S52x64 ![] bcast_S_S52x64),
    StableHlo.TRef.ternary main_call2.v14 main_call2.v13 main_call2.v15 main_call2.v16 select,
    StableHlo.TRef.nullary main_call3.c (constantI S_ 32 0#32),
    StableHlo.TRef.unary main_call3.c main_call3.v0 (broadcastInDim S52 ![] bcast_S_S52),
    StableHlo.TRef.binary (.of main_v2 : StableHlo.TRef sig ⟨S52, .i32⟩) main_call3.v0 main_call3.v1 (cmpi .slt),
    StableHlo.TRef.nullary main_call3.c_0 (constantI S_ 32 4#32),
    StableHlo.TRef.unary main_call3.c_0 main_call3.v2 (broadcastInDim S52 ![] bcast_S_S52),
    StableHlo.TRef.binary (.of main_v2 : StableHlo.TRef sig ⟨S52, .i32⟩) main_call3.v2 main_call3.v3 addi,
    StableHlo.TRef.ternary main_call3.v1 main_call3.v3 (.of main_v2 : StableHlo.TRef sig ⟨S52, .i32⟩) main_call3.call0.v0 select,
    StableHlo.TRef.unary main_call3.call0.v0 main_call3.v5 (broadcastInDim S52x1 ![0] bcast_S52_S52x1_0),
    StableHlo.TRef.nullary main_call3.c_1 (constantI S1 32 3#32),
    StableHlo.TRef.nullary main_call3.c_2 (constantI S_ 32 0#32),
    StableHlo.TRef.unary main_call3.c_2 main_call3.v6 (broadcastInDim S52x1 ![] bcast_S_S52x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S52x1 ![0, 1] bcast_S1x1_S52x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S52x1_S52_d1 h_S_),
    StableHlo.TRef.binary (.of main_arg2 : StableHlo.TRef sig ⟨S4x64, .f32⟩) main_call3.v5 main_call3.v13 (fun x i => Host.gather gather_S4x64_S52x1_S52x64_1_0_n_n_0_1_164 x i),
    StableHlo.TRef.unary main_call3.v12 main_call3.v14 (broadcastInDim S52x64 ![0] bcast_S52_S52x64_0),
    StableHlo.TRef.nullary main_call3.cst (constant S_ .f32 0x7FC00000#32),
    StableHlo.TRef.unary main_call3.cst main_call3.v15 (broadcastInDim S52x64 ![] bcast_S_S52x64),
    StableHlo.TRef.ternary main_call3.v14 main_call3.v13 main_call3.v15 main_call3.v16 select ]

/-- The line's last 17 operations: the concatenation, the products, the two sums, the clip and the quotient. -/
abbrev opsB : List (HloOp τ sig (Elt F)) :=
  [ StableHlo.binary main_v3 main_v4 main_v5 ((fun a b => concatenate S52x128 1 [⟨S52x64, a⟩, ⟨S52x64, b⟩] concatenates_S52x64_S52x64_S52x128_d1) : (⟨S52x64, .f32⟩ : BufTy).Contents (Elt F) → (⟨S52x64, .f32⟩ : BufTy).Contents (Elt F) → (⟨S52x128, .f32⟩ : BufTy).Contents (Elt F)),
    StableHlo.unary main_v5 main_v6 (broadcastInDim S1x52x128 ![1, 2] bcast_S52x128_S1x52x128_1_2 : (⟨S52x128, .f32⟩ : BufTy).Contents (Elt F) → (⟨S1x52x128, .f32⟩ : BufTy).Contents (Elt F)),
    StableHlo.unary main_arg0 main_v7 (broadcastInDim S16384x52x1 ![0, 1] bcast_S16384x52_S16384x52x1_0_1 : (⟨S16384x52, .f32⟩ : BufTy).Contents (Elt F) → (⟨S16384x52x1, .f32⟩ : BufTy).Contents (Elt F)),
    StableHlo.unary main_v6 main_v8 (broadcastInDim S16384x52x128 ![0, 1, 2] bcast_S1x52x128_S16384x52x128_0_1_2 : (⟨S1x52x128, .f32⟩ : BufTy).Contents (Elt F) → (⟨S16384x52x128, .f32⟩ : BufTy).Contents (Elt F)),
    StableHlo.unary main_v7 main_v9 (broadcastInDim S16384x52x128 ![0, 1, 2] bcast_S16384x52x1_S16384x52x128_0_1_2 : (⟨S16384x52x1, .f32⟩ : BufTy).Contents (Elt F) → (⟨S16384x52x128, .f32⟩ : BufTy).Contents (Elt F)),
    StableHlo.binary main_v8 main_v9 main_v10 (mulf : (⟨S16384x52x128, .f32⟩ : BufTy).Contents (Elt F) → (⟨S16384x52x128, .f32⟩ : BufTy).Contents (Elt F) → (⟨S16384x52x128, .f32⟩ : BufTy).Contents (Elt F)),
    StableHlo.nullary main_cst (constant S_ .f32 0x00000000#32),
    StableHlo.binary main_arg0 main_cst main_v11 ((fun x v => Host.reduceAdd x v reducesTo_S16384x52_S16384_d1 h_S_) : (⟨S16384x52, .f32⟩ : BufTy).Contents (Elt F) → (⟨S_, .f32⟩ : BufTy).Contents (Elt F) → (⟨S16384, .f32⟩ : BufTy).Contents (Elt F)),
    StableHlo.unary main_v11 main_v12 (broadcastInDim S16384x1 ![0] bcast_S16384_S16384x1_0 : (⟨S16384, .f32⟩ : BufTy).Contents (Elt F) → (⟨S16384x1, .f32⟩ : BufTy).Contents (Elt F)),
    StableHlo.nullary main_cst_1 (constant S_ .f32 0x3F800000#32),
    StableHlo.TRef.unary (.of main_cst_1 : StableHlo.TRef sig ⟨S_, .f32⟩) main_call4.v0 id,
    StableHlo.TRef.unary main_call4.v0 main_call4.v1 (broadcastInDim S16384x1 ![] bcast_S_S16384x1),
    StableHlo.TRef.binary main_call4.v1 (.of main_v12 : StableHlo.TRef sig ⟨S16384x1, .f32⟩) main_call4.v2 maximumf,
    StableHlo.nullary main_cst_2 (constant S_ .f32 0x00000000#32),
    StableHlo.binary main_v10 main_cst_2 main_v14 ((fun x v => Host.reduceAdd x v reducesTo_S16384x52x128_S16384x128_d1 h_S_) : (⟨S16384x52x128, .f32⟩ : BufTy).Contents (Elt F) → (⟨S_, .f32⟩ : BufTy).Contents (Elt F) → (⟨S16384x128, .f32⟩ : BufTy).Contents (Elt F)),
    StableHlo.unary main_v13 main_v15 (broadcastInDim S16384x128 ![0, 1] bcast_S16384x1_S16384x128_0_1 : (⟨S16384x1, .f32⟩ : BufTy).Contents (Elt F) → (⟨S16384x128, .f32⟩ : BufTy).Contents (Elt F)),
    StableHlo.binary main_v14 main_v15 main_v16 (Host.divf : (⟨S16384x128, .f32⟩ : BufTy).Contents (Elt F) → (⟨S16384x128, .f32⟩ : BufTy).Contents (Elt F) → (⟨S16384x128, .f32⟩ : BufTy).Contents (Elt F)) ]

theorem ops_split : (ops (F := F)) = opsA ++ opsB := rfl

end Parts

set_option maxRecDepth 8192 in
set_option maxHeartbeats 4000000 in
/-- After the first part the rank look-up's buffer holds its term of the rank table. -/
theorem feats_rank (V : Valuation τ sig (Elt Ideal)) :
    after (opsA (F := Ideal)) V (main_v3 : DevRef τ sig) = t_v3 (V (main_arg1 : DevRef τ sig)) := by
  after_results_simp
  simp only [t_v0, t_c, t_call0_v0, t_call0_v1, t_call0_v2, t_call0_v3, t_call0_v4, t_call0_v5, t_call0_v6, t_call0_v7, t_call0_v8, t_call0_c, t_call0_v9, t_call0_v10, t_call0_v11, t_call0_c_0, t_call0_v12, t_call0_v13, t_v1, t_c_0, t_call1_v0, t_call1_c, t_call1_v1, t_call1_c_0, t_call1_v2, t_call1_v3, t_call1_v4, t_call1_c_1, t_call1_v5, t_call1_v6, t_call1_c_2, t_call1_v7, t_call1_v8, t_call1_c_3, t_call1_v9, t_call1_v10, t_call1_v11, t_call1_v12, t_call1_v13, t_call1_v14, t_v2, t_call2_c, t_call2_v0, t_call2_v1, t_call2_c_0, t_call2_v2, t_call2_v3, t_call2_v4, t_call2_v5, t_call2_c_1, t_call2_c_2, t_call2_v6, t_call2_v7, t_call2_v8, t_call2_v9, t_call2_v10, t_call2_v11, t_call2_c_3, t_call2_v12, t_call2_v13, t_call2_v14, t_call2_cst, t_call2_v15, t_v3, t_call3_c, t_call3_v0, t_call3_v1, t_call3_c_0, t_call3_v2, t_call3_v3, t_call3_v4, t_call3_v5, t_call3_c_1, t_call3_c_2, t_call3_v6, t_call3_v7, t_call3_v8, t_call3_v9, t_call3_v10, t_call3_v11, t_call3_c_3, t_call3_v12, t_call3_v13, t_call3_v14, t_call3_cst, t_call3_v15, t_v4, TRef.ofBuf, TRef.toBuf, cast_cast, cast_eq, id]

set_option maxRecDepth 8192 in
set_option maxHeartbeats 4000000 in
/-- After the first part the suit look-up's buffer holds its term of the suit table. -/
theorem feats_suit (V : Valuation τ sig (Elt Ideal)) :
    after (opsA (F := Ideal)) V (main_v4 : DevRef τ sig) = t_v4 (V (main_arg2 : DevRef τ sig)) := by
  after_results_simp
  simp only [t_v0, t_c, t_call0_v0, t_call0_v1, t_call0_v2, t_call0_v3, t_call0_v4, t_call0_v5, t_call0_v6, t_call0_v7, t_call0_v8, t_call0_c, t_call0_v9, t_call0_v10, t_call0_v11, t_call0_c_0, t_call0_v12, t_call0_v13, t_v1, t_c_0, t_call1_v0, t_call1_c, t_call1_v1, t_call1_c_0, t_call1_v2, t_call1_v3, t_call1_v4, t_call1_c_1, t_call1_v5, t_call1_v6, t_call1_c_2, t_call1_v7, t_call1_v8, t_call1_c_3, t_call1_v9, t_call1_v10, t_call1_v11, t_call1_v12, t_call1_v13, t_call1_v14, t_v2, t_call2_c, t_call2_v0, t_call2_v1, t_call2_c_0, t_call2_v2, t_call2_v3, t_call2_v4, t_call2_v5, t_call2_c_1, t_call2_c_2, t_call2_v6, t_call2_v7, t_call2_v8, t_call2_v9, t_call2_v10, t_call2_v11, t_call2_c_3, t_call2_v12, t_call2_v13, t_call2_v14, t_call2_cst, t_call2_v15, t_v3, t_call3_c, t_call3_v0, t_call3_v1, t_call3_c_0, t_call3_v2, t_call3_v3, t_call3_v4, t_call3_v5, t_call3_c_1, t_call3_c_2, t_call3_v6, t_call3_v7, t_call3_v8, t_call3_v9, t_call3_v10, t_call3_v11, t_call3_c_3, t_call3_v12, t_call3_v13, t_call3_v14, t_call3_cst, t_call3_v15, t_v4, TRef.ofBuf, TRef.toBuf, cast_cast, cast_eq, id]

set_option maxRecDepth 8192 in
set_option maxHeartbeats 4000000 in
/-- The first part does not write the hand weights' buffer. -/
theorem opsA_arg0 (V : Valuation τ sig (Elt Ideal)) :
    after (opsA (F := Ideal)) V (main_arg0 : DevRef τ sig) = V (main_arg0 : DevRef τ sig) := by
  after_results_simp

set_option maxRecDepth 8192 in
set_option maxHeartbeats 4000000 in
/-- The line's fold at the result buffer is that term of the arguments' contents: each operation's result read
    at its own buffer, every other buffer passed over, until only the arguments' contents are left — the last
    part first, over what the first part leaves in the two look-ups' buffers and the hand weights'. -/
theorem out_eq (V : Valuation τ sig (Elt Ideal)) :
    after (ops (F := Ideal)) V (main_v16 : DevRef τ sig)
      = refTerm (V (main_arg0 : DevRef τ sig)) (V (main_arg1 : DevRef τ sig)) (V (main_arg2 : DevRef τ sig)) := by
  rw [ops_split (F := Ideal), after_append']
  have h3 := feats_rank V
  have h4 := feats_suit V
  have h0 := opsA_arg0 V
  generalize after (opsA (F := Ideal)) V = W at h3 h4 h0 ⊢
  after_results_simp
  simp only [refTerm, t_v5, t_v6, t_v7, t_v8, t_v9, t_v10, t_cst, t_v11, t_v12, t_cst_1, t_call4_v0, t_call4_v1, t_v13, t_cst_2, t_v14, t_v15, t_v16, TRef.ofBuf, TRef.toBuf, cast_cast, cast_eq, id]
  rw [h3, h4, h0]

set_option maxRecDepth 8192 in
set_option maxHeartbeats 4000000 in
/-- No operation of the line writes the first argument's buffer. -/
theorem arg0_eq (V : Valuation τ sig (Elt Ideal)) :
    after (ops (F := Ideal)) V (main_arg0 : DevRef τ sig) = V (main_arg0 : DevRef τ sig) := by
  after_results_simp

set_option maxRecDepth 8192 in
set_option maxHeartbeats 4000000 in
/-- Nor the second's. -/
theorem arg1_eq (V : Valuation τ sig (Elt Ideal)) :
    after (ops (F := Ideal)) V (main_arg1 : DevRef τ sig) = V (main_arg1 : DevRef τ sig) := by
  after_results_simp

set_option maxRecDepth 8192 in
set_option maxHeartbeats 4000000 in
/-- Nor the third's. -/
theorem arg2_eq (V : Valuation τ sig (Elt Ideal)) :
    after (ops (F := Ideal)) V (main_arg2 : DevRef τ sig) = V (main_arg2 : DevRef τ sig) := by
  after_results_simp

/-- On every device, from any memory with zero counters: every weakly fair execution of the entry function
    terminates with the result buffer at `refTerm` of the arguments' launch contents and the arguments
    unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v16)
          = refTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v16).trans (out_eq (launchContents m c)),
      (h c main_arg0).trans (arg0_eq (launchContents m c)),
      (h c main_arg1).trans (arg1_eq (launchContents m c)),
      (h c main_arg2).trans (arg2_eq (launchContents m c))⟩)
    (run_seq scopedRefs_eq scopedSems_eq defs main (fun _ => ops) main_eq (fun _ => ops_sub) m g)

end Cert.ReferenceIdeal.Hand

end
-- ==== Proof.RefValue.lean ====
/-
  The reference's result term is the pooled representation of the specification, index by index.

  The integer part of the reference — the card numbers 0 … 51, their quotients and remainders by four, the
  wrap of a negative index and the in-range test of the two table look-ups — involves no argument: over
  the 52 cards it is computed outright. What is left is read at one index: a look-up is the table's row, the
  concatenation is the rank row on the first 64 columns and the suit row on the last 64, the two sums
  are sums over the 52 cards, and the quotient is the specification's up to the order of the factors
  and of the maximum's operands.
-/
import proofs.«203989_g3255585211076_cont_8to1_b_774_30_alg».proof.Proof.RefRun
import proofs.«203989_g3255585211076_cont_8to1_b_774_30_alg».proof.Proof.Spec
import Idealize.ShloMosaic.Lib.ValueIdx
import Idealize.ShloMosaic.Lib.ValueLayout
import Idealize.ShloMosaic.Lib.Pipeline.Value
import Idealize.ShloMosaic.PureOps.Reduce
import Idealize.ShloMosaic.PureOps.Ideal.Laws

noncomputable section

open scoped BigOperators

namespace Cert.ReferenceIdeal.Hand

open Cert.ReferenceIdeal Idealize.ShloMosaic Idealize.ShloMosaic.TcCoe Idealize.SL.Sem Idealize.ShloMosaic.ValueIdx
open Cert.ReferenceIdeal.Facts₀ Cert.ReferenceIdeal.Facts

/-! ## A row look-up read at an index -/

section Rows
variable {α : Type}

/-- The dimension numbers of a look-up of rows: operand `[N, C]`, start indices `[R, 1]`, result `[R, C]`. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The look-up at `(r, e)` is the operand's column `e` of the row the start index `idx[r, 0]` names, read signed
    and clamped into `[0, N − 1]`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (e : Fin C) :
    Host.gather (rowsDims N R C wf) x idx (ix2 r e)
      = x (ix2 ⟨min (idx (ix2 r (0 : Fin 1))).toInt.toNat (N - 1), by omega⟩ e) := by
  unfold Host.gather
  congr 1
  funext a
  refine Fin.ext ?_
  match a with
  | ⟨0, _⟩ =>
    show (rowsDims N R C wf).start (ix2 r e) idx 0 + (rowsDims N R C wf).batchCoord (ix2 r e) 0
        + (rowsDims N R C wf).offCoord (ix2 r e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx (ix2 r e) ⟨List.idxOf (0 : Fin 2) (rowsDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowsDims N R C wf).start (ix2 r e) idx 1 + (rowsDims N R C wf).batchCoord (ix2 r e) 1
        + (rowsDims N R C wf).offCoord (ix2 r e) 1 = e.val
    rw [GatherDims.batchCoord_eq_zero _ _ _ List.not_mem_nil]
    unfold GatherDims.start
    rw [dif_neg (show (1 : Fin 2) ∉ (rowsDims N R C wf).startIndexMap from
      (by decide : (1 : Fin 2) ∉ ([0] : List (Fin 2))))]
    unfold GatherDims.offCoord
    rw [dif_pos (show (1 : Fin 2) ∈ (rowsDims N R C wf).sKept from
      (GatherDims.mem_sKept _ _).mpr ⟨(by decide : (1 : Fin 2) ∉ ([0] : List (Fin 2))), List.not_mem_nil⟩)]
    simp only [Nat.zero_add, Nat.add_zero]
    rfl

end Rows

/-! ## A reduction by `and` of ones -/

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A reduction by `and`, from 1, of an array of ones is 1 at every index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x hx _

variable [Cert.ReferenceIdeal.Facts]

/-! ## The integer part, over the 52 cards -/

/-- Card `c`'s rank index, after the wrap of negative indices and the clamp into the table, is `c / 4`. -/
theorem rankIdx_val (c : Fin 52) : min (t_call2_v5 (ix2 c (0 : Fin 1))).toInt.toNat (13 - 1) = c.val / 4 :=
  (by decide +kernel : ∀ c : Fin 52,
    min (t_call2_v5 (ix2 c (0 : Fin 1))).toInt.toNat (13 - 1) = c.val / 4) c

/-- Every rank index is inside the rank table: the in-range test is 1 at every card. -/
theorem rankMask (c : Fin 52) (z : Fin 1) : t_call2_v11 (ix2 c z) = 1#1 :=
  (by decide +kernel : ∀ (c : Fin 52) (z : Fin 1), t_call2_v11 (ix2 c z) = 1#1) c z

/-- Card `c`'s suit index, after the wrap and the clamp, is `c % 4`. -/
theorem suitIdx_val (c : Fin 52) : min (t_call3_v5 (ix2 c (0 : Fin 1))).toInt.toNat (4 - 1) = c.val % 4 :=
  (by decide +kernel : ∀ c : Fin 52,
    min (t_call3_v5 (ix2 c (0 : Fin 1))).toInt.toNat (4 - 1) = c.val % 4) c

/-- Every suit index is inside the suit table. -/
theorem suitMask (c : Fin 52) (z : Fin 1) : t_call3_v11 (ix2 c z) = 1#1 :=
  (by decide +kernel : ∀ (c : Fin 52) (z : Fin 1), t_call3_v11 (ix2 c z) = 1#1) c z

/-! ## The two look-ups read at an index -/

/-- The rank look-up's in-range mask is 1 at every card. -/
theorem rankMask12 (j : S52.Idx) : t_call2_v12 j = 1#1 := by
  unfold t_call2_v12
  refine reduce_andi_ones _ _ _ _ (fun i => ?_) (fun _ => rfl) j
  rw [eq_ix2 i]
  exact rankMask _ _

/-- The suit look-up's in-range mask is 1 at every card. -/
theorem suitMask12 (j : S52.Idx) : t_call3_v12 j = 1#1 := by
  unfold t_call3_v12
  refine reduce_andi_ones _ _ _ _ (fun i => ?_) (fun _ => rfl) j
  rw [eq_ix2 i]
  exact suitMask _ _

/-- The rank look-up at card `c`, column `e`: the rank table's row `c / 4`. -/
theorem t_v3_apply (rk : (⟨S13x64, .f32⟩ : BufTy).Contents (Elt Ideal)) (c : Fin 52) (e : Fin 64) :
    t_v3 rk (ix2 c e) = rk (ix2 (⟨c.val / 4, by omega⟩ : Fin 13) e) := by
  have hm : t_call2_v14 (ix2 c e) = 1#1 := by
    unfold t_call2_v14 broadcastInDim
    exact rankMask12 _
  unfold t_v3
  rw [select_apply, hm, select_one]
  unfold t_call2_v13
  refine (gather_rows_apply (N := 13) (R := 52) (C := 64) (by decide) gather_S13x64_S52x1_S52x64_1_0_n_n_0_1_164_wf rk t_call2_v5 c e).trans ?_
  exact congrArg (fun k : Fin 13 => rk (ix2 k e)) (Fin.ext (rankIdx_val c))

/-- The suit look-up at card `c`, column `e`: the suit table's row `c % 4`. -/
theorem t_v4_apply (su : (⟨S4x64, .f32⟩ : BufTy).Contents (Elt Ideal)) (c : Fin 52) (e : Fin 64) :
    t_v4 su (ix2 c e) = su (ix2 (⟨c.val % 4, by omega⟩ : Fin 4) e) := by
  have hm : t_call3_v14 (ix2 c e) = 1#1 := by
    unfold t_call3_v14 broadcastInDim
    exact suitMask12 _
  unfold t_v4
  rw [select_apply, hm, select_one]
  unfold t_call3_v13
  refine (gather_rows_apply (N := 4) (R := 52) (C := 64) (by decide) gather_S4x64_S52x1_S52x64_1_0_n_n_0_1_164_wf su t_call3_v5 c e).trans ?_
  exact congrArg (fun k : Fin 4 => su (ix2 k e)) (Fin.ext (suitIdx_val c))

/-! ## The card-feature table -/

/-- The concatenation at card `c`, feature `e` is the specification's card feature. -/
theorem t_v5_apply (rk : (⟨S13x64, .f32⟩ : BufTy).Contents (Elt Ideal)) (su : (⟨S4x64, .f32⟩ : BufTy).Contents (Elt Ideal))
    (c : Fin 52) (e : Fin 128) : t_v5 rk su (ix2 c e) = Cert.Spec.cardFeat rk su c e := by
  unfold t_v5 Cert.Spec.cardFeat
  by_cases h : e.val < 64
  · rw [dif_pos h]
    refine (concatenate_pair_apply_left (1 : Fin 2) (t_v3 rk) (t_v4 su) concatenates_S52x64_S52x64_S52x128_d1
      (ix2 c e) rfl (ix2 c (⟨e.val, h⟩ : Fin 64)) (fun b => ?_)).trans (t_v3_apply rk c _)
    match b with
    | ⟨0, _⟩ => rfl
    | ⟨1, _⟩ => rfl
  · rw [dif_neg h]
    refine (concatenate_pair_apply_right (1 : Fin 2) (t_v3 rk) (t_v4 su) concatenates_S52x64_S52x64_S52x128_d1
      (ix2 c e) rfl rfl (ix2 c (⟨e.val - 64, by omega⟩ : Fin 64)) (fun b hb => ?_) ?_).trans (t_v4_apply su c _)
    · match b with
      | ⟨0, _⟩ => rfl
      | ⟨1, _⟩ => exact absurd rfl hb
    · show (e.val - 64) + 64 = e.val
      omega

/-! ## The products and the two sums -/

/-- The product array at hand `b`, card `c`, feature `e`: the card's feature times the hand's weight of the card. -/
theorem t_v10_apply (hand : (⟨S16384x52, .f32⟩ : BufTy).Contents (Elt Ideal)) (rk : (⟨S13x64, .f32⟩ : BufTy).Contents (Elt Ideal))
    (su : (⟨S4x64, .f32⟩ : BufTy).Contents (Elt Ideal)) (b : Fin 16384) (c : Fin 52) (e : Fin 128) :
    t_v10 hand rk su (ix3 b c e) = Cert.Spec.cardFeat rk su c e * hand (ix2 b c) := by
  unfold t_v10
  rw [mulf_apply]
  congr 1
  · unfold t_v8 t_v6
    refine (broadcastInDim_apply _ _ _ (ix3 b c e) (ix3 (0 : Fin 1) c e) (fun a => ?_)).trans ?_
    · match a with
      | ⟨0, _⟩ => rfl
      | ⟨1, _⟩ => rfl
      | ⟨2, _⟩ => rfl
    refine (broadcastInDim_apply _ _ _ (ix3 (0 : Fin 1) c e) (ix2 c e) (fun a => ?_)).trans (t_v5_apply rk su c e)
    match a with
    | ⟨0, _⟩ => rfl
    | ⟨1, _⟩ => rfl
  · unfold t_v9 t_v7
    refine (broadcastInDim_apply _ _ _ (ix3 b c e) (ix3 b c (0 : Fin 1)) (fun a => ?_)).trans ?_
    · match a with
      | ⟨0, _⟩ => rfl
      | ⟨1, _⟩ => rfl
      | ⟨2, _⟩ => rfl
    refine broadcastInDim_apply _ _ _ (ix3 b c (0 : Fin 1)) (ix2 b c) (fun a => ?_)
    match a with
    | ⟨0, _⟩ => rfl
    | ⟨1, _⟩ => rfl

/-- The sum over the cards of the products, at hand `b`, feature `e`. -/
theorem t_v14_apply (hand : (⟨S16384x52, .f32⟩ : BufTy).Contents (Elt Ideal)) (rk : (⟨S13x64, .f32⟩ : BufTy).Contents (Elt Ideal))
    (su : (⟨S4x64, .f32⟩ : BufTy).Contents (Elt Ideal)) (b : Fin 16384) (e : Fin 128) :
    t_v14 hand rk su (ix2 b e) = ∑ k : Fin 52, hand (ix2 b k) * Cert.Spec.cardFeat rk su k e := by
  have hR : S16384x52x128.Reduces [1] S16384x128 := by decide
  unfold t_v14
  show Ideal.hostReduceAdd reducesTo_S16384x52x128_S16384x128_d1 (t_v10 hand rk su) (t_cst_2 _) (ix2 b e) = _
  rw [Ideal.hostReduceAdd_single _ hR]
  show Ideal.ofBits .f32 0x00000000#32 + _ = _
  rw [Ideal.ofBits_zero_f32, zero_add]
  show (∑ k : Fin 52, t_v10 hand rk su (hR.lift (ix2 b e) k)) = _
  refine Finset.sum_congr rfl fun k _ => ?_
  have hl : hR.lift (ix2 b e) k = ix3 b k e := by
    funext a
    match a with
    | ⟨0, _⟩ => exact Fin.ext rfl
    | ⟨1, _⟩ => exact Fin.ext rfl
    | ⟨2, _⟩ => exact Fin.ext rfl
  rw [hl, t_v10_apply, mul_comm]

/-- The clipped total weight of hand `b`, broadcast over the features. -/
theorem t_v15_apply (hand : (⟨S16384x52, .f32⟩ : BufTy).Contents (Elt Ideal)) (b : Fin 16384) (e : Fin 128) :
    t_v15 hand (ix2 b e) = max (∑ k : Fin 52, hand (ix2 b k)) (Ideal.ofBits .f32 0x3F800000#32) := by
  have hR : S16384x52.Reduces [1] S16384 := by decide
  unfold t_v15
  refine (broadcastInDim_apply _ _ _ (ix2 b e) (ix2 b (0 : Fin 1)) (fun a => ?_)).trans ?_
  · match a with
    | ⟨0, _⟩ => rfl
    | ⟨1, _⟩ => rfl
  unfold t_v13
  rw [maximumf_apply, max_comm]
  refine congrArg₂ max ?_ rfl
  unfold t_v12
  refine (broadcastInDim_apply _ _ _ (ix2 b (0 : Fin 1)) (ix1 b) (fun a => ?_)).trans ?_
  · match a with
    | ⟨0, _⟩ => rfl
  unfold t_v11
  show Ideal.hostReduceAdd reducesTo_S16384x52_S16384_d1 hand (t_cst _) (ix1 b) = _
  rw [Ideal.hostReduceAdd_single _ hR]
  show Ideal.ofBits .f32 0x00000000#32 + _ = _
  rw [Ideal.ofBits_zero_f32, zero_add]
  show (∑ k : Fin 52, hand (hR.lift (ix1 b) k)) = _
  refine Finset.sum_congr rfl fun k _ => ?_
  have hl : hR.lift (ix1 b) k = ix2 b k := by
    funext a
    match a with
    | ⟨0, _⟩ => exact Fin.ext rfl
    | ⟨1, _⟩ => exact Fin.ext rfl
  rw [hl]

/-! ## The result -/

/-- A quotient of two arrays at an index is the quotient of the elements there. -/
theorem hostDivf_apply {s : Shape} {φ : FTy} (x y : FVec Ideal s φ) (i : s.Idx) :
    Host.divf x y i = Ideal.div (x i) (y i) := rfl

/-- The reference's result term is the specification's pooled representation. -/
theorem refTerm_eq (hand : S16384x52.Idx → EReal) (rk : S13x64.Idx → EReal) (su : S4x64.Idx → EReal) :
    refTerm hand rk su = Cert.Spec.pooled hand rk su := by
  funext i
  obtain ⟨b, e, rfl⟩ : ∃ (b : Fin 16384) (e : Fin 128), i = ix2 b e := ⟨i 0, i 1, eq_ix2 i⟩
  unfold refTerm t_v16
  rw [hostDivf_apply, t_v14_apply, t_v15_apply]
  show _ = Cert.Spec.pooledAt hand (Cert.Spec.cardFeats rk su) b e
  unfold Cert.Spec.pooledAt Cert.Spec.cardFeats
  rfl

/-- The run with the specification in place of the composed term: every weakly fair execution of the reference
    ends with the result buffer at the pooled representation of the launch contents and the arguments unchanged. -/
theorem run' (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v16)
          = Cert.Spec.pooled (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (refTerm_eq _ _ _), (h c).2⟩) (run m g)

end Cert.ReferenceIdeal.Hand

end
-- ==== Proof.lean ====
/-
  The certificate's five conjuncts.

  Both programs compute, for every hand `b` and feature `e`, the weighted sum over the 52 cards of the card's feature
  entry — card `c`'s feature row being rank row `c / 4` followed by suit row `c % 4` — divided by the larger of the
  hand's total weight and one (`Cert.Spec.pooled`). The kernel program builds the card-feature table on the vector
  subcores and pools on the TensorCore, block by block; the reference gathers, concatenates, multiplies and reduces on
  the host. On the extended reals the two are one function of the three argument arrays: products commute, the two
  sums range over the same 52 terms, and the larger of two numbers does not depend on their order. No step uses
  finiteness of the inputs.

  The three frames are the programs' runs with the result's value dropped; the idealization rewrote nothing, so its
  conjunct is trivial.
-/
import proofs.«203989_g3255585211076_cont_8to1_b_774_30_alg».proof.Defs
import proofs.«203989_g3255585211076_cont_8to1_b_774_30_alg».proof.Proof.Gen.Kernel
import proofs.«203989_g3255585211076_cont_8to1_b_774_30_alg».proof.Proof.Gen.KernelIdeal
import proofs.«203989_g3255585211076_cont_8to1_b_774_30_alg».proof.Proof.Gen.ReferenceIdeal
import proofs.«203989_g3255585211076_cont_8to1_b_774_30_alg».proof.Proof.Gen.Pre_finite_inputs
import proofs.«203989_g3255585211076_cont_8to1_b_774_30_alg».proof.Proof.Spec
import proofs.«203989_g3255585211076_cont_8to1_b_774_30_alg».proof.Proof.KIRun
import proofs.«203989_g3255585211076_cont_8to1_b_774_30_alg».proof.Proof.KBRun
import proofs.«203989_g3255585211076_cont_8to1_b_774_30_alg».proof.Proof.KITile
import proofs.«203989_g3255585211076_cont_8to1_b_774_30_alg».proof.Proof.KBTile
import proofs.«203989_g3255585211076_cont_8to1_b_774_30_alg».proof.Proof.KIPool
import proofs.«203989_g3255585211076_cont_8to1_b_774_30_alg».proof.Proof.KBPool
import proofs.«203989_g3255585211076_cont_8to1_b_774_30_alg».proof.Proof.PoolValue
import proofs.«203989_g3255585211076_cont_8to1_b_774_30_alg».proof.Proof.PoolEq
import proofs.«203989_g3255585211076_cont_8to1_b_774_30_alg».proof.Proof.RefValue

noncomputable section

namespace Cert.Proof

open Idealize.ShloMosaic Idealize.SL.Sem

/-- The kernel program as printed: its run, the result's value dropped. -/
theorem frame_k : Cert.frame_Kernel (hKernel := Cert.Kernel.Gen.facts) (hPre_finite_inputs := Cert.Pre_finite_inputs.Gen.facts) := fun m ρ _ =>
  (θ_run Cert.Kernel.defs _ _).mono (fun _ h c => ⟨(h c).2.1, (h c).2.2.1, (h c).2.2.2⟩)
    (Cert.Kernel.Hand.run_of (F := Bits) m ρ Cert.Kernel.Hand.poolG (Cert.Kernel.Hand.tileObl m) (Cert.Kernel.Hand.pdats m)
      (Cert.Kernel.Hand.poolReg m) (fun _ => rfl) (fun _ => rfl))

/-- The idealized kernel program's run: the result array at the specification, the arguments as launched. -/
theorem run_ki (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (Cert.KernelIdeal.threads (F := Ideal)) ⟨m, fun _ => 0, ρ⟩ (fun r => ∀ c : Dev Cert.KernelIdeal.nD,
      r.2.mem ((c.tc : Thread Cert.KernelIdeal.nD Cert.KernelIdeal.τ).loc Cert.KernelIdeal.main_v1)
        = Cert.Spec.pooled (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono (fun _ h c => ⟨(h c).1.trans (by
      show Cert.KernelIdeal.Hand.poolG (F := Ideal) _ (Cert.KernelIdeal.Hand.cfG (F := Ideal) _ _) = _
      rw [Cert.KernelIdeal.IdealValue.poolG_eq, Cert.KernelIdeal.IdealValue.cfG_eq]; rfl), (h c).2⟩)
    (Cert.KernelIdeal.Hand.run_of (F := Ideal) m ρ Cert.KernelIdeal.Hand.poolG (Cert.KernelIdeal.Hand.tileObl m) (Cert.KernelIdeal.Hand.pdats m)
      (Cert.KernelIdeal.Hand.poolReg m) (fun _ => rfl) (fun _ => rfl))

theorem frame_ki : Cert.frame_KernelIdeal (hKernelIdeal := Cert.KernelIdeal.Gen.facts) (hPre_finite_inputs := Cert.Pre_finite_inputs.Gen.facts) := fun m ρ _ =>
  (θ_run Cert.KernelIdeal.defs _ _).mono (fun _ h c => (h c).2) (run_ki m ρ)

theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Hand.run' m ρ)

/-- The idealization rewrote no operation. -/
theorem preserves : Cert.preserves_Kernel_KernelIdeal := trivial

/-- From memories agreeing on the three arguments both programs end with the result array at the specification of those
    arguments. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' _ hagree
  refine ⟨_, run_ki m ρ, ?_⟩
  refine (θ_run Cert.ReferenceIdeal.defs _ _).mono (fun _ h c => ⟨(h c).1.trans ?_, (h c).2⟩) (Cert.ReferenceIdeal.Hand.run' m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
